-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x40960 : Shape := ⟨2, ![2048, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S2048x40960 : S_.BroadcastsInDim S2048x40960 (![] : Fin 0 → Fin S2048x40960.rank)
  reducesTo_S2048x40960_S_d0_1 : S2048x40960.ReducesTo [0, 1] S_
  h_S_ : 0 < S_.numel
  bcast_S_S256x40960 : S_.BroadcastsInDim S256x40960 (![] : Fin 0 → Fin S256x40960.rank)
  reducesTo_S256x40960_S_d0_1 : S256x40960.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S32 .f32) (main_arg8 : FVec F S32x32 .f32) (main_arg9 : FVec F S32 .f32) (main_arg10 : FVec F S1x32 .f32) (main_arg11 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S1x32 .f32 := Host.absf main_arg10
  let main_cst_18 : FVec F S_ .f32 := constant S_ .f32 0x7F800000#32
  let main_v50 : FVec F S1x32 .f32 := broadcastInDim S1x32 ![] bcast_S_S1x32 main_cst_18
  fn_part3 (F := F) main_arg11 main_v48 main_v49 main_v50

def fn_part1 {F : FTy → Type} [FloatOps F] (main_arg4 : FVec F S256x40960 .f32) (main_arg5 : FVec F S256 .f32) (main_arg6 : FVec F S32x512 .f32) (main_arg7 : FVec F S32 .f32) (main_arg8 : FVec F S32x32 .f32) (main_arg9 : FVec F S32 .f32) (main_arg10 : FVec F S1x32 .f32) (main_arg11 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x40960 .f32 := Host.absf main_arg4
  let main_cst_6 : FVec F S_ .f32 := constant S_ .f32 0x7F800000#32
  let main_v20 : FVec F S256x40960 .f32 := broadcastInDim S256x40960 ![] bcast_S_S256x40960 main_cst_6
  let main_v21 : IVec S256x40960 1 := cmpf .olt main_v19 main_v20
  let main_c_7 : IVec S_ 1 := constantI S_ 1 1#1
  let main_v22 : IVec S_ 1 := (fun x v => Host.reduce IntOp.andi x v reducesTo_S256x40960_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S32x512 .f32 := Host.absf main_arg6
  let main_cst_10 : FVec F S_ .f32 := constant S_ .f32 0x7F800000#32
  let main_v30 : FVec F S32x512 .f32 := broadcastInDim S32x512 ![] bcast_S_S32x512 main_cst_10
  let main_v31 : IVec S32x512 1 := cmpf .olt main_v29 main_v30
  let main_c_11 : IVec S_ 1 := constantI S_ 1 1#1
  let main_v32 : IVec S_ 1 := (fun x v => Host.reduce IntOp.andi x v reducesTo_S32x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x40960 .f32) (main_arg1 : FVec F S2048x40960 .f32) (main_arg2 : FVec F S256x40960 .f32) (main_arg3 : FVec F S256 .f32) (main_arg4 : FVec F S256x40960 .f32) (main_arg5 : FVec F S256 .f32) (main_arg6 : FVec F S32x512 .f32) (main_arg7 : FVec F S32 .f32) (main_arg8 : FVec F S32x32 .f32) (main_arg9 : FVec F S32 .f32) (main_arg10 : FVec F S1x32 .f32) (main_arg11 : FVec F S1 .f32) : IVec S_ 1 :=
  let main_v0 : FVec F S2048x40960 .f32 := Host.absf main_arg0
  let main_cst : FVec F S_ .f32 := constant S_ .f32 0x7F800000#32
  let main_v1 : FVec F S2048x40960 .f32 := broadcastInDim S2048x40960 ![] bcast_S_S2048x40960 main_cst
  let main_v2 : IVec S2048x40960 1 := cmpf .olt main_v0 main_v1
  let main_c : IVec S_ 1 := constantI S_ 1 1#1
  let main_v3 : IVec S_ 1 := (fun x v => Host.reduce IntOp.andi x v reducesTo_S2048x40960_S_d0_1 h_S_) main_v2 main_c
  let main_v4 : FVec F S2048x40960 .f32 := Host.absf main_arg1
  let main_cst_0 : FVec F S_ .f32 := constant S_ .f32 0x7F800000#32
  let main_v5 : FVec F S2048x40960 .f32 := broadcastInDim S2048x40960 ![] bcast_S_S2048x40960 main_cst_0
  let main_v6 : IVec S2048x40960 1 := cmpf .olt main_v4 main_v5
  let main_c_1 : IVec S_ 1 := constantI S_ 1 1#1
  let main_v7 : IVec S_ 1 := (fun x v => Host.reduce IntOp.andi x v reducesTo_S2048x40960_S_d0_1 h_S_) main_v6 main_c_1
  let main_v8 : IVec S_ 1 := andi main_v3 main_v7
  let main_v9 : FVec F S256x40960 .f32 := Host.absf main_arg2
  let main_cst_2 : FVec F S_ .f32 := constant S_ .f32 0x7F800000#32
  let main_v10 : FVec F S256x40960 .f32 := broadcastInDim S256x40960 ![] bcast_S_S256x40960 main_cst_2
  let main_v11 : IVec S256x40960 1 := cmpf .olt main_v9 main_v10
  let main_c_3 : IVec S_ 1 := constantI S_ 1 1#1
  let main_v12 : IVec S_ 1 := (fun x v => Host.reduce IntOp.andi x v reducesTo_S256x40960_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S2048x40960 : Shape := ⟨2, ![2048, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1x256 : Shape := ⟨2, ![1, 256]⟩
abbrev S2048x512 : Shape := ⟨2, ![2048, 512]⟩
abbrev S1024x512 : Shape := ⟨2, ![1024, 512]⟩
abbrev S256x512 : Shape := ⟨2, ![256, 512]⟩
abbrev S1024x256 : Shape := ⟨2, ![1024, 256]⟩
abbrev S512x256 : Shape := ⟨2, ![512, 256]⟩
abbrev S1x1 : Shape := ⟨2, ![1, 1]⟩
abbrev S2048x1 : Shape := ⟨2, ![2048, 1]⟩
abbrev S512x32 : Shape := ⟨2, ![512, 32]⟩
abbrev S2048x32 : Shape := ⟨2, ![2048, 32]⟩
abbrev S32x1 : Shape := ⟨2, ![32, 1]⟩
abbrev S2048 : Shape := ⟨1, ![2048]⟩

abbrev nBuf : Space → Nat
  | .hbm => 20
  | .vmem => 22
  | .smem => 0
  | _ => 0

abbrev bufTy : (tb : Table) → Fin (tcTables nBuf tb) → BufTy
  | .hbm, ⟨0, _⟩ => ⟨S2048x40960, .f32⟩
  | .hbm, ⟨1, _⟩ => ⟨S2048x40960, .f32⟩
  | .hbm, ⟨2, _⟩ => ⟨S256x40960, .f32⟩
  | .hbm, ⟨3, _⟩ => ⟨S256, .f32⟩
  | .hbm, ⟨4, _⟩ => ⟨S256x40960, .f32⟩
  | .hbm, ⟨5, _⟩ => ⟨S256, .f32⟩
  | .hbm, ⟨6, _⟩ => ⟨S32x512, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S1x32, .f32⟩
  | .hbm, ⟨11, _⟩ => ⟨S1, .f32⟩
  | .hbm, ⟨12, _⟩ => ⟨S1x256, .f32⟩
  | .hbm, ⟨13, _⟩ => ⟨S1x256, .f32⟩
  | .hbm, ⟨14, _⟩ => ⟨S2048x512, .f32⟩
  | .hbm, ⟨15, _⟩ => ⟨S1x32, .f32⟩
  | .hbm, ⟨16, _⟩ => ⟨S1x32, .f32⟩
  | .hbm, ⟨17, _⟩ => ⟨S1x1, .f32⟩
  | .hbm, ⟨18, _⟩ => ⟨S2048x1, .f32⟩
  | .hbm, ⟨19, _⟩ => ⟨S2048, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x256, .f32⟩
  | .local _ .vmem, ⟨9, _⟩ => ⟨S1x256, .f32⟩
  | .local _ .vmem, ⟨10, _⟩ => ⟨S1024x512, .f32⟩
  | .local _ .vmem, ⟨11, _⟩ => ⟨S1024x512, .f32⟩
  | .local _ .vmem, ⟨12, _⟩ => ⟨S1024x256, .f32⟩
  | .local _ .vmem, ⟨13, _⟩ => ⟨S1024x256, .f32⟩
  | .local _ .vmem, ⟨14, _⟩ => ⟨S2048x512, .f32⟩
  | .local _ .vmem, ⟨15, _⟩ => ⟨S32x512, .f32⟩
  | .local _ .vmem, ⟨16, _⟩ => ⟨S1x32, .f32⟩
  | .local _ .vmem, ⟨17, _⟩ => ⟨S32x32, .f32⟩
  | .local _ .vmem, ⟨18, _⟩ => ⟨S1x32, .f32⟩
  | .local _ .vmem, ⟨19, _⟩ => ⟨S1x32, .f32⟩
  | .local _ .vmem, ⟨20, _⟩ => ⟨S1x1, .f32⟩
  | .local _ .vmem, ⟨21, _⟩ => ⟨S2048x1, .f32⟩
  | _, _ => ⟨S2048x40960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19

abbrev nD : Nat := 1
abbrev τ : Topo := Topo.v7x

variable {F : FTy → Type} [FloatOps F]

abbrev grid0 : Pipeline.Grid := ⟨2, ![2, 80], ![false, false]⟩

def k0_cond2 (i : grid0.Coords) : BitVec 1 :=
  let arg1 : BitVec 32 := BitVec.ofNat 32 (i 1).val
  let c79_i32 : BitVec 32 := 79#32
  let v25 : BitVec 1 := Scalar.cmpi .eq arg1 c79_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x512_S1024x256_0_0 : ∀ a, (![0, 0] : Fin 2 → Nat) a + S1024x256.size a ≤ S1024x512.size a
  inb_S1024x512_S1024x256_0_256 : ∀ a, (![0, 256] : Fin 2 → Nat) a + S1024x256.size a ≤ S1024x512.size a
  shapeCasts_S32_S1x32 : S32.ShapeCasts S1x32
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S32x512_S32x512_0_0 : ∀ a, (![0, 0] : Fin 2 → Nat) a + S32x512.size a ≤ S32x512.size a
  h_S32x512 : 0 < S32x512.numel
  transposes_S32x512_p1_0_S512x32 : S32x512.Transposes [1, 0] S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  transposes_S1x32_p1_0_S32x1 : S1x32.Transposes [1, 0] S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048 : S2048x1.ShapeCasts S2048
  dot_S1024x512_S512x256_S1024x256_1_0_0_1_n_n_wf : DotDims.WF S1024x512 S512x256 S1024x256 [1] [0] [0] [1] [] []
  dot_S2048x512_S512x32_S2048x32_1_0_0_1_n_n_wf : DotDims.WF S2048x512 S512x32 S2048x32 [1] [0] [0] [1] [] []
  dot_S2048x32_S32x32_S2048x32_1_0_0_1_n_n_wf : DotDims.WF S2048x32 S32x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x40960.size a
  hwx0_0 : ∀ i : grid0.Coords, EltTy.bits .f32 = 32 ∨ (Rect.block (s := S2048x40960) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x40960.size a
  hwx0_1 : ∀ i : grid0.Coords, EltTy.bits .f32 = 32 ∨ (Rect.block (s := S2048x40960) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x40960.size a
  hwx0_2 : ∀ i : grid0.Coords, EltTy.bits .f32 = 32 ∨ (Rect.block (s := S256x40960) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x40960.size a
  hwx0_3 : ∀ i : grid0.Coords, EltTy.bits .f32 = 32 ∨ (Rect.block (s := S256x40960) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S2048x512.size a
  hwx0_6 : ∀ i : grid0.Coords, EltTy.bits .f32 = 32 ∨ (Rect.block (s := S2048x512) S1024x512.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S2048x512.size a
  hwx1_0 : ∀ i : grid1.Coords, EltTy.bits .f32 = 32 ∨ (Rect.block (s := S2048x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x512.size a ≤ S32x512.size a
  hwx1_1 : ∀ i : grid1.Coords, EltTy.bits .f32 = 32 ∨ (Rect.block (s := S32x512) S32x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048x1.size a ≤ S2048x1.size a
  hwx1_7 : ∀ i : grid1.Coords, EltTy.bits .f32 = 32 ∨ (Rect.block (s := S2048x1) S2048x1.size (cc1_transform_7 i) (hinb1_7 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v2) S2048x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S2048x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2048x40960 : Shape := ⟨2, ![2048, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S2048x256 : Shape := ⟨2, ![2048, 256]⟩
abbrev S1x256 : Shape := ⟨2, ![1, 256]⟩
abbrev S_ : Shape := ⟨0, ![]⟩
abbrev S2048x512 : Shape := ⟨2, ![2048, 512]⟩
abbrev S512x32 : Shape := ⟨2, ![512, 32]⟩
abbrev S2048x32 : Shape := ⟨2, ![2048, 32]⟩
abbrev S32x1 : Shape := ⟨2, ![32, 1]⟩
abbrev S2048x1 : Shape := ⟨2, ![2048, 1]⟩
abbrev S1x1 : Shape := ⟨2, ![1, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S2048x40960, .f32⟩
  | .hbm, ⟨1, _⟩ => ⟨S2048x40960, .f32⟩
  | .hbm, ⟨2, _⟩ => ⟨S256x40960, .f32⟩
  | .hbm, ⟨3, _⟩ => ⟨S256, .f32⟩
  | .hbm, ⟨4, _⟩ => ⟨S256x40960, .f32⟩
  | .hbm, ⟨5, _⟩ => ⟨S256, .f32⟩
  | .hbm, ⟨6, _⟩ => ⟨S32x512, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S1x32, .f32⟩
  | .hbm, ⟨11, _⟩ => ⟨S1, .f32⟩
  | .hbm, ⟨12, _⟩ => ⟨S2048x256, .f32⟩
  | .hbm, ⟨13, _⟩ => ⟨S1x256, .f32⟩
  | .hbm, ⟨14, _⟩ => ⟨S2048x256, .f32⟩
  | .hbm, ⟨15, _⟩ => ⟨S2048x256, .f32⟩
  | .hbm, ⟨16, _⟩ => ⟨S_, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S1x256, .f32⟩
  | .hbm, ⟨21, _⟩ => ⟨S2048x256, .f32⟩
  | .hbm, ⟨22, _⟩ => ⟨S2048x256, .f32⟩
  | .hbm, ⟨23, _⟩ => ⟨S_, .f32⟩
  | .hbm, ⟨24, _⟩ => ⟨S2048x256, .f32⟩
  | .hbm, ⟨25, _⟩ => ⟨S2048x256, .f32⟩
  | .hbm, ⟨26, _⟩ => ⟨S2048x512, .f32⟩
  | .hbm, ⟨27, _⟩ => ⟨S512x32, .f32⟩
  | .hbm, ⟨28, _⟩ => ⟨S2048x32, .f32⟩
  | .hbm, ⟨29, _⟩ => ⟨S1x32, .f32⟩
  | .hbm, ⟨30, _⟩ => ⟨S2048x32, .f32⟩
  | .hbm, ⟨31, _⟩ => ⟨S2048x32, .f32⟩
  | .hbm, ⟨32, _⟩ => ⟨S_, .f32⟩
  | .hbm, ⟨33, _⟩ => ⟨S2048x32, .f32⟩
  | .hbm, ⟨34, _⟩ => ⟨S2048x32, .f32⟩
  | .hbm, ⟨35, _⟩ => ⟨S32x32, .f32⟩
  | .hbm, ⟨36, _⟩ => ⟨S2048x32, .f32⟩
  | .hbm, ⟨37, _⟩ => ⟨S1x32, .f32⟩
  | .hbm, ⟨38, _⟩ => ⟨S2048x32, .f32⟩
  | .hbm, ⟨39, _⟩ => ⟨S2048x32, .f32⟩
  | .hbm, ⟨40, _⟩ => ⟨S_, .f32⟩
  | .hbm, ⟨41, _⟩ => ⟨S2048x32, .f32⟩
  | .hbm, ⟨42, _⟩ => ⟨S2048x32, .f32⟩
  | .hbm, ⟨43, _⟩ => ⟨S32x1, .f32⟩
  | .hbm, ⟨44, _⟩ => ⟨S2048x1, .f32⟩
  | .hbm, ⟨45, _⟩ => ⟨S1x1, .f32⟩
  | .hbm, ⟨46, _⟩ => ⟨S2048x1, .f32⟩
  | .hbm, ⟨47, _⟩ => ⟨S2048x1, .f32⟩
  | .hbm, ⟨48, _⟩ => ⟨S2048x1, .f32⟩
  | .hbm, ⟨49, _⟩ => ⟨S2048, .f32⟩
  | _, _ => ⟨S2048x40960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call2_cst : Ref sig .tc := ⟨.hbm, 32, rfl⟩
abbrev main_call2_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call3_cst : Ref sig .tc := ⟨.hbm, 40, rfl⟩
abbrev main_call3_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  concatenates_S2048x256_S2048x256_S2048x512_d1 : Shape.Concatenates [S2048x256, S2048x256] S2048x512 1
  transposes_S32x512_S512x32_1_0 : S32x512.Transposes [1, 0] S512x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  dot_S2048x40960_S256x40960_S2048x256_1_1_0_0_n_n_wf : DotDims.WF S2048x40960 S256x40960 S2048x256 [1] [1] [0] [0] [] []
  dot_S2048x512_S512x32_S2048x32_1_0_0_1_n_n_wf : DotDims.WF S2048x512 S512x32 S2048x32 [1] [0] [0] [1] [] []
  dot_S2048x32_S32x32_S2048x32_1_0_0_1_n_n_wf : DotDims.WF S2048x32 S32x32 S2048x32 [1] [0] [0] [1] [] []
  dot_S2048x32_S32x1_S2048x1_1_0_0_1_n_n_wf : DotDims.WF S2048x32 S32x1 S2048x1 [1] [0] [0] [1] [] []

variable [Facts₀]

def dot_S2048x40960_S256x40960_S2048x256_1_1_0_0_n_n : DotDims S2048x40960 S256x40960 S2048x256 where
  lhsContracting := [1]
  rhsContracting := [1]
  lhsNonContracting := [0]
  rhsNonContracting := [0]
  lhsBatch := []
  rhsBatch := []
  wf := dot_S2048x40960_S256x40960_S2048x256_1_1_0_0_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.K.Region0Base.lean ====
/-
  The feature-transform region: one grid of 2 × 80 points. Point (i, k) sees rows 1024·i … 1024·i + 1023 and
  features 512·k … 512·k + 511 of both feature arrays, the same 512 features of both weight matrices, and the two
  bias rows. Two accumulators, one per side, live in scratch across the 80 points of a batch tile: they are
  zero-filled at k = 0, each point adds its block's partial products, and at k = 79 the biased, clipped
  accumulators are written side by side into the tile's 1024 × 512 output block, which is written back only then.

  This module holds what the three kinds of point (first of a tile, middle, last of a tile) share: a window's block
  at a point as a function of the arrays the region is entered with, the two branch conditions decided over the
  grid, where the output window is left untouched, and the region's resting state with its two accumulators named.
-/
import proofs.«103038_j39840116637857_1_alg».proof.Proof.Gen.Kernel.Launch
import proofs.«103038_j39840116637857_1_alg».proof.Proof.Gen.Kernel.Skeleton
import proofs.«103038_j39840116637857_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current buffer holds its block at every point, fetched there or not: where it is not
    fetched its block index has not moved. -/

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- "This is the first feature block of the tile" (k = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 80 = 0 :=
  (by decide +kernel : ∀ t : Fin grid0.N, cond0_0 (grid0.coords t) ↔ t.val % 80 = 0)

/-- "This is the last feature block of the tile" (k = 79), as the body computes it. -/
abbrev cond0_1 (i : grid0.Coords) : Prop := k0_cond2 i = 1#1
theorem hcond0_1 : ∀ t : Fin cfg0.N, cond0_1 (grid0.coords t) ↔ t.val % 80 = 79 :=
  (by decide +kernel : ∀ t : Fin grid0.N, cond0_1 (grid0.coords t) ↔ t.val % 80 = 79)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from a tile's last point the body stores nothing into the output block, and the block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At a tile's last point the body stores the whole output block. -/
theorem liveAt0_6 : ∀ t : Fin cfg0.N, cond0_1 (grid0.coords t) → cfg0.idle 6 (grid0.coords t) = false := by decide +kernel

/-! ## The memrefs the body is called with -/

abbrev VO0_6 : View sig .tc .vmem S1024x512 .f32 := (Memref.whole cc0_stg6_0 : Memref sig .tc .vmem S1024x512 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .f32 := win0_6.stage (cfg0.slots t 6)
abbrev hs0_6 (t : Fin cfg0.N) : (ms0_6 t).IsWhole := hstage0_6 ((cfg0.slots t 6).cast nbuf0_6)
/-- The two accumulators: whole scoped buffers of the kernel's own. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view

/-- The other scoped buffers of the program (the second region's staging buffers), each at some contents: they ride
    through this region untouched. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f))

/-- The region's resting state with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped (F := F) c) ∗ (∃ r, prngReg c r)) := by
  unfold Pipeline.ΦA otherScoped; rw [scopedRest0_eq]; simp only [scM0_0, scM0_1, owns_whole]; try rfl

end Cert.Kernel.Fr

end
-- ==== Proof.K.Region0RunA.lean ====
/-
  The body at the first point of a batch tile (k = 0, not k = 79): both accumulators are zero-filled, then each
  receives its block's partial products; the bias rows and the output block are not touched. What each accumulator
  ends with is found by running the body: its stores as pieces, last first.
-/
import proofs.«103038_j39840116637857_1_alg».proof.Proof.K.Region0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun0_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1024x512 .f32) (x1 : Vec F S1024x512 .f32) (x2 : Vec F S256x512 .f32) (x3 : Vec F S256x512 .f32) :
    Σ' (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__feat_kernel i arg2 harg2 arg3 harg3 arg4 harg4 arg5 harg5 arg6 harg6 arg7 harg7 arg8 harg8 arg9 harg9 arg10 harg10) K } := by
  refine ⟨?_, ?_, fun E K => ?run⟩
  case run =>
    simp only [cc0__feat_kernel_eq_skeleton]; unfold cc0__feat_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.K.Region0RunB.lean ====
/-
  The body at a middle point of a batch tile (neither k = 0 nor k = 79): each accumulator, holding the partial sums
  of the blocks before, receives this block's partial products; the bias rows and the output block are not touched.
-/
import proofs.«103038_j39840116637857_1_alg».proof.Proof.K.Region0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun0_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i)
    (x0 : Vec F S1024x512 .f32) (x1 : Vec F S1024x512 .f32) (x2 : Vec F S256x512 .f32) (x3 : Vec F S256x512 .f32) (xs0 : Vec F S1024x256 .f32) (xs1 : Vec F S1024x256 .f32) :
    Σ' (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__feat_kernel i arg2 harg2 arg3 harg3 arg4 harg4 arg5 harg5 arg6 harg6 arg7 harg7 arg8 harg8 arg9 harg9 arg10 harg10) K } := by
  refine ⟨?_, ?_, fun E K => ?run⟩
  case run =>
    simp only [cc0__feat_kernel_eq_skeleton]; unfold cc0__feat_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.K.Region0RunC.lean ====
/-
  The body at the last point of a batch tile (k = 79, not k = 0): each accumulator receives the last block's partial
  products, and then the biased accumulators, clipped below at zero, are stored side by side into the output block:
  the white side's into columns 0 … 255, the black side's into columns 256 … 511.
-/
import proofs.«103038_j39840116637857_1_alg».proof.Proof.K.Region0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun0_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1024x512 .f32) (x1 : Vec F S1024x512 .f32) (x2 : Vec F S256x512 .f32) (x3 : Vec F S256x512 .f32) (x4 : Vec F S1x256 .f32) (x5 : Vec F S1x256 .f32) (xs0 : Vec F S1024x256 .f32) (xs1 : Vec F S1024x256 .f32) :
    Σ' (L6 : List (View.Piece (Elt F) S1024x512 .f32)) (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__feat_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__feat_kernel_eq_skeleton]; unfold cc0__feat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Fr

end
-- ==== Proof.K.Region0.lean ====
/-
  The feature-transform region, point by point. After point n the two accumulators hold a definite pair of arrays
  (and, at the last point of a batch tile, so does the tile's output block): at the first point of a tile what the
  first-point run leaves, afterwards what the middle-point or last-point run leaves when started from what the point
  before left. The region's resting state between points names the accumulators' contents by this recursion; the
  body at every point takes that state to the next one and hands every input block back as it found it.
-/
import proofs.«103038_j39840116637857_1_alg».proof.Proof.K.Region0RunA
import proofs.«103038_j39840116637857_1_alg».proof.Proof.K.Region0RunB
import proofs.«103038_j39840116637857_1_alg».proof.Proof.K.Region0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The three runs at a grid point, on the memrefs and blocks the pipeline supplies there -/

abbrev runA (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk0 V c 0 t) (iblk0 V c 1 t) (iblk0 V c 2 t) (iblk0 V c 3 t)
abbrev runB (c : Dev nD) (t : Fin cfg0.N) (h0 : ¬cond0_0 (grid0.coords t)) (h1 : ¬cond0_1 (grid0.coords t)) (xs0 xs1 : Vec F S1024x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk0 V c 0 t) (iblk0 V c 1 t) (iblk0 V c 2 t) (iblk0 V c 3 t) xs0 xs1
abbrev runC (c : Dev nD) (t : Fin cfg0.N) (h0 : ¬cond0_0 (grid0.coords t)) (h1 : cond0_1 (grid0.coords t)) (xs0 xs1 : Vec F S1024x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) xs0 xs1

/-! ## Each run's stores cover the buffer they go to -/

theorem scoverA_0 (c : Dev nD) (t : Fin cfg0.N) (h0 : cond0_0 (grid0.coords t)) (h1 : ¬cond0_1 (grid0.coords t)) (y : S1024x256.Idx) : ∃ pc ∈ (runA V c t h0 h1).1, y ∈ pc.1.set :=
  View.cover_of_tiledL (runA V c t h0 h1).1 S1024x256.size (by sl_kernel_rfl) y
theorem scoverA_1 (c : Dev nD) (t : Fin cfg0.N) (h0 : cond0_0 (grid0.coords t)) (h1 : ¬cond0_1 (grid0.coords t)) (y : S1024x256.Idx) : ∃ pc ∈ (runA V c t h0 h1).2.1, y ∈ pc.1.set :=
  View.cover_of_tiledL (runA V c t h0 h1).2.1 S1024x256.size (by sl_kernel_rfl) y
theorem scoverB_0 (c : Dev nD) (t : Fin cfg0.N) (h0 : ¬cond0_0 (grid0.coords t)) (h1 : ¬cond0_1 (grid0.coords t)) (xs0 xs1 : Vec F S1024x256 .f32) (y : S1024x256.Idx) : ∃ pc ∈ (runB V c t h0 h1 xs0 xs1).1, y ∈ pc.1.set :=
  View.cover_of_tiledL (runB V c t h0 h1 xs0 xs1).1 S1024x256.size (by sl_kernel_rfl) y
theorem scoverB_1 (c : Dev nD) (t : Fin cfg0.N) (h0 : ¬cond0_0 (grid0.coords t)) (h1 : ¬cond0_1 (grid0.coords t)) (xs0 xs1 : Vec F S1024x256 .f32) (y : S1024x256.Idx) : ∃ pc ∈ (runB V c t h0 h1 xs0 xs1).2.1, y ∈ pc.1.set :=
  View.cover_of_tiledL (runB V c t h0 h1 xs0 xs1).2.1 S1024x256.size (by sl_kernel_rfl) y
theorem coverC_6 (c : Dev nD) (t : Fin cfg0.N) (h0 : ¬cond0_0 (grid0.coords t)) (h1 : cond0_1 (grid0.coords t)) (xs0 xs1 : Vec F S1024x256 .f32) (y : S1024x512.Idx) : ∃ pc ∈ (runC V c t h0 h1 xs0 xs1).1, y ∈ pc.1.set :=
  View.cover_of_tiledL (runC V c t h0 h1 xs0 xs1).1 S1024x256.size (by sl_kernel_rfl) y
theorem scoverC_0 (c : Dev nD) (t : Fin cfg0.N) (h0 : ¬cond0_0 (grid0.coords t)) (h1 : cond0_1 (grid0.coords t)) (xs0 xs1 : Vec F S1024x256 .f32) (y : S1024x256.Idx) : ∃ pc ∈ (runC V c t h0 h1 xs0 xs1).2.1, y ∈ pc.1.set :=
  View.cover_of_tiledL (runC V c t h0 h1 xs0 xs1).2.1 S1024x256.size (by sl_kernel_rfl) y
theorem scoverC_1 (c : Dev nD) (t : Fin cfg0.N) (h0 : ¬cond0_0 (grid0.coords t)) (h1 : cond0_1 (grid0.coords t)) (xs0 xs1 : Vec F S1024x256 .f32) (y : S1024x256.Idx) : ∃ pc ∈ (runC V c t h0 h1 xs0 xs1).2.2.1, y ∈ pc.1.set :=
  View.cover_of_tiledL (runC V c t h0 h1 xs0 xs1).2.2.1 S1024x256.size (by sl_kernel_rfl) y

/-! ## What each run leaves: its pieces read back -/

def soutA_0 (c : Dev nD) (t : Fin cfg0.N) (h0 : cond0_0 (grid0.coords t)) (h1 : ¬cond0_1 (grid0.coords t)) : Vec F S1024x256 .f32 := VS0_0.read (Elt F) (VS0_0.writes (Elt F) VS0_0.junk (runA V c t h0 h1).1)
def soutA_1 (c : Dev nD) (t : Fin cfg0.N) (h0 : cond0_0 (grid0.coords t)) (h1 : ¬cond0_1 (grid0.coords t)) : Vec F S1024x256 .f32 := VS0_1.read (Elt F) (VS0_1.writes (Elt F) VS0_1.junk (runA V c t h0 h1).2.1)
def soutB_0 (c : Dev nD) (t : Fin cfg0.N) (h0 : ¬cond0_0 (grid0.coords t)) (h1 : ¬cond0_1 (grid0.coords t)) (xs0 xs1 : Vec F S1024x256 .f32) : Vec F S1024x256 .f32 := VS0_0.read (Elt F) (VS0_0.writes (Elt F) VS0_0.junk (runB V c t h0 h1 xs0 xs1).1)
def soutB_1 (c : Dev nD) (t : Fin cfg0.N) (h0 : ¬cond0_0 (grid0.coords t)) (h1 : ¬cond0_1 (grid0.coords t)) (xs0 xs1 : Vec F S1024x256 .f32) : Vec F S1024x256 .f32 := VS0_1.read (Elt F) (VS0_1.writes (Elt F) VS0_1.junk (runB V c t h0 h1 xs0 xs1).2.1)
def outC_6 (c : Dev nD) (t : Fin cfg0.N) (h0 : ¬cond0_0 (grid0.coords t)) (h1 : cond0_1 (grid0.coords t)) (xs0 xs1 : Vec F S1024x256 .f32) : Vec F S1024x512 .f32 := VO0_6.read (Elt F) (VO0_6.writes (Elt F) VO0_6.junk (runC V c t h0 h1 xs0 xs1).1)
def soutC_0 (c : Dev nD) (t : Fin cfg0.N) (h0 : ¬cond0_0 (grid0.coords t)) (h1 : cond0_1 (grid0.coords t)) (xs0 xs1 : Vec F S1024x256 .f32) : Vec F S1024x256 .f32 := VS0_0.read (Elt F) (VS0_0.writes (Elt F) VS0_0.junk (runC V c t h0 h1 xs0 xs1).2.1)
def soutC_1 (c : Dev nD) (t : Fin cfg0.N) (h0 : ¬cond0_0 (grid0.coords t)) (h1 : cond0_1 (grid0.coords t)) (xs0 xs1 : Vec F S1024x256 .f32) : Vec F S1024x256 .f32 := VS0_1.read (Elt F) (VS0_1.writes (Elt F) VS0_1.junk (runC V c t h0 h1 xs0 xs1).2.2.1)
/-- Where the output block is not stored: a placeholder nothing reads. -/
def noOut : Vec F S1024x512 .f32 := VO0_6.read (Elt F) VO0_6.junk

/-! ## The state after each point -/

theorem N0 : cfg0.N = 160 := N_0

/-- After point `n`: the output block's buffer, the white accumulator, the black accumulator. -/
def outsAt0 (c : Dev nD) : (n : ℕ) → n < cfg0.N → Vec F S1024x512 .f32 × Vec F S1024x256 .f32 × Vec F S1024x256 .f32
  | 0, hn =>
    (noOut, soutA_0 V c ⟨0, hn⟩ ((hcond0_0 ⟨0, hn⟩).mpr (Nat.zero_mod _)) (fun h => by have h' : (0 : ℕ) % 80 = 79 := (hcond0_1 ⟨0, hn⟩).mp h; omega),
      soutA_1 V c ⟨0, hn⟩ ((hcond0_0 ⟨0, hn⟩).mpr (Nat.zero_mod _)) (fun h => by have h' : (0 : ℕ) % 80 = 79 := (hcond0_1 ⟨0, hn⟩).mp h; omega))
  | n + 1, hn =>
    if h0 : (n + 1) % 80 = 0 then
      (noOut, soutA_0 V c ⟨n + 1, hn⟩ ((hcond0_0 ⟨n + 1, hn⟩).mpr h0) (fun h => by have h' : (n + 1) % 80 = 79 := (hcond0_1 ⟨n + 1, hn⟩).mp h; omega),
        soutA_1 V c ⟨n + 1, hn⟩ ((hcond0_0 ⟨n + 1, hn⟩).mpr h0) (fun h => by have h' : (n + 1) % 80 = 79 := (hcond0_1 ⟨n + 1, hn⟩).mp h; omega))
    else if h1 : (n + 1) % 80 = 79 then
      (outC_6 V c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2,
        soutC_0 V c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2,
        soutC_1 V c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2)
    else
      (noOut, soutB_0 V c ⟨n + 1, hn⟩ (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2,
        soutB_1 V c ⟨n + 1, hn⟩ (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2)

/-- The state the point before `t` left (for `t` not the first point). -/
abbrev prevAt (c : Dev nD) (t : Fin cfg0.N) := outsAt0 V c (t.val - 1) (Nat.lt_of_le_of_lt (Nat.sub_le _ _) t.isLt)

theorem outsAt0_A (c : Dev nD) (t : Fin cfg0.N) (h0 : t.val % 80 = 0) :
    outsAt0 V c t.val t.isLt = (noOut, soutA_0 V c t ((hcond0_0 t).mpr h0) (fun h => by have := (hcond0_1 t).mp h; omega),
      soutA_1 V c t ((hcond0_0 t).mpr h0) (fun h => by have := (hcond0_1 t).mp h; omega)) := by
  obtain ⟨n, hn⟩ := t
  cases n with
  | zero => rfl
  | succ n => exact (dif_pos h0).trans rfl

theorem outsAt0_C (c : Dev nD) (t : Fin cfg0.N) (h0 : ¬t.val % 80 = 0) (h1 : t.val % 80 = 79) :
    outsAt0 V c t.val t.isLt = (outC_6 V c t (fun h => h0 ((hcond0_0 t).mp h)) ((hcond0_1 t).mpr h1) (prevAt V c t).2.1 (prevAt V c t).2.2,
      soutC_0 V c t (fun h => h0 ((hcond0_0 t).mp h)) ((hcond0_1 t).mpr h1) (prevAt V c t).2.1 (prevAt V c t).2.2,
      soutC_1 V c t (fun h => h0 ((hcond0_0 t).mp h)) ((hcond0_1 t).mpr h1) (prevAt V c t).2.1 (prevAt V c t).2.2) := by
  obtain ⟨n, hn⟩ := t
  cases n with
  | zero => exact absurd (Nat.zero_mod _) h0
  | succ n => exact (dif_neg h0).trans ((dif_pos h1).trans rfl)

theorem outsAt0_B (c : Dev nD) (t : Fin cfg0.N) (h0 : ¬t.val % 80 = 0) (h1 : ¬t.val % 80 = 79) :
    outsAt0 V c t.val t.isLt = (noOut, soutB_0 V c t (fun h => h0 ((hcond0_0 t).mp h)) (fun h => h1 ((hcond0_1 t).mp h)) (prevAt V c t).2.1 (prevAt V c t).2.2,
      soutB_1 V c t (fun h => h0 ((hcond0_0 t).mp h)) (fun h => h1 ((hcond0_1 t).mp h)) (prevAt V c t).2.1 (prevAt V c t).2.2) := by
  obtain ⟨n, hn⟩ := t
  cases n with
  | zero => exact absurd (Nat.zero_mod _) h0
  | succ n => exact (dif_neg h0).trans ((dif_neg h1).trans rfl)

/-! ## The region's resting state before position `n` -/

def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2 ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (outsAt0 V c n hn).2.1 ∗ owns (c : Thread nD τ) scM0_1 fullShare (outsAt0 V c n hn).2.2 ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (outsAt0 V c (n - 1) (by omega)).2.1 ∗ owns (c : Thread nD τ) scM0_1 fullShare (outsAt0 V c (n - 1) (by omega)).2.2 ∗ otherScoped (F := F) c) ∗ (∃ r, prngReg c r)) := by
  cases n with
  | zero => exact absurd rfl hz
  | succ n => rfl

/-! ## The pipeline's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  have hN : t.val < 160 := lt_of_lt_of_eq t.isLt N0
  by_cases h0 : t.val % 80 = 0
  · have hc1 : ¬cond0_1 (grid0.coords t) := fun h => by have := (hcond0_1 t).mp h; omega
    rw [Dat.leavesExact_idle (dat0 V c) 6 t (idleAt0_6 t hc1) (noFlush0_6 t hc1)]
    rw [outsAt0_A V c t h0]
    unfold soutA_0 soutA_1; (try dsimp only)
    by_cases hz : t.val = 0
    · rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩, H4, H5, H6⟩
      iapply ((runA V c t ((hcond0_0 t).mpr h0) hc1).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA_0 V c t _ _)
          isplitl [HS1]
          · unfold owns; iexists _; isplitr
            swap; · iexact HS1
            ipureintro; exact View.read_writes_of_cover _ _ _ _ _ (scoverA_1 V c t _ _)
          iexact HR
        iexact Hg
      isplitl [Ho]; · iexact Ho
      isplitl [H0]; · iexact H0
      isplitl [H1]; · iexact H1
      isplitl [H2]; · iexact H2
      isplitl [H3]; · iexact H3
      isplitl [H4]; · icases H4 with ⟨%d4, H4⟩; iexact H4
      isplitl [H5]; · icases H5 with ⟨%d5, H5⟩; iexact H5
      iexact H6
    · rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, H4, H5, H6⟩
      iapply ((runA V c t ((hcond0_0 t).mpr h0) hc1).2.2 Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA_0 V c t _ _)
          isplitl [HS1]
          · unfold owns; iexists _; isplitr
            swap; · iexact HS1
            ipureintro; exact View.read_writes_of_cover _ _ _ _ _ (scoverA_1 V c t _ _)
          iexact HR
        iexact Hg
      isplitl [Ho]; · iexact Ho
      isplitl [H0]; · iexact H0
      isplitl [H1]; · iexact H1
      isplitl [H2]; · iexact H2
      isplitl [H3]; · iexact H3
      isplitl [H4]; · icases H4 with ⟨%d4, H4⟩; iexact H4
      isplitl [H5]; · icases H5 with ⟨%d5, H5⟩; iexact H5
      iexact H6
  · have hz : t.val ≠ 0 := fun h => h0 (by rw [h])
    have hc0 : ¬cond0_0 (grid0.coords t) := fun h => h0 ((hcond0_0 t).mp h)
    by_cases h1 : t.val % 80 = 79
    · have hc1 : cond0_1 (grid0.coords t) := (hcond0_1 t).mpr h1
      rw [show (dat0 V c).leavesExact 6 t = owns (c : Thread nD τ) (ms0_6 t) fullShare ((dat0 V c).after 6 t) from by
        unfold Dat.leavesExact; rw [liveAt0_6 t hc1], after0_6]
      rw [outsAt0_C V c t h0 h1]
      unfold outC_6 soutC_0 soutC_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t hc0 hc1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverC_0 V c t _ _ _ _)
          isplitl [HS1]
          · unfold owns; iexists _; isplitr
            swap; · iexact HS1
            ipureintro; exact View.read_writes_of_cover _ _ _ _ _ (scoverC_1 V c t _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC_6 V c t _ _ _ _)
    · have hc1 : ¬cond0_1 (grid0.coords t) := fun h => h1 ((hcond0_1 t).mp h)
      rw [Dat.leavesExact_idle (dat0 V c) 6 t (idleAt0_6 t hc1) (noFlush0_6 t hc1)]
      rw [outsAt0_B V c t h0 h1]
      unfold soutB_0 soutB_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, H4, H5, H6⟩
      iapply ((runB V c t hc0 hc1 _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverB_0 V c t _ _ _ _)
          isplitl [HS1]
          · unfold owns; iexists _; isplitr
            swap; · iexact HS1
            ipureintro; exact View.read_writes_of_cover _ _ _ _ _ (scoverB_1 V c t _ _ _ _)
          iexact HR
        iexact Hg
      isplitl [Ho]; · iexact Ho
      isplitl [H0]; · iexact H0
      isplitl [H1]; · iexact H1
      isplitl [H2]; · iexact H2
      isplitl [H3]; · iexact H3
      isplitl [H4]; · icases H4 with ⟨%d4, H4⟩; iexact H4
      isplitl [H5]; · icases H5 with ⟨%d5, H5⟩; iexact H5
      iexact H6

theorem body_obligation0 (c : Dev nD) : BodyObligation (dat0 (F := F) V c) (defs₀ (F := F)) Variants.none () Set.univ := fun t => by
  rw [bigSep_W0, bigSep_W0]
  exact sound_body0 V c t

/-! ## Entering and leaving the region -/

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c := by
  have ht : (Fin.last cfg0.N).val ≠ 0 := by rw [Fin.val_last]; have := N0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.Kernel.Fr

end
-- ==== Proof.K.Region1.lean ====
import proofs.«103038_j39840116637857_1_alg».proof.Proof.Gen.Kernel.Launch
import proofs.«103038_j39840116637857_1_alg».proof.Proof.Gen.Kernel.Skeleton
import proofs.«103038_j39840116637857_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The dense layers' region: what its body leaves, and its body obligation

The second kernel region has one grid point. Each of its seven input windows stages its whole array
in one block; the body loads the seven staged arrays whole, and stores once, whole, into the one
output window the value `k1_pay1` of the seven loads. This module states, at any buffer contents
`V` the region may be entered with, what each window's buffer holds after the body, and proves the
pipeline library's body obligation for it. Everything is generic in the float instance. -/

-- membership in a rectangle of these extents: the elaborator's structural look recurses once per
-- coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not, for ANY
    proof data whose array is `V`'s (`hA`) and whose body leaves the block in place (`hafter`): an
    unfetched window's block index has not moved; the windows are uncut and never idle. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_0 : Rect S2048x512 := Rect.unit (s := S2048x512) ![0, 0] S2048x512.size inb_S2048x512_S2048x512_0_0
abbrev r1_1 : Rect S32x512 := Rect.unit (s := S32x512) ![0, 0] S32x512.size inb_S32x512_S32x512_0_0
abbrev r1_2 : Rect S1x32 := Rect.unit (s := S1x32) ![0, 0] S1x32.size inb_S1x32_S1x32_0_0
abbrev r1_3 : Rect S32x32 := Rect.unit (s := S32x32) ![0, 0] S32x32.size inb_S32x32_S32x32_0_0
abbrev r1_4 : Rect S1x32 := Rect.unit (s := S1x32) ![0, 0] S1x32.size inb_S1x32_S1x32_0_0
abbrev r1_5 : Rect S1x32 := Rect.unit (s := S1x32) ![0, 0] S1x32.size inb_S1x32_S1x32_0_0
abbrev r1_6 : Rect S1x1 := Rect.unit (s := S1x1) ![0, 0] S1x1.size inb_S1x1_S1x1_0_0
abbrev r1_out : Rect S2048x1 := Rect.unit (s := S2048x1) ![0, 0] S2048x1.size inb_S2048x1_S2048x1_0_0

/-- The offsets of every access are zero. -/
theorem off_zero : (![0, 0] : Fin 2 → Nat) = fun _ => 0 := funext fun a => by fin_cases a <;> rfl

/-! ## What the body leaves in the output window's buffer -/

/-- Window 7's staging buffer after the body, from the input windows' blocks: its one store, as a
    one-piece list, of the payload of the seven loads. -/
def out1_7 (x0 : Vec F S2048x512 .f32) (x1 : Vec F S32x512 .f32) (x2 : Vec F S1x32 .f32) (x3 : Vec F S32x32 .f32) (x4 : Vec F S1x32 .f32) (x5 : Vec F S1x32 .f32) (x6 : Vec F S1x1 .f32) : Vec F S2048x1 .f32 :=
  View.canon [⟨r1_out, k1_pay1 (View.ld x0 r1_0) (View.ld x1 r1_1) (View.ld x2 r1_2) (View.ld x3 r1_3) (View.ld x4 r1_4) (View.ld x5 r1_5) (View.ld x6 r1_6)⟩]

/-- The one store covers the buffer. -/
theorem cover1_7 (p0 : Vec F S2048x1 .f32) (y : S2048x1.Idx) :
    ∃ pc ∈ ([⟨r1_out, p0⟩] : List (View.Piece (Elt F) S2048x1 .f32)), y ∈ pc.1.set :=
  ⟨_, List.mem_singleton_self _, View.mem_set_unit_zero off_zero inb_S2048x1_S2048x1_0_0 y⟩

/-- One whole-buffer store of a payload of whole-buffer loads: the buffer holds the payload of the
    blocks themselves. -/
theorem out1_7_eq (x0 : Vec F S2048x512 .f32) (x1 : Vec F S32x512 .f32) (x2 : Vec F S1x32 .f32) (x3 : Vec F S32x32 .f32) (x4 : Vec F S1x32 .f32) (x5 : Vec F S1x32 .f32) (x6 : Vec F S1x1 .f32) :
    out1_7 x0 x1 x2 x3 x4 x5 x6 = k1_pay1 x0 x1 x2 x3 x4 x5 x6 := by
  unfold out1_7
  rw [View.canon_unit_zero off_zero]
  simp only [View.ld_unit_zero (S := S2048x512) off_zero, View.ld_unit_zero (S := S32x512) off_zero,
    View.ld_unit_zero (S := S1x32) off_zero, View.ld_unit_zero (S := S32x32) off_zero, View.ld_unit_zero (S := S1x1) off_zero]

/-! ## The body's triple -/

set_option maxHeartbeats 1000000 in
/-- The kernel body on whole staging memrefs, the inputs' at contents `x0 … x6` and the output's at
    anything, runs to the continuation holding the inputs' as they were and the output's at
    `out1_7` of the inputs'. -/
theorem sound_kernel1 (c : Dev nD) (E : Set ℕ) (i : grid1.Coords) (arg1 : Memref sig .tc .vmem S2048x512 .f32) (harg1 : arg1.IsWhole) (arg2 : Memref sig .tc .vmem S32x512 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x1 .f32) (harg7 : arg7.IsWhole) (arg8 : Memref sig .tc .vmem S2048x1 .f32) (harg8 : arg8.IsWhole)
    (x0 : Vec F S2048x512 .f32) (x1 : Vec F S32x512 .f32) (x2 : Vec F S1x32 .f32) (x3 : Vec F S32x32 .f32) (x4 : Vec F S1x32 .f32) (x5 : Vec F S1x32 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the region's pipeline on core `c`: the arrays as the region finds them (`V`);
    after the body at point `t` each input's buffer at its block and the output's at `out1_7` of the
    input blocks; the invariant the scoped rest and the generator register, untouched; nothing
    owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.K.Run.lean ====
/-
  The whole program as five segments: the host reshapes of the two first-layer biases; the feature-transform region;
  the host reshapes of the three head biases; the head region; the host reshape of the head's [2048, 1] result into
  the [2048] result. Between segments every unscoped buffer of a core holds definite contents: the launch memory,
  then each host stretch applied to it, and after a region its windows' arrays at what the region's write-backs
  leave, every other buffer as it was. Every weakly fair execution terminates without a fault, and every unscoped
  buffer ends at the last of these contents.
-/
import proofs.«103038_j39840116637857_1_alg».proof.Proof.K.Region0
import proofs.«103038_j39840116637857_1_alg».proof.Proof.K.Region1
import proofs.«103038_j39840116637857_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m (c, b)
/-- After the first host stretch: the feature-transform region's entry. -/
abbrev Wa (c : Dev nD) : Valuation τ sig (Elt F) := StableHlo.after hostOps0 (W0 m c)
abbrev Va : (c : Dev nD) → (b : Ref sig .tc) → Buf (Elt F) ((c : Thread nD τ).loc b) := fun c b => Wa m c b
/-- After the feature-transform region: its arrays at what its write-backs leave. -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)
/-- After the second host stretch: the head region's entry. -/
abbrev Wc (c : Dev nD) : Valuation τ sig (Elt F) := StableHlo.after hostOps1 (Wb m c)
abbrev Vc : (c : Dev nD) → (b : Ref sig .tc) → Buf (Elt F) ((c : Thread nD τ).loc b) := fun c b => Wc m c b
/-- After the head region. -/
def Wd (c : Dev nD) : Valuation τ sig (Elt F) :=
  Pipeline.withArrays spec1 c (Wc m c) fun w => (dat1 (Vc m) c).arrAt w cfg1.N
theorem Wd_arr (c : Dev nD) (w : Fin cfg1.W) :
    Wd m c (Proc.devRef .tc (Pipeline.arrRef spec1 w)) = (dat1 (Vc m) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m c (Proc.devRef .tc b) = Wc m c (Proc.devRef .tc b) := by
  unfold Wd; exact Pipeline.withArrays_of_ne spec1 c _ _ b hb
abbrev Vd : (c : Dev nD) → (b : Ref sig .tc) → Buf (Elt F) ((c : Thread nD τ).loc b) := fun c b => Wd m c b
theorem hF1 (c : Dev nD) (w : Fin cfg1.W) : (dat1 (Vc m) c).arrAt w cfg1.N = Vd m c (Pipeline.arrRef spec1 w) :=
  (Wd_arr m c w).symm
theorem hrest1 (c : Dev nD) : ∀ b, b ∉ Finset.univ.image (Pipeline.arrRef spec1) → Vd m c b = Vc m c b :=
  fun b hb => Wd_of_ne m c b fun w e => hb (Finset.mem_image.mpr ⟨w, Finset.mem_univ _, e⟩)
/-- After the last host stretch: the end. -/
abbrev We (c : Dev nD) : Valuation τ sig (Elt F) := StableHlo.after hostOps2 (Wd m c)

/-! ## The proof data family and the thread state -/

def pdats : (p : Fin 2) → (c : Dev nD) → Dat τ (Elt F) Unit ℕ (Pipeline.UD sig nD τ) ℕ (Pipeline.pin (pcfgs (F := F)) adm p) c
  | ⟨0, _⟩ => fun c => dat0 (Va m) c
  | ⟨1, _⟩ => fun c => dat1 (Vc m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (We m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := Pipeline.UD sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Va m) c).Φ 0 from rfl]
    refine BIBase.Entails.trans ?_ (hin0 (Va m) c)
    unfold Pipeline.ΦA
    iintro ⟨Hp, -, Hr⟩
    isplitl [Hr]; · iexact Hr
    iexact Hp
  hout c := by
    rw [Pipeline.ownSems0_none, show (pdats m 0 c).Φ (Fin.last _) = (dat0 (Va m) c).Φ (Fin.last cfg0.N) from rfl]
    refine BIBase.Entails.trans (hout0 (Va m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m) c).loose
  hwaits := Pipeline.hwaits_of_owed_zero _ _ _ _ L lv 1 fun _ _ => rfl
  pre c := iprop(StableHlo.held (c : Thread nD τ) (Pipeline.ucRefs τ sig) (Wc m c) ∗ R c)
  post c := iprop(StableHlo.held (c : Thread nD τ) (Pipeline.ucRefs τ sig) (Wd m c) ∗ R c)
  X c := iprop(∃ r, prngReg c r)
  Y c := iprop(∃ r, prngReg c r)
  Z c := Pipeline.unscopedRest (Ix := Unit) (Name := ℕ) (U := Pipeline.UD sig nD τ) (Lvl := ℕ) spec1 c (Vc m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Vc m c) (Vd m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (Wb m)),
    .region (reg1 m),
    .host (hseg hostOps2 hostOps2_sub hostOps2_fresh (Wd m)) ]

theorem main_run (c : Dev nD) : main (F := F) c = Pipeline.Seg.run (segs m) := (main_chain c).trans (by chain_rfl)

set_option backward.isDefEq.respectTransparency.types false in
/-- Every weakly fair execution terminates, nothing faulting, and every unscoped buffer of every core ends at the
    last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = We m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (We m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m c b)
    (hfin := fun c s' => by
      iintro ⟨⟨Hh, -⟩, HSI⟩
      unfold StableHlo.held
      imodintro
      iapply (pointsTo_read_all (Pipeline.ucRefs τ sig) (fun b => (((c : Thread nD τ)).1, b)) (We m c) s')
      isplitl [Hh] <;> iassumption)
    (hQ := fun s h c => h c)

end Cert.Kernel.Fr

end
-- ==== Proof.K.Ends.lean ====
/-
  What the run's last contents are at the buffers the claims speak of. No host stretch writes an argument and no
  region writes one back changed (a region stages it through an input window or does not touch it), so every argument
  ends as launched. The result buffer holds the head region's [2048, 1] output array, reshaped to [2048].
-/
import proofs.«103038_j39840116637857_1_alg».proof.Proof.K.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arguments end as launched -/

theorem We_main_arg0 (c : Dev nD) : We m c (Proc.devRef .tc main_arg0) = m ((c : Thread nD τ).loc main_arg0) :=
  calc We m c (Proc.devRef .tc main_arg0)
    _ = Wd m c (Proc.devRef .tc main_arg0) := StableHlo.after_of_writes_sub hostOps2 _ hostOps2_writes (by decide)
    _ = Wc m c (Proc.devRef .tc main_arg0) := Wd_of_ne m c main_arg0 (by decide)
    _ = Wb m c (Proc.devRef .tc main_arg0) := StableHlo.after_of_writes_sub hostOps1 _ hostOps1_writes (by decide)
    _ = Wa m c (Proc.devRef .tc main_arg0) := (Wb_arr m c 0).trans (((dat0 (Va m) c).arrAt_in 0 rfl _).trans (A_eq0 (Va m) c 0))
    _ = W0 m c (Proc.devRef .tc main_arg0) := StableHlo.after_of_writes_sub hostOps0 _ hostOps0_writes (by decide)
    _ = m ((c : Thread nD τ).loc main_arg0) := rfl
theorem We_main_arg1 (c : Dev nD) : We m c (Proc.devRef .tc main_arg1) = m ((c : Thread nD τ).loc main_arg1) :=
  calc We m c (Proc.devRef .tc main_arg1)
    _ = Wd m c (Proc.devRef .tc main_arg1) := StableHlo.after_of_writes_sub hostOps2 _ hostOps2_writes (by decide)
    _ = Wc m c (Proc.devRef .tc main_arg1) := Wd_of_ne m c main_arg1 (by decide)
    _ = Wb m c (Proc.devRef .tc main_arg1) := StableHlo.after_of_writes_sub hostOps1 _ hostOps1_writes (by decide)
    _ = Wa m c (Proc.devRef .tc main_arg1) := (Wb_arr m c 1).trans (((dat0 (Va m) c).arrAt_in 1 rfl _).trans (A_eq0 (Va m) c 1))
    _ = W0 m c (Proc.devRef .tc main_arg1) := StableHlo.after_of_writes_sub hostOps0 _ hostOps0_writes (by decide)
    _ = m ((c : Thread nD τ).loc main_arg1) := rfl
theorem We_main_arg2 (c : Dev nD) : We m c (Proc.devRef .tc main_arg2) = m ((c : Thread nD τ).loc main_arg2) :=
  calc We m c (Proc.devRef .tc main_arg2)
    _ = Wd m c (Proc.devRef .tc main_arg2) := StableHlo.after_of_writes_sub hostOps2 _ hostOps2_writes (by decide)
    _ = Wc m c (Proc.devRef .tc main_arg2) := Wd_of_ne m c main_arg2 (by decide)
    _ = Wb m c (Proc.devRef .tc main_arg2) := StableHlo.after_of_writes_sub hostOps1 _ hostOps1_writes (by decide)
    _ = Wa m c (Proc.devRef .tc main_arg2) := (Wb_arr m c 2).trans (((dat0 (Va m) c).arrAt_in 2 rfl _).trans (A_eq0 (Va m) c 2))
    _ = W0 m c (Proc.devRef .tc main_arg2) := StableHlo.after_of_writes_sub hostOps0 _ hostOps0_writes (by decide)
    _ = m ((c : Thread nD τ).loc main_arg2) := rfl
theorem We_main_arg3 (c : Dev nD) : We m c (Proc.devRef .tc main_arg3) = m ((c : Thread nD τ).loc main_arg3) :=
  calc We m c (Proc.devRef .tc main_arg3)
    _ = Wd m c (Proc.devRef .tc main_arg3) := StableHlo.after_of_writes_sub hostOps2 _ hostOps2_writes (by decide)
    _ = Wc m c (Proc.devRef .tc main_arg3) := Wd_of_ne m c main_arg3 (by decide)
    _ = Wb m c (Proc.devRef .tc main_arg3) := StableHlo.after_of_writes_sub hostOps1 _ hostOps1_writes (by decide)
    _ = Wa m c (Proc.devRef .tc main_arg3) := Wb_of_ne m c main_arg3 (by decide)
    _ = W0 m c (Proc.devRef .tc main_arg3) := StableHlo.after_of_writes_sub hostOps0 _ hostOps0_writes (by decide)
    _ = m ((c : Thread nD τ).loc main_arg3) := rfl
theorem We_main_arg4 (c : Dev nD) : We m c (Proc.devRef .tc main_arg4) = m ((c : Thread nD τ).loc main_arg4) :=
  calc We m c (Proc.devRef .tc main_arg4)
    _ = Wd m c (Proc.devRef .tc main_arg4) := StableHlo.after_of_writes_sub hostOps2 _ hostOps2_writes (by decide)
    _ = Wc m c (Proc.devRef .tc main_arg4) := Wd_of_ne m c main_arg4 (by decide)
    _ = Wb m c (Proc.devRef .tc main_arg4) := StableHlo.after_of_writes_sub hostOps1 _ hostOps1_writes (by decide)
    _ = Wa m c (Proc.devRef .tc main_arg4) := (Wb_arr m c 3).trans (((dat0 (Va m) c).arrAt_in 3 rfl _).trans (A_eq0 (Va m) c 3))
    _ = W0 m c (Proc.devRef .tc main_arg4) := StableHlo.after_of_writes_sub hostOps0 _ hostOps0_writes (by decide)
    _ = m ((c : Thread nD τ).loc main_arg4) := rfl
theorem We_main_arg5 (c : Dev nD) : We m c (Proc.devRef .tc main_arg5) = m ((c : Thread nD τ).loc main_arg5) :=
  calc We m c (Proc.devRef .tc main_arg5)
    _ = Wd m c (Proc.devRef .tc main_arg5) := StableHlo.after_of_writes_sub hostOps2 _ hostOps2_writes (by decide)
    _ = Wc m c (Proc.devRef .tc main_arg5) := Wd_of_ne m c main_arg5 (by decide)
    _ = Wb m c (Proc.devRef .tc main_arg5) := StableHlo.after_of_writes_sub hostOps1 _ hostOps1_writes (by decide)
    _ = Wa m c (Proc.devRef .tc main_arg5) := Wb_of_ne m c main_arg5 (by decide)
    _ = W0 m c (Proc.devRef .tc main_arg5) := StableHlo.after_of_writes_sub hostOps0 _ hostOps0_writes (by decide)
    _ = m ((c : Thread nD τ).loc main_arg5) := rfl
theorem We_main_arg6 (c : Dev nD) : We m c (Proc.devRef .tc main_arg6) = m ((c : Thread nD τ).loc main_arg6) :=
  calc We m c (Proc.devRef .tc main_arg6)
    _ = Wd m c (Proc.devRef .tc main_arg6) := StableHlo.after_of_writes_sub hostOps2 _ hostOps2_writes (by decide)
    _ = Wc m c (Proc.devRef .tc main_arg6) := (Wd_arr m c 1).trans (((dat1 (Vc m) c).arrAt_in 1 rfl _).trans (A_eq1 (Vc m) c 1))
    _ = Wb m c (Proc.devRef .tc main_arg6) := StableHlo.after_of_writes_sub hostOps1 _ hostOps1_writes (by decide)
    _ = Wa m c (Proc.devRef .tc main_arg6) := Wb_of_ne m c main_arg6 (by decide)
    _ = W0 m c (Proc.devRef .tc main_arg6) := StableHlo.after_of_writes_sub hostOps0 _ hostOps0_writes (by decide)
    _ = m ((c : Thread nD τ).loc main_arg6) := rfl
theorem We_main_arg7 (c : Dev nD) : We m c (Proc.devRef .tc main_arg7) = m ((c : Thread nD τ).loc main_arg7) :=
  calc We m c (Proc.devRef .tc main_arg7)
    _ = Wd m c (Proc.devRef .tc main_arg7) := StableHlo.after_of_writes_sub hostOps2 _ hostOps2_writes (by decide)
    _ = Wc m c (Proc.devRef .tc main_arg7) := Wd_of_ne m c main_arg7 (by decide)
    _ = Wb m c (Proc.devRef .tc main_arg7) := StableHlo.after_of_writes_sub hostOps1 _ hostOps1_writes (by decide)
    _ = Wa m c (Proc.devRef .tc main_arg7) := Wb_of_ne m c main_arg7 (by decide)
    _ = W0 m c (Proc.devRef .tc main_arg7) := StableHlo.after_of_writes_sub hostOps0 _ hostOps0_writes (by decide)
    _ = m ((c : Thread nD τ).loc main_arg7) := rfl
theorem We_main_arg8 (c : Dev nD) : We m c (Proc.devRef .tc main_arg8) = m ((c : Thread nD τ).loc main_arg8) :=
  calc We m c (Proc.devRef .tc main_arg8)
    _ = Wd m c (Proc.devRef .tc main_arg8) := StableHlo.after_of_writes_sub hostOps2 _ hostOps2_writes (by decide)
    _ = Wc m c (Proc.devRef .tc main_arg8) := (Wd_arr m c 3).trans (((dat1 (Vc m) c).arrAt_in 3 rfl _).trans (A_eq1 (Vc m) c 3))
    _ = Wb m c (Proc.devRef .tc main_arg8) := StableHlo.after_of_writes_sub hostOps1 _ hostOps1_writes (by decide)
    _ = Wa m c (Proc.devRef .tc main_arg8) := Wb_of_ne m c main_arg8 (by decide)
    _ = W0 m c (Proc.devRef .tc main_arg8) := StableHlo.after_of_writes_sub hostOps0 _ hostOps0_writes (by decide)
    _ = m ((c : Thread nD τ).loc main_arg8) := rfl
theorem We_main_arg9 (c : Dev nD) : We m c (Proc.devRef .tc main_arg9) = m ((c : Thread nD τ).loc main_arg9) :=
  calc We m c (Proc.devRef .tc main_arg9)
    _ = Wd m c (Proc.devRef .tc main_arg9) := StableHlo.after_of_writes_sub hostOps2 _ hostOps2_writes (by decide)
    _ = Wc m c (Proc.devRef .tc main_arg9) := Wd_of_ne m c main_arg9 (by decide)
    _ = Wb m c (Proc.devRef .tc main_arg9) := StableHlo.after_of_writes_sub hostOps1 _ hostOps1_writes (by decide)
    _ = Wa m c (Proc.devRef .tc main_arg9) := Wb_of_ne m c main_arg9 (by decide)
    _ = W0 m c (Proc.devRef .tc main_arg9) := StableHlo.after_of_writes_sub hostOps0 _ hostOps0_writes (by decide)
    _ = m ((c : Thread nD τ).loc main_arg9) := rfl
theorem We_main_arg10 (c : Dev nD) : We m c (Proc.devRef .tc main_arg10) = m ((c : Thread nD τ).loc main_arg10) :=
  calc We m c (Proc.devRef .tc main_arg10)
    _ = Wd m c (Proc.devRef .tc main_arg10) := StableHlo.after_of_writes_sub hostOps2 _ hostOps2_writes (by decide)
    _ = Wc m c (Proc.devRef .tc main_arg10) := (Wd_arr m c 5).trans (((dat1 (Vc m) c).arrAt_in 5 rfl _).trans (A_eq1 (Vc m) c 5))
    _ = Wb m c (Proc.devRef .tc main_arg10) := StableHlo.after_of_writes_sub hostOps1 _ hostOps1_writes (by decide)
    _ = Wa m c (Proc.devRef .tc main_arg10) := Wb_of_ne m c main_arg10 (by decide)
    _ = W0 m c (Proc.devRef .tc main_arg10) := StableHlo.after_of_writes_sub hostOps0 _ hostOps0_writes (by decide)
    _ = m ((c : Thread nD τ).loc main_arg10) := rfl
theorem We_main_arg11 (c : Dev nD) : We m c (Proc.devRef .tc main_arg11) = m ((c : Thread nD τ).loc main_arg11) :=
  calc We m c (Proc.devRef .tc main_arg11)
    _ = Wd m c (Proc.devRef .tc main_arg11) := StableHlo.after_of_writes_sub hostOps2 _ hostOps2_writes (by decide)
    _ = Wc m c (Proc.devRef .tc main_arg11) := Wd_of_ne m c main_arg11 (by decide)
    _ = Wb m c (Proc.devRef .tc main_arg11) := StableHlo.after_of_writes_sub hostOps1 _ hostOps1_writes (by decide)
    _ = Wa m c (Proc.devRef .tc main_arg11) := Wb_of_ne m c main_arg11 (by decide)
    _ = W0 m c (Proc.devRef .tc main_arg11) := StableHlo.after_of_writes_sub hostOps0 _ hostOps0_writes (by decide)
    _ = m ((c : Thread nD τ).loc main_arg11) := rfl

/-- The frame: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (We_main_arg0 m c),
    (h c _ (mem_uc main_arg1 (by decide))).trans (We_main_arg1 m c),
    (h c _ (mem_uc main_arg2 (by decide))).trans (We_main_arg2 m c),
    (h c _ (mem_uc main_arg3 (by decide))).trans (We_main_arg3 m c),
    (h c _ (mem_uc main_arg4 (by decide))).trans (We_main_arg4 m c),
    (h c _ (mem_uc main_arg5 (by decide))).trans (We_main_arg5 m c),
    (h c _ (mem_uc main_arg6 (by decide))).trans (We_main_arg6 m c),
    (h c _ (mem_uc main_arg7 (by decide))).trans (We_main_arg7 m c),
    (h c _ (mem_uc main_arg8 (by decide))).trans (We_main_arg8 m c),
    (h c _ (mem_uc main_arg9 (by decide))).trans (We_main_arg9 m c),
    (h c _ (mem_uc main_arg10 (by decide))).trans (We_main_arg10 m c),
    (h c _ (mem_uc main_arg11 (by decide))).trans (We_main_arg11 m c)⟩) (run_main m ρ)

/-! ## The result -/

/-- The result buffer at the end: the head region's output array, reshaped. -/
theorem We_main_v7 (c : Dev nD) :
    We m c (Proc.devRef .tc main_v7) = shapeCast S2048 (Wd m c (Proc.devRef .tc main_v6)) shapeCasts_S2048x1_S2048 := by
  show StableHlo.after hostOps2 (Wd m c) (Proc.devRef .tc main_v7) = _
  after_results; rfl

/-- The reshaped biases the regions are entered with. -/
theorem Wa_main_v0 (c : Dev nD) :
    Wa m c (Proc.devRef .tc main_v0) = shapeCast S1x256 (W0 m c (Proc.devRef .tc main_arg3)) shapeCasts_S256_S1x256 := by
  show StableHlo.after hostOps0 (W0 m c) (Proc.devRef .tc main_v0) = _
  after_results; rfl
theorem Wa_main_v1 (c : Dev nD) :
    Wa m c (Proc.devRef .tc main_v1) = shapeCast S1x256 (W0 m c (Proc.devRef .tc main_arg5)) shapeCasts_S256_S1x256 := by
  show StableHlo.after hostOps0 (W0 m c) (Proc.devRef .tc main_v1) = _
  after_results; rfl
theorem Wc_main_v3 (c : Dev nD) :
    Wc m c (Proc.devRef .tc main_v3) = shapeCast S1x32 (Wb m c (Proc.devRef .tc main_arg7)) shapeCasts_S32_S1x32 := by
  show StableHlo.after hostOps1 (Wb m c) (Proc.devRef .tc main_v3) = _
  after_results; rfl
theorem Wc_main_v4 (c : Dev nD) :
    Wc m c (Proc.devRef .tc main_v4) = shapeCast S1x32 (Wb m c (Proc.devRef .tc main_arg9)) shapeCasts_S32_S1x32 := by
  show StableHlo.after hostOps1 (Wb m c) (Proc.devRef .tc main_v4) = _
  after_results; rfl
theorem Wc_main_v5 (c : Dev nD) :
    Wc m c (Proc.devRef .tc main_v5) = shapeCast S1x1 (Wb m c (Proc.devRef .tc main_arg11)) shapeCasts_S1_S1x1 := by
  show StableHlo.after hostOps1 (Wb m c) (Proc.devRef .tc main_v5) = _
  after_results; rfl

/-- The run with the result named: the result buffer at the reshaped head output, the arguments as launched. -/
theorem run_value : θ_run defs (onTc (τ := τ) (main (F := F))) ⟨m, fun _ => 0, ρ⟩ (fun r => ∀ c : Dev nD,
      r.2.mem ((c.tc : Thread nD τ).loc main_v7) = shapeCast S2048 (Wd m c (Proc.devRef .tc main_v6)) shapeCasts_S2048x1_S2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v7 (by decide))).trans (We_main_v7 m c), (h c _ (mem_uc main_arg0 (by decide))).trans (We_main_arg0 m c),
    (h c _ (mem_uc main_arg1 (by decide))).trans (We_main_arg1 m c),
    (h c _ (mem_uc main_arg2 (by decide))).trans (We_main_arg2 m c),
    (h c _ (mem_uc main_arg3 (by decide))).trans (We_main_arg3 m c),
    (h c _ (mem_uc main_arg4 (by decide))).trans (We_main_arg4 m c),
    (h c _ (mem_uc main_arg5 (by decide))).trans (We_main_arg5 m c),
    (h c _ (mem_uc main_arg6 (by decide))).trans (We_main_arg6 m c),
    (h c _ (mem_uc main_arg7 (by decide))).trans (We_main_arg7 m c),
    (h c _ (mem_uc main_arg8 (by decide))).trans (We_main_arg8 m c),
    (h c _ (mem_uc main_arg9 (by decide))).trans (We_main_arg9 m c),
    (h c _ (mem_uc main_arg10 (by decide))).trans (We_main_arg10 m c),
    (h c _ (mem_uc main_arg11 (by decide))).trans (We_main_arg11 m c)⟩) (run_main m ρ)

end Cert.Kernel.Fr

end
-- ==== Proof.KI.Region0Base.lean ====
/-
  The feature-transform region: one grid of 2 × 80 points. Point (i, k) sees rows 1024·i … 1024·i + 1023 and
  features 512·k … 512·k + 511 of both feature arrays, the same 512 features of both weight matrices, and the two
  bias rows. Two accumulators, one per side, live in scratch across the 80 points of a batch tile: they are
  zero-filled at k = 0, each point adds its block's partial products, and at k = 79 the biased, clipped
  accumulators are written side by side into the tile's 1024 × 512 output block, which is written back only then.

  This module holds what the three kinds of point (first of a tile, middle, last of a tile) share: a window's block
  at a point as a function of the arrays the region is entered with, the two branch conditions decided over the
  grid, where the output window is left untouched, and the region's resting state with its two accumulators named.
-/
import proofs.«103038_j39840116637857_1_alg».proof.Proof.Gen.KernelIdeal.Launch
import proofs.«103038_j39840116637857_1_alg».proof.Proof.Gen.KernelIdeal.Skeleton
import proofs.«103038_j39840116637857_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current buffer holds its block at every point, fetched there or not: where it is not
    fetched its block index has not moved. -/

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- "This is the first feature block of the tile" (k = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 80 = 0 :=
  (by decide +kernel : ∀ t : Fin grid0.N, cond0_0 (grid0.coords t) ↔ t.val % 80 = 0)

/-- "This is the last feature block of the tile" (k = 79), as the body computes it. -/
abbrev cond0_1 (i : grid0.Coords) : Prop := k0_cond2 i = 1#1
theorem hcond0_1 : ∀ t : Fin cfg0.N, cond0_1 (grid0.coords t) ↔ t.val % 80 = 79 :=
  (by decide +kernel : ∀ t : Fin grid0.N, cond0_1 (grid0.coords t) ↔ t.val % 80 = 79)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from a tile's last point the body stores nothing into the output block, and the block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At a tile's last point the body stores the whole output block. -/
theorem liveAt0_6 : ∀ t : Fin cfg0.N, cond0_1 (grid0.coords t) → cfg0.idle 6 (grid0.coords t) = false := by decide +kernel

/-! ## The memrefs the body is called with -/

abbrev VO0_6 : View sig .tc .vmem S1024x512 .f32 := (Memref.whole cc0_stg6_0 : Memref sig .tc .vmem S1024x512 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .f32 := win0_6.stage (cfg0.slots t 6)
abbrev hs0_6 (t : Fin cfg0.N) : (ms0_6 t).IsWhole := hstage0_6 ((cfg0.slots t 6).cast nbuf0_6)
/-- The two accumulators: whole scoped buffers of the kernel's own. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view

/-- The other scoped buffers of the program (the second region's staging buffers), each at some contents: they ride
    through this region untouched. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f))

/-- The region's resting state with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped (F := F) c) ∗ (∃ r, prngReg c r)) := by
  unfold Pipeline.ΦA otherScoped; rw [scopedRest0_eq]; simp only [scM0_0, scM0_1, owns_whole]; try rfl

end Cert.KernelIdeal.Fr

end
-- ==== Proof.KI.Region0RunA.lean ====
/-
  The body at the first point of a batch tile (k = 0, not k = 79): both accumulators are zero-filled, then each
  receives its block's partial products; the bias rows and the output block are not touched. What each accumulator
  ends with is found by running the body: its stores as pieces, last first.
-/
import proofs.«103038_j39840116637857_1_alg».proof.Proof.KI.Region0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun0_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1024x512 .f32) (x1 : Vec F S1024x512 .f32) (x2 : Vec F S256x512 .f32) (x3 : Vec F S256x512 .f32) :
    Σ' (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__feat_kernel i arg2 harg2 arg3 harg3 arg4 harg4 arg5 harg5 arg6 harg6 arg7 harg7 arg8 harg8 arg9 harg9 arg10 harg10) K } := by
  refine ⟨?_, ?_, fun E K => ?run⟩
  case run =>
    simp only [cc0__feat_kernel_eq_skeleton]; unfold cc0__feat_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.KI.Region0RunB.lean ====
/-
  The body at a middle point of a batch tile (neither k = 0 nor k = 79): each accumulator, holding the partial sums
  of the blocks before, receives this block's partial products; the bias rows and the output block are not touched.
-/
import proofs.«103038_j39840116637857_1_alg».proof.Proof.KI.Region0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun0_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i)
    (x0 : Vec F S1024x512 .f32) (x1 : Vec F S1024x512 .f32) (x2 : Vec F S256x512 .f32) (x3 : Vec F S256x512 .f32) (xs0 : Vec F S1024x256 .f32) (xs1 : Vec F S1024x256 .f32) :
    Σ' (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__feat_kernel i arg2 harg2 arg3 harg3 arg4 harg4 arg5 harg5 arg6 harg6 arg7 harg7 arg8 harg8 arg9 harg9 arg10 harg10) K } := by
  refine ⟨?_, ?_, fun E K => ?run⟩
  case run =>
    simp only [cc0__feat_kernel_eq_skeleton]; unfold cc0__feat_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.KI.Region0RunC.lean ====
/-
  The body at the last point of a batch tile (k = 79, not k = 0): each accumulator receives the last block's partial
  products, and then the biased accumulators, clipped below at zero, are stored side by side into the output block:
  the white side's into columns 0 … 255, the black side's into columns 256 … 511.
-/
import proofs.«103038_j39840116637857_1_alg».proof.Proof.KI.Region0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun0_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1024x512 .f32) (x1 : Vec F S1024x512 .f32) (x2 : Vec F S256x512 .f32) (x3 : Vec F S256x512 .f32) (x4 : Vec F S1x256 .f32) (x5 : Vec F S1x256 .f32) (xs0 : Vec F S1024x256 .f32) (xs1 : Vec F S1024x256 .f32) :
    Σ' (L6 : List (View.Piece (Elt F) S1024x512 .f32)) (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__feat_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__feat_kernel_eq_skeleton]; unfold cc0__feat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Fr

end
-- ==== Proof.KI.Region0.lean ====
/-
  The feature-transform region, point by point. After point n the two accumulators hold a definite pair of arrays
  (and, at the last point of a batch tile, so does the tile's output block): at the first point of a tile what the
  first-point run leaves, afterwards what the middle-point or last-point run leaves when started from what the point
  before left. The region's resting state between points names the accumulators' contents by this recursion; the
  body at every point takes that state to the next one and hands every input block back as it found it.
-/
import proofs.«103038_j39840116637857_1_alg».proof.Proof.KI.Region0RunA
import proofs.«103038_j39840116637857_1_alg».proof.Proof.KI.Region0RunB
import proofs.«103038_j39840116637857_1_alg».proof.Proof.KI.Region0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The three runs at a grid point, on the memrefs and blocks the pipeline supplies there -/

abbrev runA (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk0 V c 0 t) (iblk0 V c 1 t) (iblk0 V c 2 t) (iblk0 V c 3 t)
abbrev runB (c : Dev nD) (t : Fin cfg0.N) (h0 : ¬cond0_0 (grid0.coords t)) (h1 : ¬cond0_1 (grid0.coords t)) (xs0 xs1 : Vec F S1024x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk0 V c 0 t) (iblk0 V c 1 t) (iblk0 V c 2 t) (iblk0 V c 3 t) xs0 xs1
abbrev runC (c : Dev nD) (t : Fin cfg0.N) (h0 : ¬cond0_0 (grid0.coords t)) (h1 : cond0_1 (grid0.coords t)) (xs0 xs1 : Vec F S1024x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) xs0 xs1

/-! ## Each run's stores cover the buffer they go to -/

theorem scoverA_0 (c : Dev nD) (t : Fin cfg0.N) (h0 : cond0_0 (grid0.coords t)) (h1 : ¬cond0_1 (grid0.coords t)) (y : S1024x256.Idx) : ∃ pc ∈ (runA V c t h0 h1).1, y ∈ pc.1.set :=
  View.cover_of_tiledL (runA V c t h0 h1).1 S1024x256.size (by sl_kernel_rfl) y
theorem scoverA_1 (c : Dev nD) (t : Fin cfg0.N) (h0 : cond0_0 (grid0.coords t)) (h1 : ¬cond0_1 (grid0.coords t)) (y : S1024x256.Idx) : ∃ pc ∈ (runA V c t h0 h1).2.1, y ∈ pc.1.set :=
  View.cover_of_tiledL (runA V c t h0 h1).2.1 S1024x256.size (by sl_kernel_rfl) y
theorem scoverB_0 (c : Dev nD) (t : Fin cfg0.N) (h0 : ¬cond0_0 (grid0.coords t)) (h1 : ¬cond0_1 (grid0.coords t)) (xs0 xs1 : Vec F S1024x256 .f32) (y : S1024x256.Idx) : ∃ pc ∈ (runB V c t h0 h1 xs0 xs1).1, y ∈ pc.1.set :=
  View.cover_of_tiledL (runB V c t h0 h1 xs0 xs1).1 S1024x256.size (by sl_kernel_rfl) y
theorem scoverB_1 (c : Dev nD) (t : Fin cfg0.N) (h0 : ¬cond0_0 (grid0.coords t)) (h1 : ¬cond0_1 (grid0.coords t)) (xs0 xs1 : Vec F S1024x256 .f32) (y : S1024x256.Idx) : ∃ pc ∈ (runB V c t h0 h1 xs0 xs1).2.1, y ∈ pc.1.set :=
  View.cover_of_tiledL (runB V c t h0 h1 xs0 xs1).2.1 S1024x256.size (by sl_kernel_rfl) y
theorem coverC_6 (c : Dev nD) (t : Fin cfg0.N) (h0 : ¬cond0_0 (grid0.coords t)) (h1 : cond0_1 (grid0.coords t)) (xs0 xs1 : Vec F S1024x256 .f32) (y : S1024x512.Idx) : ∃ pc ∈ (runC V c t h0 h1 xs0 xs1).1, y ∈ pc.1.set :=
  View.cover_of_tiledL (runC V c t h0 h1 xs0 xs1).1 S1024x256.size (by sl_kernel_rfl) y
theorem scoverC_0 (c : Dev nD) (t : Fin cfg0.N) (h0 : ¬cond0_0 (grid0.coords t)) (h1 : cond0_1 (grid0.coords t)) (xs0 xs1 : Vec F S1024x256 .f32) (y : S1024x256.Idx) : ∃ pc ∈ (runC V c t h0 h1 xs0 xs1).2.1, y ∈ pc.1.set :=
  View.cover_of_tiledL (runC V c t h0 h1 xs0 xs1).2.1 S1024x256.size (by sl_kernel_rfl) y
theorem scoverC_1 (c : Dev nD) (t : Fin cfg0.N) (h0 : ¬cond0_0 (grid0.coords t)) (h1 : cond0_1 (grid0.coords t)) (xs0 xs1 : Vec F S1024x256 .f32) (y : S1024x256.Idx) : ∃ pc ∈ (runC V c t h0 h1 xs0 xs1).2.2.1, y ∈ pc.1.set :=
  View.cover_of_tiledL (runC V c t h0 h1 xs0 xs1).2.2.1 S1024x256.size (by sl_kernel_rfl) y

/-! ## What each run leaves: its pieces read back -/

def soutA_0 (c : Dev nD) (t : Fin cfg0.N) (h0 : cond0_0 (grid0.coords t)) (h1 : ¬cond0_1 (grid0.coords t)) : Vec F S1024x256 .f32 := VS0_0.read (Elt F) (VS0_0.writes (Elt F) VS0_0.junk (runA V c t h0 h1).1)
def soutA_1 (c : Dev nD) (t : Fin cfg0.N) (h0 : cond0_0 (grid0.coords t)) (h1 : ¬cond0_1 (grid0.coords t)) : Vec F S1024x256 .f32 := VS0_1.read (Elt F) (VS0_1.writes (Elt F) VS0_1.junk (runA V c t h0 h1).2.1)
def soutB_0 (c : Dev nD) (t : Fin cfg0.N) (h0 : ¬cond0_0 (grid0.coords t)) (h1 : ¬cond0_1 (grid0.coords t)) (xs0 xs1 : Vec F S1024x256 .f32) : Vec F S1024x256 .f32 := VS0_0.read (Elt F) (VS0_0.writes (Elt F) VS0_0.junk (runB V c t h0 h1 xs0 xs1).1)
def soutB_1 (c : Dev nD) (t : Fin cfg0.N) (h0 : ¬cond0_0 (grid0.coords t)) (h1 : ¬cond0_1 (grid0.coords t)) (xs0 xs1 : Vec F S1024x256 .f32) : Vec F S1024x256 .f32 := VS0_1.read (Elt F) (VS0_1.writes (Elt F) VS0_1.junk (runB V c t h0 h1 xs0 xs1).2.1)
def outC_6 (c : Dev nD) (t : Fin cfg0.N) (h0 : ¬cond0_0 (grid0.coords t)) (h1 : cond0_1 (grid0.coords t)) (xs0 xs1 : Vec F S1024x256 .f32) : Vec F S1024x512 .f32 := VO0_6.read (Elt F) (VO0_6.writes (Elt F) VO0_6.junk (runC V c t h0 h1 xs0 xs1).1)
def soutC_0 (c : Dev nD) (t : Fin cfg0.N) (h0 : ¬cond0_0 (grid0.coords t)) (h1 : cond0_1 (grid0.coords t)) (xs0 xs1 : Vec F S1024x256 .f32) : Vec F S1024x256 .f32 := VS0_0.read (Elt F) (VS0_0.writes (Elt F) VS0_0.junk (runC V c t h0 h1 xs0 xs1).2.1)
def soutC_1 (c : Dev nD) (t : Fin cfg0.N) (h0 : ¬cond0_0 (grid0.coords t)) (h1 : cond0_1 (grid0.coords t)) (xs0 xs1 : Vec F S1024x256 .f32) : Vec F S1024x256 .f32 := VS0_1.read (Elt F) (VS0_1.writes (Elt F) VS0_1.junk (runC V c t h0 h1 xs0 xs1).2.2.1)
/-- Where the output block is not stored: a placeholder nothing reads. -/
def noOut : Vec F S1024x512 .f32 := VO0_6.read (Elt F) VO0_6.junk

/-! ## The state after each point -/

theorem N0 : cfg0.N = 160 := N_0

/-- After point `n`: the output block's buffer, the white accumulator, the black accumulator. -/
def outsAt0 (c : Dev nD) : (n : ℕ) → n < cfg0.N → Vec F S1024x512 .f32 × Vec F S1024x256 .f32 × Vec F S1024x256 .f32
  | 0, hn =>
    (noOut, soutA_0 V c ⟨0, hn⟩ ((hcond0_0 ⟨0, hn⟩).mpr (Nat.zero_mod _)) (fun h => by have h' : (0 : ℕ) % 80 = 79 := (hcond0_1 ⟨0, hn⟩).mp h; omega),
      soutA_1 V c ⟨0, hn⟩ ((hcond0_0 ⟨0, hn⟩).mpr (Nat.zero_mod _)) (fun h => by have h' : (0 : ℕ) % 80 = 79 := (hcond0_1 ⟨0, hn⟩).mp h; omega))
  | n + 1, hn =>
    if h0 : (n + 1) % 80 = 0 then
      (noOut, soutA_0 V c ⟨n + 1, hn⟩ ((hcond0_0 ⟨n + 1, hn⟩).mpr h0) (fun h => by have h' : (n + 1) % 80 = 79 := (hcond0_1 ⟨n + 1, hn⟩).mp h; omega),
        soutA_1 V c ⟨n + 1, hn⟩ ((hcond0_0 ⟨n + 1, hn⟩).mpr h0) (fun h => by have h' : (n + 1) % 80 = 79 := (hcond0_1 ⟨n + 1, hn⟩).mp h; omega))
    else if h1 : (n + 1) % 80 = 79 then
      (outC_6 V c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2,
        soutC_0 V c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2,
        soutC_1 V c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2)
    else
      (noOut, soutB_0 V c ⟨n + 1, hn⟩ (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2,
        soutB_1 V c ⟨n + 1, hn⟩ (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2)

/-- The state the point before `t` left (for `t` not the first point). -/
abbrev prevAt (c : Dev nD) (t : Fin cfg0.N) := outsAt0 V c (t.val - 1) (Nat.lt_of_le_of_lt (Nat.sub_le _ _) t.isLt)

theorem outsAt0_A (c : Dev nD) (t : Fin cfg0.N) (h0 : t.val % 80 = 0) :
    outsAt0 V c t.val t.isLt = (noOut, soutA_0 V c t ((hcond0_0 t).mpr h0) (fun h => by have := (hcond0_1 t).mp h; omega),
      soutA_1 V c t ((hcond0_0 t).mpr h0) (fun h => by have := (hcond0_1 t).mp h; omega)) := by
  obtain ⟨n, hn⟩ := t
  cases n with
  | zero => rfl
  | succ n => exact (dif_pos h0).trans rfl

theorem outsAt0_C (c : Dev nD) (t : Fin cfg0.N) (h0 : ¬t.val % 80 = 0) (h1 : t.val % 80 = 79) :
    outsAt0 V c t.val t.isLt = (outC_6 V c t (fun h => h0 ((hcond0_0 t).mp h)) ((hcond0_1 t).mpr h1) (prevAt V c t).2.1 (prevAt V c t).2.2,
      soutC_0 V c t (fun h => h0 ((hcond0_0 t).mp h)) ((hcond0_1 t).mpr h1) (prevAt V c t).2.1 (prevAt V c t).2.2,
      soutC_1 V c t (fun h => h0 ((hcond0_0 t).mp h)) ((hcond0_1 t).mpr h1) (prevAt V c t).2.1 (prevAt V c t).2.2) := by
  obtain ⟨n, hn⟩ := t
  cases n with
  | zero => exact absurd (Nat.zero_mod _) h0
  | succ n => exact (dif_neg h0).trans ((dif_pos h1).trans rfl)

theorem outsAt0_B (c : Dev nD) (t : Fin cfg0.N) (h0 : ¬t.val % 80 = 0) (h1 : ¬t.val % 80 = 79) :
    outsAt0 V c t.val t.isLt = (noOut, soutB_0 V c t (fun h => h0 ((hcond0_0 t).mp h)) (fun h => h1 ((hcond0_1 t).mp h)) (prevAt V c t).2.1 (prevAt V c t).2.2,
      soutB_1 V c t (fun h => h0 ((hcond0_0 t).mp h)) (fun h => h1 ((hcond0_1 t).mp h)) (prevAt V c t).2.1 (prevAt V c t).2.2) := by
  obtain ⟨n, hn⟩ := t
  cases n with
  | zero => exact absurd (Nat.zero_mod _) h0
  | succ n => exact (dif_neg h0).trans ((dif_neg h1).trans rfl)

/-! ## The region's resting state before position `n` -/

def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2 ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (outsAt0 V c n hn).2.1 ∗ owns (c : Thread nD τ) scM0_1 fullShare (outsAt0 V c n hn).2.2 ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (outsAt0 V c (n - 1) (by omega)).2.1 ∗ owns (c : Thread nD τ) scM0_1 fullShare (outsAt0 V c (n - 1) (by omega)).2.2 ∗ otherScoped (F := F) c) ∗ (∃ r, prngReg c r)) := by
  cases n with
  | zero => exact absurd rfl hz
  | succ n => rfl

/-! ## The pipeline's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  have hN : t.val < 160 := lt_of_lt_of_eq t.isLt N0
  by_cases h0 : t.val % 80 = 0
  · have hc1 : ¬cond0_1 (grid0.coords t) := fun h => by have := (hcond0_1 t).mp h; omega
    rw [Dat.leavesExact_idle (dat0 V c) 6 t (idleAt0_6 t hc1) (noFlush0_6 t hc1)]
    rw [outsAt0_A V c t h0]
    unfold soutA_0 soutA_1; (try dsimp only)
    by_cases hz : t.val = 0
    · rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩, H4, H5, H6⟩
      iapply ((runA V c t ((hcond0_0 t).mpr h0) hc1).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA_0 V c t _ _)
          isplitl [HS1]
          · unfold owns; iexists _; isplitr
            swap; · iexact HS1
            ipureintro; exact View.read_writes_of_cover _ _ _ _ _ (scoverA_1 V c t _ _)
          iexact HR
        iexact Hg
      isplitl [Ho]; · iexact Ho
      isplitl [H0]; · iexact H0
      isplitl [H1]; · iexact H1
      isplitl [H2]; · iexact H2
      isplitl [H3]; · iexact H3
      isplitl [H4]; · icases H4 with ⟨%d4, H4⟩; iexact H4
      isplitl [H5]; · icases H5 with ⟨%d5, H5⟩; iexact H5
      iexact H6
    · rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, H4, H5, H6⟩
      iapply ((runA V c t ((hcond0_0 t).mpr h0) hc1).2.2 Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverA_0 V c t _ _)
          isplitl [HS1]
          · unfold owns; iexists _; isplitr
            swap; · iexact HS1
            ipureintro; exact View.read_writes_of_cover _ _ _ _ _ (scoverA_1 V c t _ _)
          iexact HR
        iexact Hg
      isplitl [Ho]; · iexact Ho
      isplitl [H0]; · iexact H0
      isplitl [H1]; · iexact H1
      isplitl [H2]; · iexact H2
      isplitl [H3]; · iexact H3
      isplitl [H4]; · icases H4 with ⟨%d4, H4⟩; iexact H4
      isplitl [H5]; · icases H5 with ⟨%d5, H5⟩; iexact H5
      iexact H6
  · have hz : t.val ≠ 0 := fun h => h0 (by rw [h])
    have hc0 : ¬cond0_0 (grid0.coords t) := fun h => h0 ((hcond0_0 t).mp h)
    by_cases h1 : t.val % 80 = 79
    · have hc1 : cond0_1 (grid0.coords t) := (hcond0_1 t).mpr h1
      rw [show (dat0 V c).leavesExact 6 t = owns (c : Thread nD τ) (ms0_6 t) fullShare ((dat0 V c).after 6 t) from by
        unfold Dat.leavesExact; rw [liveAt0_6 t hc1], after0_6]
      rw [outsAt0_C V c t h0 h1]
      unfold outC_6 soutC_0 soutC_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t hc0 hc1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverC_0 V c t _ _ _ _)
          isplitl [HS1]
          · unfold owns; iexists _; isplitr
            swap; · iexact HS1
            ipureintro; exact View.read_writes_of_cover _ _ _ _ _ (scoverC_1 V c t _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC_6 V c t _ _ _ _)
    · have hc1 : ¬cond0_1 (grid0.coords t) := fun h => h1 ((hcond0_1 t).mp h)
      rw [Dat.leavesExact_idle (dat0 V c) 6 t (idleAt0_6 t hc1) (noFlush0_6 t hc1)]
      rw [outsAt0_B V c t h0 h1]
      unfold soutB_0 soutB_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, H4, H5, H6⟩
      iapply ((runB V c t hc0 hc1 _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverB_0 V c t _ _ _ _)
          isplitl [HS1]
          · unfold owns; iexists _; isplitr
            swap; · iexact HS1
            ipureintro; exact View.read_writes_of_cover _ _ _ _ _ (scoverB_1 V c t _ _ _ _)
          iexact HR
        iexact Hg
      isplitl [Ho]; · iexact Ho
      isplitl [H0]; · iexact H0
      isplitl [H1]; · iexact H1
      isplitl [H2]; · iexact H2
      isplitl [H3]; · iexact H3
      isplitl [H4]; · icases H4 with ⟨%d4, H4⟩; iexact H4
      isplitl [H5]; · icases H5 with ⟨%d5, H5⟩; iexact H5
      iexact H6

theorem body_obligation0 (c : Dev nD) : BodyObligation (dat0 (F := F) V c) (defs₀ (F := F)) Variants.none () Set.univ := fun t => by
  rw [bigSep_W0, bigSep_W0]
  exact sound_body0 V c t

/-! ## Entering and leaving the region -/

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c := by
  have ht : (Fin.last cfg0.N).val ≠ 0 := by rw [Fin.val_last]; have := N0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.KernelIdeal.Fr

end
-- ==== Proof.KI.Region1.lean ====
import proofs.«103038_j39840116637857_1_alg».proof.Proof.Gen.KernelIdeal.Launch
import proofs.«103038_j39840116637857_1_alg».proof.Proof.Gen.KernelIdeal.Skeleton
import proofs.«103038_j39840116637857_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The dense layers' region: what its body leaves, and its body obligation

The second kernel region has one grid point. Each of its seven input windows stages its whole array
in one block; the body loads the seven staged arrays whole, and stores once, whole, into the one
output window the value `k1_pay1` of the seven loads. This module states, at any buffer contents
`V` the region may be entered with, what each window's buffer holds after the body, and proves the
pipeline library's body obligation for it. Everything is generic in the float instance. -/

-- membership in a rectangle of these extents: the elaborator's structural look recurses once per
-- coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not, for ANY
    proof data whose array is `V`'s (`hA`) and whose body leaves the block in place (`hafter`): an
    unfetched window's block index has not moved; the windows are uncut and never idle. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_0 : Rect S2048x512 := Rect.unit (s := S2048x512) ![0, 0] S2048x512.size inb_S2048x512_S2048x512_0_0
abbrev r1_1 : Rect S32x512 := Rect.unit (s := S32x512) ![0, 0] S32x512.size inb_S32x512_S32x512_0_0
abbrev r1_2 : Rect S1x32 := Rect.unit (s := S1x32) ![0, 0] S1x32.size inb_S1x32_S1x32_0_0
abbrev r1_3 : Rect S32x32 := Rect.unit (s := S32x32) ![0, 0] S32x32.size inb_S32x32_S32x32_0_0
abbrev r1_4 : Rect S1x32 := Rect.unit (s := S1x32) ![0, 0] S1x32.size inb_S1x32_S1x32_0_0
abbrev r1_5 : Rect S1x32 := Rect.unit (s := S1x32) ![0, 0] S1x32.size inb_S1x32_S1x32_0_0
abbrev r1_6 : Rect S1x1 := Rect.unit (s := S1x1) ![0, 0] S1x1.size inb_S1x1_S1x1_0_0
abbrev r1_out : Rect S2048x1 := Rect.unit (s := S2048x1) ![0, 0] S2048x1.size inb_S2048x1_S2048x1_0_0

/-- The offsets of every access are zero. -/
theorem off_zero : (![0, 0] : Fin 2 → Nat) = fun _ => 0 := funext fun a => by fin_cases a <;> rfl

/-! ## What the body leaves in the output window's buffer -/

/-- Window 7's staging buffer after the body, from the input windows' blocks: its one store, as a
    one-piece list, of the payload of the seven loads. -/
def out1_7 (x0 : Vec F S2048x512 .f32) (x1 : Vec F S32x512 .f32) (x2 : Vec F S1x32 .f32) (x3 : Vec F S32x32 .f32) (x4 : Vec F S1x32 .f32) (x5 : Vec F S1x32 .f32) (x6 : Vec F S1x1 .f32) : Vec F S2048x1 .f32 :=
  View.canon [⟨r1_out, k1_pay1 (View.ld x0 r1_0) (View.ld x1 r1_1) (View.ld x2 r1_2) (View.ld x3 r1_3) (View.ld x4 r1_4) (View.ld x5 r1_5) (View.ld x6 r1_6)⟩]

/-- The one store covers the buffer. -/
theorem cover1_7 (p0 : Vec F S2048x1 .f32) (y : S2048x1.Idx) :
    ∃ pc ∈ ([⟨r1_out, p0⟩] : List (View.Piece (Elt F) S2048x1 .f32)), y ∈ pc.1.set :=
  ⟨_, List.mem_singleton_self _, View.mem_set_unit_zero off_zero inb_S2048x1_S2048x1_0_0 y⟩

/-- One whole-buffer store of a payload of whole-buffer loads: the buffer holds the payload of the
    blocks themselves. -/
theorem out1_7_eq (x0 : Vec F S2048x512 .f32) (x1 : Vec F S32x512 .f32) (x2 : Vec F S1x32 .f32) (x3 : Vec F S32x32 .f32) (x4 : Vec F S1x32 .f32) (x5 : Vec F S1x32 .f32) (x6 : Vec F S1x1 .f32) :
    out1_7 x0 x1 x2 x3 x4 x5 x6 = k1_pay1 x0 x1 x2 x3 x4 x5 x6 := by
  unfold out1_7
  rw [View.canon_unit_zero off_zero]
  simp only [View.ld_unit_zero (S := S2048x512) off_zero, View.ld_unit_zero (S := S32x512) off_zero,
    View.ld_unit_zero (S := S1x32) off_zero, View.ld_unit_zero (S := S32x32) off_zero, View.ld_unit_zero (S := S1x1) off_zero]

/-! ## The body's triple -/

set_option maxHeartbeats 1000000 in
/-- The kernel body on whole staging memrefs, the inputs' at contents `x0 … x6` and the output's at
    anything, runs to the continuation holding the inputs' as they were and the output's at
    `out1_7` of the inputs'. -/
theorem sound_kernel1 (c : Dev nD) (E : Set ℕ) (i : grid1.Coords) (arg1 : Memref sig .tc .vmem S2048x512 .f32) (harg1 : arg1.IsWhole) (arg2 : Memref sig .tc .vmem S32x512 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x1 .f32) (harg7 : arg7.IsWhole) (arg8 : Memref sig .tc .vmem S2048x1 .f32) (harg8 : arg8.IsWhole)
    (x0 : Vec F S2048x512 .f32) (x1 : Vec F S32x512 .f32) (x2 : Vec F S1x32 .f32) (x3 : Vec F S32x32 .f32) (x4 : Vec F S1x32 .f32) (x5 : Vec F S1x32 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the region's pipeline on core `c`: the arrays as the region finds them (`V`);
    after the body at point `t` each input's buffer at its block and the output's at `out1_7` of the
    input blocks; the invariant the scoped rest and the generator register, untouched; nothing
    owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.KI.Run.lean ====
/-
  The whole program as five segments: the host reshapes of the two first-layer biases; the feature-transform region;
  the host reshapes of the three head biases; the head region; the host reshape of the head's [2048, 1] result into
  the [2048] result. Between segments every unscoped buffer of a core holds definite contents: the launch memory,
  then each host stretch applied to it, and after a region its windows' arrays at what the region's write-backs
  leave, every other buffer as it was. Every weakly fair execution terminates without a fault, and every unscoped
  buffer ends at the last of these contents.
-/
import proofs.«103038_j39840116637857_1_alg».proof.Proof.KI.Region0
import proofs.«103038_j39840116637857_1_alg».proof.Proof.KI.Region1
import proofs.«103038_j39840116637857_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m (c, b)
/-- After the first host stretch: the feature-transform region's entry. -/
abbrev Wa (c : Dev nD) : Valuation τ sig (Elt F) := StableHlo.after hostOps0 (W0 m c)
abbrev Va : (c : Dev nD) → (b : Ref sig .tc) → Buf (Elt F) ((c : Thread nD τ).loc b) := fun c b => Wa m c b
/-- After the feature-transform region: its arrays at what its write-backs leave. -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)
/-- After the second host stretch: the head region's entry. -/
abbrev Wc (c : Dev nD) : Valuation τ sig (Elt F) := StableHlo.after hostOps1 (Wb m c)
abbrev Vc : (c : Dev nD) → (b : Ref sig .tc) → Buf (Elt F) ((c : Thread nD τ).loc b) := fun c b => Wc m c b
/-- After the head region. -/
def Wd (c : Dev nD) : Valuation τ sig (Elt F) :=
  Pipeline.withArrays spec1 c (Wc m c) fun w => (dat1 (Vc m) c).arrAt w cfg1.N
theorem Wd_arr (c : Dev nD) (w : Fin cfg1.W) :
    Wd m c (Proc.devRef .tc (Pipeline.arrRef spec1 w)) = (dat1 (Vc m) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m c (Proc.devRef .tc b) = Wc m c (Proc.devRef .tc b) := by
  unfold Wd; exact Pipeline.withArrays_of_ne spec1 c _ _ b hb
abbrev Vd : (c : Dev nD) → (b : Ref sig .tc) → Buf (Elt F) ((c : Thread nD τ).loc b) := fun c b => Wd m c b
theorem hF1 (c : Dev nD) (w : Fin cfg1.W) : (dat1 (Vc m) c).arrAt w cfg1.N = Vd m c (Pipeline.arrRef spec1 w) :=
  (Wd_arr m c w).symm
theorem hrest1 (c : Dev nD) : ∀ b, b ∉ Finset.univ.image (Pipeline.arrRef spec1) → Vd m c b = Vc m c b :=
  fun b hb => Wd_of_ne m c b fun w e => hb (Finset.mem_image.mpr ⟨w, Finset.mem_univ _, e⟩)
/-- After the last host stretch: the end. -/
abbrev We (c : Dev nD) : Valuation τ sig (Elt F) := StableHlo.after hostOps2 (Wd m c)

/-! ## The proof data family and the thread state -/

def pdats : (p : Fin 2) → (c : Dev nD) → Dat τ (Elt F) Unit ℕ (Pipeline.UD sig nD τ) ℕ (Pipeline.pin (pcfgs (F := F)) adm p) c
  | ⟨0, _⟩ => fun c => dat0 (Va m) c
  | ⟨1, _⟩ => fun c => dat1 (Vc m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (We m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := Pipeline.UD sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Va m) c).Φ 0 from rfl]
    refine BIBase.Entails.trans ?_ (hin0 (Va m) c)
    unfold Pipeline.ΦA
    iintro ⟨Hp, -, Hr⟩
    isplitl [Hr]; · iexact Hr
    iexact Hp
  hout c := by
    rw [Pipeline.ownSems0_none, show (pdats m 0 c).Φ (Fin.last _) = (dat0 (Va m) c).Φ (Fin.last cfg0.N) from rfl]
    refine BIBase.Entails.trans (hout0 (Va m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m) c).loose
  hwaits := Pipeline.hwaits_of_owed_zero _ _ _ _ L lv 1 fun _ _ => rfl
  pre c := iprop(StableHlo.held (c : Thread nD τ) (Pipeline.ucRefs τ sig) (Wc m c) ∗ R c)
  post c := iprop(StableHlo.held (c : Thread nD τ) (Pipeline.ucRefs τ sig) (Wd m c) ∗ R c)
  X c := iprop(∃ r, prngReg c r)
  Y c := iprop(∃ r, prngReg c r)
  Z c := Pipeline.unscopedRest (Ix := Unit) (Name := ℕ) (U := Pipeline.UD sig nD τ) (Lvl := ℕ) spec1 c (Vc m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Vc m c) (Vd m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (Wb m)),
    .region (reg1 m),
    .host (hseg hostOps2 hostOps2_sub hostOps2_fresh (Wd m)) ]

theorem main_run (c : Dev nD) : main (F := F) c = Pipeline.Seg.run (segs m) := (main_chain c).trans (by chain_rfl)

set_option backward.isDefEq.respectTransparency.types false in
/-- Every weakly fair execution terminates, nothing faulting, and every unscoped buffer of every core ends at the
    last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = We m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (We m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m c b)
    (hfin := fun c s' => by
      iintro ⟨⟨Hh, -⟩, HSI⟩
      unfold StableHlo.held
      imodintro
      iapply (pointsTo_read_all (Pipeline.ucRefs τ sig) (fun b => (((c : Thread nD τ)).1, b)) (We m c) s')
      isplitl [Hh] <;> iassumption)
    (hQ := fun s h c => h c)

end Cert.KernelIdeal.Fr

end
-- ==== Proof.KI.Ends.lean ====
/-
  What the run's last contents are at the buffers the claims speak of. No host stretch writes an argument and no
  region writes one back changed (a region stages it through an input window or does not touch it), so every argument
  ends as launched. The result buffer holds the head region's [2048, 1] output array, reshaped to [2048].
-/
import proofs.«103038_j39840116637857_1_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arguments end as launched -/

theorem We_main_arg0 (c : Dev nD) : We m c (Proc.devRef .tc main_arg0) = m ((c : Thread nD τ).loc main_arg0) :=
  calc We m c (Proc.devRef .tc main_arg0)
    _ = Wd m c (Proc.devRef .tc main_arg0) := StableHlo.after_of_writes_sub hostOps2 _ hostOps2_writes (by decide)
    _ = Wc m c (Proc.devRef .tc main_arg0) := Wd_of_ne m c main_arg0 (by decide)
    _ = Wb m c (Proc.devRef .tc main_arg0) := StableHlo.after_of_writes_sub hostOps1 _ hostOps1_writes (by decide)
    _ = Wa m c (Proc.devRef .tc main_arg0) := (Wb_arr m c 0).trans (((dat0 (Va m) c).arrAt_in 0 rfl _).trans (A_eq0 (Va m) c 0))
    _ = W0 m c (Proc.devRef .tc main_arg0) := StableHlo.after_of_writes_sub hostOps0 _ hostOps0_writes (by decide)
    _ = m ((c : Thread nD τ).loc main_arg0) := rfl
theorem We_main_arg1 (c : Dev nD) : We m c (Proc.devRef .tc main_arg1) = m ((c : Thread nD τ).loc main_arg1) :=
  calc We m c (Proc.devRef .tc main_arg1)
    _ = Wd m c (Proc.devRef .tc main_arg1) := StableHlo.after_of_writes_sub hostOps2 _ hostOps2_writes (by decide)
    _ = Wc m c (Proc.devRef .tc main_arg1) := Wd_of_ne m c main_arg1 (by decide)
    _ = Wb m c (Proc.devRef .tc main_arg1) := StableHlo.after_of_writes_sub hostOps1 _ hostOps1_writes (by decide)
    _ = Wa m c (Proc.devRef .tc main_arg1) := (Wb_arr m c 1).trans (((dat0 (Va m) c).arrAt_in 1 rfl _).trans (A_eq0 (Va m) c 1))
    _ = W0 m c (Proc.devRef .tc main_arg1) := StableHlo.after_of_writes_sub hostOps0 _ hostOps0_writes (by decide)
    _ = m ((c : Thread nD τ).loc main_arg1) := rfl
theorem We_main_arg2 (c : Dev nD) : We m c (Proc.devRef .tc main_arg2) = m ((c : Thread nD τ).loc main_arg2) :=
  calc We m c (Proc.devRef .tc main_arg2)
    _ = Wd m c (Proc.devRef .tc main_arg2) := StableHlo.after_of_writes_sub hostOps2 _ hostOps2_writes (by decide)
    _ = Wc m c (Proc.devRef .tc main_arg2) := Wd_of_ne m c main_arg2 (by decide)
    _ = Wb m c (Proc.devRef .tc main_arg2) := StableHlo.after_of_writes_sub hostOps1 _ hostOps1_writes (by decide)
    _ = Wa m c (Proc.devRef .tc main_arg2) := (Wb_arr m c 2).trans (((dat0 (Va m) c).arrAt_in 2 rfl _).trans (A_eq0 (Va m) c 2))
    _ = W0 m c (Proc.devRef .tc main_arg2) := StableHlo.after_of_writes_sub hostOps0 _ hostOps0_writes (by decide)
    _ = m ((c : Thread nD τ).loc main_arg2) := rfl
theorem We_main_arg3 (c : Dev nD) : We m c (Proc.devRef .tc main_arg3) = m ((c : Thread nD τ).loc main_arg3) :=
  calc We m c (Proc.devRef .tc main_arg3)
    _ = Wd m c (Proc.devRef .tc main_arg3) := StableHlo.after_of_writes_sub hostOps2 _ hostOps2_writes (by decide)
    _ = Wc m c (Proc.devRef .tc main_arg3) := Wd_of_ne m c main_arg3 (by decide)
    _ = Wb m c (Proc.devRef .tc main_arg3) := StableHlo.after_of_writes_sub hostOps1 _ hostOps1_writes (by decide)
    _ = Wa m c (Proc.devRef .tc main_arg3) := Wb_of_ne m c main_arg3 (by decide)
    _ = W0 m c (Proc.devRef .tc main_arg3) := StableHlo.after_of_writes_sub hostOps0 _ hostOps0_writes (by decide)
    _ = m ((c : Thread nD τ).loc main_arg3) := rfl
theorem We_main_arg4 (c : Dev nD) : We m c (Proc.devRef .tc main_arg4) = m ((c : Thread nD τ).loc main_arg4) :=
  calc We m c (Proc.devRef .tc main_arg4)
    _ = Wd m c (Proc.devRef .tc main_arg4) := StableHlo.after_of_writes_sub hostOps2 _ hostOps2_writes (by decide)
    _ = Wc m c (Proc.devRef .tc main_arg4) := Wd_of_ne m c main_arg4 (by decide)
    _ = Wb m c (Proc.devRef .tc main_arg4) := StableHlo.after_of_writes_sub hostOps1 _ hostOps1_writes (by decide)
    _ = Wa m c (Proc.devRef .tc main_arg4) := (Wb_arr m c 3).trans (((dat0 (Va m) c).arrAt_in 3 rfl _).trans (A_eq0 (Va m) c 3))
    _ = W0 m c (Proc.devRef .tc main_arg4) := StableHlo.after_of_writes_sub hostOps0 _ hostOps0_writes (by decide)
    _ = m ((c : Thread nD τ).loc main_arg4) := rfl
theorem We_main_arg5 (c : Dev nD) : We m c (Proc.devRef .tc main_arg5) = m ((c : Thread nD τ).loc main_arg5) :=
  calc We m c (Proc.devRef .tc main_arg5)
    _ = Wd m c (Proc.devRef .tc main_arg5) := StableHlo.after_of_writes_sub hostOps2 _ hostOps2_writes (by decide)
    _ = Wc m c (Proc.devRef .tc main_arg5) := Wd_of_ne m c main_arg5 (by decide)
    _ = Wb m c (Proc.devRef .tc main_arg5) := StableHlo.after_of_writes_sub hostOps1 _ hostOps1_writes (by decide)
    _ = Wa m c (Proc.devRef .tc main_arg5) := Wb_of_ne m c main_arg5 (by decide)
    _ = W0 m c (Proc.devRef .tc main_arg5) := StableHlo.after_of_writes_sub hostOps0 _ hostOps0_writes (by decide)
    _ = m ((c : Thread nD τ).loc main_arg5) := rfl
theorem We_main_arg6 (c : Dev nD) : We m c (Proc.devRef .tc main_arg6) = m ((c : Thread nD τ).loc main_arg6) :=
  calc We m c (Proc.devRef .tc main_arg6)
    _ = Wd m c (Proc.devRef .tc main_arg6) := StableHlo.after_of_writes_sub hostOps2 _ hostOps2_writes (by decide)
    _ = Wc m c (Proc.devRef .tc main_arg6) := (Wd_arr m c 1).trans (((dat1 (Vc m) c).arrAt_in 1 rfl _).trans (A_eq1 (Vc m) c 1))
    _ = Wb m c (Proc.devRef .tc main_arg6) := StableHlo.after_of_writes_sub hostOps1 _ hostOps1_writes (by decide)
    _ = Wa m c (Proc.devRef .tc main_arg6) := Wb_of_ne m c main_arg6 (by decide)
    _ = W0 m c (Proc.devRef .tc main_arg6) := StableHlo.after_of_writes_sub hostOps0 _ hostOps0_writes (by decide)
    _ = m ((c : Thread nD τ).loc main_arg6) := rfl
theorem We_main_arg7 (c : Dev nD) : We m c (Proc.devRef .tc main_arg7) = m ((c : Thread nD τ).loc main_arg7) :=
  calc We m c (Proc.devRef .tc main_arg7)
    _ = Wd m c (Proc.devRef .tc main_arg7) := StableHlo.after_of_writes_sub hostOps2 _ hostOps2_writes (by decide)
    _ = Wc m c (Proc.devRef .tc main_arg7) := Wd_of_ne m c main_arg7 (by decide)
    _ = Wb m c (Proc.devRef .tc main_arg7) := StableHlo.after_of_writes_sub hostOps1 _ hostOps1_writes (by decide)
    _ = Wa m c (Proc.devRef .tc main_arg7) := Wb_of_ne m c main_arg7 (by decide)
    _ = W0 m c (Proc.devRef .tc main_arg7) := StableHlo.after_of_writes_sub hostOps0 _ hostOps0_writes (by decide)
    _ = m ((c : Thread nD τ).loc main_arg7) := rfl
theorem We_main_arg8 (c : Dev nD) : We m c (Proc.devRef .tc main_arg8) = m ((c : Thread nD τ).loc main_arg8) :=
  calc We m c (Proc.devRef .tc main_arg8)
    _ = Wd m c (Proc.devRef .tc main_arg8) := StableHlo.after_of_writes_sub hostOps2 _ hostOps2_writes (by decide)
    _ = Wc m c (Proc.devRef .tc main_arg8) := (Wd_arr m c 3).trans (((dat1 (Vc m) c).arrAt_in 3 rfl _).trans (A_eq1 (Vc m) c 3))
    _ = Wb m c (Proc.devRef .tc main_arg8) := StableHlo.after_of_writes_sub hostOps1 _ hostOps1_writes (by decide)
    _ = Wa m c (Proc.devRef .tc main_arg8) := Wb_of_ne m c main_arg8 (by decide)
    _ = W0 m c (Proc.devRef .tc main_arg8) := StableHlo.after_of_writes_sub hostOps0 _ hostOps0_writes (by decide)
    _ = m ((c : Thread nD τ).loc main_arg8) := rfl
theorem We_main_arg9 (c : Dev nD) : We m c (Proc.devRef .tc main_arg9) = m ((c : Thread nD τ).loc main_arg9) :=
  calc We m c (Proc.devRef .tc main_arg9)
    _ = Wd m c (Proc.devRef .tc main_arg9) := StableHlo.after_of_writes_sub hostOps2 _ hostOps2_writes (by decide)
    _ = Wc m c (Proc.devRef .tc main_arg9) := Wd_of_ne m c main_arg9 (by decide)
    _ = Wb m c (Proc.devRef .tc main_arg9) := StableHlo.after_of_writes_sub hostOps1 _ hostOps1_writes (by decide)
    _ = Wa m c (Proc.devRef .tc main_arg9) := Wb_of_ne m c main_arg9 (by decide)
    _ = W0 m c (Proc.devRef .tc main_arg9) := StableHlo.after_of_writes_sub hostOps0 _ hostOps0_writes (by decide)
    _ = m ((c : Thread nD τ).loc main_arg9) := rfl
theorem We_main_arg10 (c : Dev nD) : We m c (Proc.devRef .tc main_arg10) = m ((c : Thread nD τ).loc main_arg10) :=
  calc We m c (Proc.devRef .tc main_arg10)
    _ = Wd m c (Proc.devRef .tc main_arg10) := StableHlo.after_of_writes_sub hostOps2 _ hostOps2_writes (by decide)
    _ = Wc m c (Proc.devRef .tc main_arg10) := (Wd_arr m c 5).trans (((dat1 (Vc m) c).arrAt_in 5 rfl _).trans (A_eq1 (Vc m) c 5))
    _ = Wb m c (Proc.devRef .tc main_arg10) := StableHlo.after_of_writes_sub hostOps1 _ hostOps1_writes (by decide)
    _ = Wa m c (Proc.devRef .tc main_arg10) := Wb_of_ne m c main_arg10 (by decide)
    _ = W0 m c (Proc.devRef .tc main_arg10) := StableHlo.after_of_writes_sub hostOps0 _ hostOps0_writes (by decide)
    _ = m ((c : Thread nD τ).loc main_arg10) := rfl
theorem We_main_arg11 (c : Dev nD) : We m c (Proc.devRef .tc main_arg11) = m ((c : Thread nD τ).loc main_arg11) :=
  calc We m c (Proc.devRef .tc main_arg11)
    _ = Wd m c (Proc.devRef .tc main_arg11) := StableHlo.after_of_writes_sub hostOps2 _ hostOps2_writes (by decide)
    _ = Wc m c (Proc.devRef .tc main_arg11) := Wd_of_ne m c main_arg11 (by decide)
    _ = Wb m c (Proc.devRef .tc main_arg11) := StableHlo.after_of_writes_sub hostOps1 _ hostOps1_writes (by decide)
    _ = Wa m c (Proc.devRef .tc main_arg11) := Wb_of_ne m c main_arg11 (by decide)
    _ = W0 m c (Proc.devRef .tc main_arg11) := StableHlo.after_of_writes_sub hostOps0 _ hostOps0_writes (by decide)
    _ = m ((c : Thread nD τ).loc main_arg11) := rfl

/-- The frame: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (We_main_arg0 m c),
    (h c _ (mem_uc main_arg1 (by decide))).trans (We_main_arg1 m c),
    (h c _ (mem_uc main_arg2 (by decide))).trans (We_main_arg2 m c),
    (h c _ (mem_uc main_arg3 (by decide))).trans (We_main_arg3 m c),
    (h c _ (mem_uc main_arg4 (by decide))).trans (We_main_arg4 m c),
    (h c _ (mem_uc main_arg5 (by decide))).trans (We_main_arg5 m c),
    (h c _ (mem_uc main_arg6 (by decide))).trans (We_main_arg6 m c),
    (h c _ (mem_uc main_arg7 (by decide))).trans (We_main_arg7 m c),
    (h c _ (mem_uc main_arg8 (by decide))).trans (We_main_arg8 m c),
    (h c _ (mem_uc main_arg9 (by decide))).trans (We_main_arg9 m c),
    (h c _ (mem_uc main_arg10 (by decide))).trans (We_main_arg10 m c),
    (h c _ (mem_uc main_arg11 (by decide))).trans (We_main_arg11 m c)⟩) (run_main m ρ)

/-! ## The result -/

/-- The result buffer at the end: the head region's output array, reshaped. -/
theorem We_main_v7 (c : Dev nD) :
    We m c (Proc.devRef .tc main_v7) = shapeCast S2048 (Wd m c (Proc.devRef .tc main_v6)) shapeCasts_S2048x1_S2048 := by
  show StableHlo.after hostOps2 (Wd m c) (Proc.devRef .tc main_v7) = _
  after_results; rfl

/-- The reshaped biases the regions are entered with. -/
theorem Wa_main_v0 (c : Dev nD) :
    Wa m c (Proc.devRef .tc main_v0) = shapeCast S1x256 (W0 m c (Proc.devRef .tc main_arg3)) shapeCasts_S256_S1x256 := by
  show StableHlo.after hostOps0 (W0 m c) (Proc.devRef .tc main_v0) = _
  after_results; rfl
theorem Wa_main_v1 (c : Dev nD) :
    Wa m c (Proc.devRef .tc main_v1) = shapeCast S1x256 (W0 m c (Proc.devRef .tc main_arg5)) shapeCasts_S256_S1x256 := by
  show StableHlo.after hostOps0 (W0 m c) (Proc.devRef .tc main_v1) = _
  after_results; rfl
theorem Wc_main_v3 (c : Dev nD) :
    Wc m c (Proc.devRef .tc main_v3) = shapeCast S1x32 (Wb m c (Proc.devRef .tc main_arg7)) shapeCasts_S32_S1x32 := by
  show StableHlo.after hostOps1 (Wb m c) (Proc.devRef .tc main_v3) = _
  after_results; rfl
theorem Wc_main_v4 (c : Dev nD) :
    Wc m c (Proc.devRef .tc main_v4) = shapeCast S1x32 (Wb m c (Proc.devRef .tc main_arg9)) shapeCasts_S32_S1x32 := by
  show StableHlo.after hostOps1 (Wb m c) (Proc.devRef .tc main_v4) = _
  after_results; rfl
theorem Wc_main_v5 (c : Dev nD) :
    Wc m c (Proc.devRef .tc main_v5) = shapeCast S1x1 (Wb m c (Proc.devRef .tc main_arg11)) shapeCasts_S1_S1x1 := by
  show StableHlo.after hostOps1 (Wb m c) (Proc.devRef .tc main_v5) = _
  after_results; rfl

/-- The run with the result named: the result buffer at the reshaped head output, the arguments as launched. -/
theorem run_value : θ_run defs (onTc (τ := τ) (main (F := F))) ⟨m, fun _ => 0, ρ⟩ (fun r => ∀ c : Dev nD,
      r.2.mem ((c.tc : Thread nD τ).loc main_v7) = shapeCast S2048 (Wd m c (Proc.devRef .tc main_v6)) shapeCasts_S2048x1_S2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v7 (by decide))).trans (We_main_v7 m c), (h c _ (mem_uc main_arg0 (by decide))).trans (We_main_arg0 m c),
    (h c _ (mem_uc main_arg1 (by decide))).trans (We_main_arg1 m c),
    (h c _ (mem_uc main_arg2 (by decide))).trans (We_main_arg2 m c),
    (h c _ (mem_uc main_arg3 (by decide))).trans (We_main_arg3 m c),
    (h c _ (mem_uc main_arg4 (by decide))).trans (We_main_arg4 m c),
    (h c _ (mem_uc main_arg5 (by decide))).trans (We_main_arg5 m c),
    (h c _ (mem_uc main_arg6 (by decide))).trans (We_main_arg6 m c),
    (h c _ (mem_uc main_arg7 (by decide))).trans (We_main_arg7 m c),
    (h c _ (mem_uc main_arg8 (by decide))).trans (We_main_arg8 m c),
    (h c _ (mem_uc main_arg9 (by decide))).trans (We_main_arg9 m c),
    (h c _ (mem_uc main_arg10 (by decide))).trans (We_main_arg10 m c),
    (h c _ (mem_uc main_arg11 (by decide))).trans (We_main_arg11 m c)⟩) (run_main m ρ)

end Cert.KernelIdeal.Fr

end
-- ==== Proof.Spec.lean ====
/-
  The network that both programs compute, written once as a function of the twelve argument arrays, element by
  element on the extended reals.

  Two feature transformers, one per side of the board: row `r` of the white (black) features is contracted with
  row `h` of the 256 × 40960 weight matrix, the bias is added, and the result is clipped below at zero. The two
  256-wide activations are laid side by side into a 512-wide row. Three dense layers follow (512 → 32 → 32 → 1), the
  first two clipped below at zero, the last one passed through the hyperbolic tangent. Nothing here depends on how a
  program tiles or orders the sums: every sum is a sum over a whole axis.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `a` rows and `b` columns, indexed as the programs index their arrays. -/
abbrev Mat (a b : Nat) : Type := (⟨2, ![a, b]⟩ : Shape).Idx → EReal
/-- A vector of extended reals of length `a`. -/
abbrev Row (a : Nat) : Type := (⟨1, ![a]⟩ : Shape).Idx → EReal

/-- One feature transformer at batch row `r` and hidden unit `h`: the contraction of the feature row with the
    weight row over all 40960 features, plus the bias, clipped below at zero. -/
def feat (X : Mat 2048 40960) (W : Mat 256 40960) (b : Row 256) (r : Fin 2048) (h : Fin 256) : EReal :=
  max ((∑ g : Fin 40960, X (ix2 r g) * W (ix2 h g)) + b (ix1 h)) 0

/-- The two transformers' activations side by side: columns 0 … 255 are the white side's, 256 … 511 the black side's. -/
def cat (X1 X2 : Mat 2048 40960) (Wfw : Mat 256 40960) (bfw : Row 256) (Wfb : Mat 256 40960) (bfb : Row 256)
    (r : Fin 2048) (f : Fin 512) : EReal :=
  if h : f.val < 256 then feat X1 Wfw bfw r ⟨f.val, h⟩
  else feat X2 Wfb bfb r ⟨f.val - 256, by have := f.isLt; omega⟩

/-- The first dense layer at row `r`, unit `i`. -/
def dense1 (x : Fin 2048 → Fin 512 → EReal) (W1 : Mat 32 512) (b1 : Row 32) (r : Fin 2048) (i : Fin 32) : EReal :=
  max ((∑ f : Fin 512, x r f * W1 (ix2 i f)) + b1 (ix1 i)) 0

/-- The second dense layer at row `r`, unit `j`. -/
def dense2 (y : Fin 2048 → Fin 32 → EReal) (W2 : Mat 32 32) (b2 : Row 32) (r : Fin 2048) (j : Fin 32) : EReal :=
  max ((∑ i : Fin 32, y r i * W2 (ix2 j i)) + b2 (ix1 j)) 0

/-- The output layer at row `r`: one unit, through the hyperbolic tangent. -/
def dense3 (z : Fin 2048 → Fin 32 → EReal) (W3 : Mat 1 32) (b3 : Row 1) (r : Fin 2048) : EReal :=
  Ideal.tanh ((∑ j : Fin 32, z r j * W3 (ix2 0 j)) + b3 (ix1 0))

/-- The whole network: the value of result element `r` from the twelve arguments. -/
def net (X1 X2 : Mat 2048 40960) (Wfw : Mat 256 40960) (bfw : Row 256) (Wfb : Mat 256 40960) (bfb : Row 256)
    (W1 : Mat 32 512) (b1 : Row 32) (W2 : Mat 32 32) (b2 : Row 32) (W3 : Mat 1 32) (b3 : Row 1) : Row 2048 :=
  fun y => dense3 (dense2 (dense1 (cat X1 X2 Wfw bfw Wfb bfb) W1 b1) W2 b2) W3 b3 (y 0)

end Cert.Spec

end
-- ==== Proof.Payloads.lean ====
/-
  The arithmetic of the two kernel bodies, read at one element on the extended reals.

  The feature-transform body fills its two accumulators with zero, adds to each the product of a block of 512
  features with the matching block of the weight matrix (the weight block is transposed first, so the product at
  row `r` and hidden unit `h` is the contraction of feature row `r` with weight row `h`), and at the last block adds
  the bias and clips below at zero. The dense head is three such products with transposed weights, each followed by a
  bias row added to every batch row; the first two are clipped below at zero and the last goes through the hyperbolic
  tangent. On the extended reals the narrowing format changes are the identity, a product accumulated into a zero
  splat is the plain sum of products, and `0 + x = x`; no finiteness is needed.

  Last, two laws of sums in a commutative monoid: a sum over 40960 features is the sum over 80 blocks of the sums
  over the 512 features of each block, and the accumulator after blocks `0 … n` is the sum of those blocks' products.
-/
import proofs.«103038_j39840116637857_1_alg».proof.Proof.Gen.KernelIdeal.Skeleton
import proofs.«103038_j39840116637857_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## A product with a transposed right operand, into a zero accumulator -/

/-- An `m × k` matrix times the transpose of an `n × k` matrix, accumulated into a zero splat, reads at `(r, c)` the
    contraction of row `r` of the first with row `c` of the second. -/
theorem matmulT_apply {m k n : ℕ} {φ₁ φ₂ : FTy} (prec : Option ContractPrecision)
    (x : FVec Ideal ⟨2, ![m, k]⟩ φ₁) (w : FVec Ideal ⟨2, ![n, k]⟩ φ₂)
    (h : (⟨2, ![n, k]⟩ : Shape).Transposes [1, 0] ⟨2, ![k, n]⟩) (r : Fin m) (c : Fin n) :
    matmul (DotDims.plain m k n) prec x (transpose ⟨2, ![k, n]⟩ [1, 0] w h) (constant ⟨2, ![m, n]⟩ .f32 0x00000000#32) (ix2 r c)
      = ∑ l : Fin k, x (ix2 r l) * w (ix2 c l) := by
  rw [matmul_zero_eq_dotGeneral, StackMember.dotGeneral_plain_apply]
  refine Finset.sum_congr rfl fun l _ => ?_
  rw [transpose_ix2_apply]

/-- The zero word of the 32-bit format denotes zero. -/
theorem zero_word : (Scalar.ofBits .f32 0x00000000#32 : Ideal .f32) = 0 := Ideal.ofBits_zero_f32

/-! ## The feature-transform body -/

/-- The first accumulator's fill is zero everywhere. -/
theorem pay1_apply (y : S1024x256.Idx) : k0_pay1 (F := Ideal) y = 0 := by
  unfold k0_pay1
  rw [shapeCast_self]
  exact zero_word

/-- The second accumulator's fill is zero everywhere. -/
theorem pay2_apply (y : S1024x256.Idx) : k0_pay2 (F := Ideal) y = 0 := by
  unfold k0_pay2
  rw [shapeCast_self]
  exact zero_word

/-- One accumulate step of the first side: the accumulator plus the contraction of feature row `r` with weight row `h`
    over the block's 512 features. -/
theorem pay3_apply (v3 : Vec Ideal S1024x512 .f32) (v7 : Vec Ideal S256x512 .f32) (v11 : Vec Ideal S1024x256 .f32) (r : Fin 1024) (h : Fin 256) :
    k0_pay3 (F := Ideal) v3 v7 v11 (ix2 r h) = v11 (ix2 r h) + ∑ l : Fin 512, v3 (ix2 r l) * v7 (ix2 h l) := by
  unfold k0_pay3
  rw [shapeCast_self]
  refine congrArg (v11 (ix2 r h) + ·) ?_
  exact matmulT_apply none (truncf .bf16 v3 bitsLt_bf16_f32) (truncf .bf16 v7 bitsLt_bf16_f32) transposes_S256x512_p1_0_S512x256 r h

/-- One accumulate step of the second side: the same function of its own blocks and accumulator. -/
theorem pay4_apply (v5 : Vec Ideal S1024x512 .f32) (v9 : Vec Ideal S256x512 .f32) (v18 : Vec Ideal S1024x256 .f32) (r : Fin 1024) (h : Fin 256) :
    k0_pay4 (F := Ideal) v5 v9 v18 (ix2 r h) = v18 (ix2 r h) + ∑ l : Fin 512, v5 (ix2 r l) * v9 (ix2 h l) := by
  unfold k0_pay4
  rw [shapeCast_self]
  refine congrArg (v18 (ix2 r h) + ·) ?_
  exact matmulT_apply none (truncf .bf16 v5 bitsLt_bf16_f32) (truncf .bf16 v9 bitsLt_bf16_f32) transposes_S256x512_p1_0_S512x256 r h

/-- The two sides' accumulate steps are one function. -/
theorem pay4_eq_pay3 : @k0_pay4 Ideal _ = @k0_pay3 Ideal _ := rfl

/-- The two accumulators' fills are one array. -/
theorem pay2_eq_pay1 : @k0_pay2 Ideal _ = @k0_pay1 Ideal _ := rfl

/-- The first side's last step: the bias of hidden unit `h` added to the accumulator, clipped below at zero. -/
theorem pay5_apply (v28 : Vec Ideal S1024x256 .f32) (v29 : Vec Ideal S1x256 .f32) (r : Fin 1024) (h : Fin 256) :
    k0_pay5 (F := Ideal) v28 v29 (ix2 r h) = max (v28 (ix2 r h) + v29 (ix2 0 h)) 0 := by
  unfold k0_pay5
  rw [shapeCast_self]
  show max (v28 (ix2 r h) + broadcastTo S1024x256 v29 broadcasts_S1x256_S1024x256 (ix2 r h)) (Scalar.ofBits .f32 0x00000000#32 : Ideal .f32) = _
  rw [broadcastTo_1b_ab_apply, zero_word]

/-- The second side's last step: the same function of its own accumulator and bias. -/
theorem pay6_apply (v35 : Vec Ideal S1024x256 .f32) (v36 : Vec Ideal S1x256 .f32) (r : Fin 1024) (h : Fin 256) :
    k0_pay6 (F := Ideal) v35 v36 (ix2 r h) = max (v35 (ix2 r h) + v36 (ix2 0 h)) 0 := by
  unfold k0_pay6
  rw [shapeCast_self]
  show max (v35 (ix2 r h) + broadcastTo S1024x256 v36 broadcasts_S1x256_S1024x256 (ix2 r h)) (Scalar.ofBits .f32 0x00000000#32 : Ideal .f32) = _
  rw [broadcastTo_1b_ab_apply, zero_word]

/-! ## Sums over blocks -/

/-- A sum over 40960 features is the sum over 80 blocks of the sums over the 512 features of each block. -/
theorem sum_blocks (φ : Fin 40960 → EReal) :
    ∑ g : Fin 40960, φ g = ∑ k ∈ Finset.range 80, ∑ l : Fin 512, φ ⟨(512 * k + l.val) % 40960, Nat.mod_lt _ (by norm_num)⟩ := by
  rw [← Fin.sum_univ_eq_sum_range (fun k => ∑ l : Fin 512, φ ⟨(512 * k + l.val) % 40960, Nat.mod_lt _ (by norm_num)⟩) 80]
  rw [← Finset.sum_product']
  refine (Fintype.sum_equiv (finProdFinEquiv (m := 80) (n := 512)) _ _ fun p => ?_).symm
  refine congrArg φ (Fin.ext ?_)
  have h1 := p.1.isLt
  have h2 := p.2.isLt
  show (512 * p.1.val + p.2.val) % 40960 = p.2.val + 512 * p.1.val
  rw [Nat.mod_eq_of_lt (by omega)]
  omega

/-- The accumulator after blocks `0 … n` of one batch tile: the zero fill, then one accumulate step per block. -/
def acc (xs : ℕ → Vec Ideal S1024x512 .f32) (ws : ℕ → Vec Ideal S256x512 .f32) : ℕ → Vec Ideal S1024x256 .f32
  | 0 => k0_pay3 (F := Ideal) (xs 0) (ws 0) (k0_pay1 (F := Ideal))
  | n + 1 => k0_pay3 (F := Ideal) (xs (n + 1)) (ws (n + 1)) (acc xs ws n)

/-- That accumulator at `(r, h)` is the sum, over the blocks so far, of the contractions of feature row `r` with weight
    row `h` over each block. -/
theorem acc_apply (xs : ℕ → Vec Ideal S1024x512 .f32) (ws : ℕ → Vec Ideal S256x512 .f32) (n : ℕ) (r : Fin 1024) (h : Fin 256) :
    acc xs ws n (ix2 r h) = ∑ k ∈ Finset.range (n + 1), ∑ l : Fin 512, xs k (ix2 r l) * ws k (ix2 h l) := by
  induction n with
  | zero =>
    show k0_pay3 (F := Ideal) (xs 0) (ws 0) (k0_pay1 (F := Ideal)) (ix2 r h) = _
    rw [pay3_apply, pay1_apply, zero_add, Finset.sum_range_one]
  | succ n ih =>
    show k0_pay3 (F := Ideal) (xs (n + 1)) (ws (n + 1)) (acc xs ws n) (ix2 r h) = _
    rw [pay3_apply, ih, Finset.sum_range_succ _ (n + 1)]

/-! ## The dense head -/

/-- A dense layer before its activation: the product with the transposed weights into a zero splat, plus the bias row
    laid over every batch row, reads at `(r, c)` the contraction of row `r` with weight row `c`, plus bias `c`. -/
theorem layer_apply (m k n : ℕ) {φ₁ φ₂ : FTy} (prec : Option ContractPrecision)
    (x : FVec Ideal ⟨2, ![m, k]⟩ φ₁) (w : FVec Ideal ⟨2, ![n, k]⟩ φ₂) (b : FVec Ideal ⟨2, ![1, n]⟩ .f32)
    (hT : (⟨2, ![n, k]⟩ : Shape).Transposes [1, 0] ⟨2, ![k, n]⟩) (hB : (⟨2, ![1, n]⟩ : Shape).Broadcasts ⟨2, ![m, n]⟩)
    (r : Fin m) (c : Fin n) :
    addf (matmul (DotDims.plain m k n) prec x (transpose ⟨2, ![k, n]⟩ [1, 0] w hT) (constant ⟨2, ![m, n]⟩ .f32 0x00000000#32))
        (broadcastTo ⟨2, ![m, n]⟩ b hB) (ix2 r c)
      = (∑ l : Fin k, x (ix2 r l) * w (ix2 c l)) + b (ix2 0 c) := by
  rw [addf_apply, matmulT_apply, broadcastTo_1b_ab_apply]

/-- A dense layer clipped below at zero. -/
theorem relu_layer_apply (m k n : ℕ) {φ₁ φ₂ : FTy} (prec : Option ContractPrecision)
    (x : FVec Ideal ⟨2, ![m, k]⟩ φ₁) (w : FVec Ideal ⟨2, ![n, k]⟩ φ₂) (b : FVec Ideal ⟨2, ![1, n]⟩ .f32)
    (hT : (⟨2, ![n, k]⟩ : Shape).Transposes [1, 0] ⟨2, ![k, n]⟩) (hB : (⟨2, ![1, n]⟩ : Shape).Broadcasts ⟨2, ![m, n]⟩)
    (r : Fin m) (c : Fin n) :
    maximumf (addf (matmul (DotDims.plain m k n) prec x (transpose ⟨2, ![k, n]⟩ [1, 0] w hT) (constant ⟨2, ![m, n]⟩ .f32 0x00000000#32))
        (broadcastTo ⟨2, ![m, n]⟩ b hB)) (broadcast ⟨2, ![m, n]⟩ (Scalar.ofBits .f32 0x00000000#32 : Ideal .f32)) (ix2 r c)
      = max ((∑ l : Fin k, x (ix2 r l) * w (ix2 c l)) + b (ix2 0 c)) 0 := by
  rw [maximumf_apply, layer_apply, broadcast_apply, zero_word]

/-- A dense layer through the hyperbolic tangent. -/
theorem tanh_layer_apply (m k n : ℕ) {φ₁ φ₂ : FTy} (prec : Option ContractPrecision)
    (x : FVec Ideal ⟨2, ![m, k]⟩ φ₁) (w : FVec Ideal ⟨2, ![n, k]⟩ φ₂) (b : FVec Ideal ⟨2, ![1, n]⟩ .f32)
    (hT : (⟨2, ![n, k]⟩ : Shape).Transposes [1, 0] ⟨2, ![k, n]⟩) (hB : (⟨2, ![1, n]⟩ : Shape).Broadcasts ⟨2, ![m, n]⟩)
    (r : Fin m) (c : Fin n) :
    tanh (addf (matmul (DotDims.plain m k n) prec x (transpose ⟨2, ![k, n]⟩ [1, 0] w hT) (constant ⟨2, ![m, n]⟩ .f32 0x00000000#32))
        (broadcastTo ⟨2, ![m, n]⟩ b hB)) (ix2 r c)
      = Ideal.tanh ((∑ l : Fin k, x (ix2 r l) * w (ix2 c l)) + b (ix2 0 c)) := by
  exact congrArg Ideal.tanh (layer_apply m k n prec x w b hT hB r c)

/-- The dense head at batch row `r`, in the specification's words: its three layers are the specification's, the
    biases read from their one-row matrices. -/
theorem mlp_apply (x : Vec Ideal S2048x512 .f32) (w1 : Vec Ideal S32x512 .f32) (b1 : Vec Ideal S1x32 .f32) (w2 : Vec Ideal S32x32 .f32)
    (b2 : Vec Ideal S1x32 .f32) (w3 : Vec Ideal S1x32 .f32) (b3 : Vec Ideal S1x1 .f32) (r : Fin 2048) :
    k1_pay1 (F := Ideal) x w1 b1 w2 b2 w3 b3 (ix2 r 0)
      = Cert.Spec.dense3 (Cert.Spec.dense2 (Cert.Spec.dense1 (fun r f => x (ix2 r f)) w1 (fun j => b1 (ix2 0 (j 0)))) w2 (fun j => b2 (ix2 0 (j 0)))) w3 (fun _ => b3 (ix2 0 0)) r := by
  unfold k1_pay1
  simp only [shapeCast_self]
  refine (tanh_layer_apply 2048 32 1 none _ _ b3 transposes_S1x32_p1_0_S32x1 broadcasts_S1x1_S2048x1 r 0).trans ?_
  unfold Cert.Spec.dense3
  refine congrArg Ideal.tanh (congrArg (· + b3 (ix2 0 0)) (Finset.sum_congr rfl fun j _ => congrArg (· * w3 (ix2 0 j)) ?_))
  refine (relu_layer_apply 2048 32 32 none _ _ b2 transposes_S32x32_p1_0_S32x32 broadcasts_S1x32_S2048x32 r j).trans ?_
  unfold Cert.Spec.dense2
  refine congrArg (max · 0) (congrArg (· + b2 (ix2 0 j)) (Finset.sum_congr rfl fun i _ => congrArg (· * w2 (ix2 j i)) ?_))
  refine (relu_layer_apply 2048 512 32 none _ _ b1 transposes_S32x512_p1_0_S512x32 broadcasts_S1x32_S2048x32 r i).trans ?_
  rfl

end Cert.KernelIdeal.Pay

end
-- ==== Proof.KI.Value0.lean ====
/-
  The feature-transform region's values. First, for any float instance: what each kind of grid point leaves in the
  two accumulators and, at the last point of a batch tile, in the tile's output block, written as the body's own
  arithmetic applied to the blocks the point sees. Then, on the extended reals: after point `t` each accumulator is the
  sum, over the blocks of `t`'s batch tile up to `t`, of the block products, and the output block a tile's last point
  writes back holds, side by side, the two biased sums over all 80 blocks clipped below at zero.
-/
import proofs.«103038_j39840116637857_1_alg».proof.Proof.KI.Region0
import proofs.«103038_j39840116637857_1_alg».proof.Proof.Payloads
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

section AnyInstance
variable (V : (c : Dev nD) → (b : Ref sig .tc) → Buf (Elt F) ((c : Thread nD τ).loc b))

/-! ## The input blocks, typed -/

/-- The white feature block at point `t`. -/
abbrev blk0 (c : Dev nD) (t : Fin cfg0.N) : Vec F S1024x512 .f32 := iblk0 V c 0 t
/-- The black feature block at point `t`. -/
abbrev blk1 (c : Dev nD) (t : Fin cfg0.N) : Vec F S1024x512 .f32 := iblk0 V c 1 t
/-- The white weight block at point `t`. -/
abbrev blk2 (c : Dev nD) (t : Fin cfg0.N) : Vec F S256x512 .f32 := iblk0 V c 2 t
/-- The black weight block at point `t`. -/
abbrev blk3 (c : Dev nD) (t : Fin cfg0.N) : Vec F S256x512 .f32 := iblk0 V c 3 t
/-- The white bias row at point `t`. -/
abbrev blk4 (c : Dev nD) (t : Fin cfg0.N) : Vec F S1x256 .f32 := iblk0 V c 4 t
/-- The black bias row at point `t`. -/
abbrev blk5 (c : Dev nD) (t : Fin cfg0.N) : Vec F S1x256 .f32 := iblk0 V c 5 t

/-! ## What each run leaves, as the body's arithmetic on the point's blocks -/

/-- The zero offset of a rank-2 rectangle. -/
theorem hz : (![0, 0] : Fin 2 → Nat) = fun _ => 0 := funext fun a => by fin_cases a <;> rfl

/-- First point of a tile, white side: the zero fill, then the block's products added. -/
theorem soutA_0_eq (c : Dev nD) (t : Fin cfg0.N) (h0 : cond0_0 (grid0.coords t)) (h1 : ¬cond0_1 (grid0.coords t)) :
    soutA_0 V c t h0 h1 = k0_pay3 (blk0 V c t) (blk2 V c t) (k0_pay1 (F := F)) := by
  unfold soutA_0
  rw [View.read_writes_eq_canon _ _ _ (scoverA_0 V c t h0 h1)]
  unfold runA kernelRun0_A
  dsimp only
  sl_unfold_words
  rw [View.canon_cons_unit_zero (S := S1024x256) hz, View.readCov_unit_zero (S := S1024x256) _ hz]
  simp only [View.readAt_eq_ld, (hs0_0 t).read_unread, (hs0_2 t).read_unread, View.ld_unit_zero (S := S1024x512) hz, View.ld_unit_zero (S := S256x512) hz]

/-- First point of a tile, black side. -/
theorem soutA_1_eq (c : Dev nD) (t : Fin cfg0.N) (h0 : cond0_0 (grid0.coords t)) (h1 : ¬cond0_1 (grid0.coords t)) :
    soutA_1 V c t h0 h1 = k0_pay4 (blk1 V c t) (blk3 V c t) (k0_pay2 (F := F)) := by
  unfold soutA_1
  rw [View.read_writes_eq_canon _ _ _ (scoverA_1 V c t h0 h1)]
  unfold runA kernelRun0_A
  dsimp only
  sl_unfold_words
  rw [View.canon_cons_unit_zero (S := S1024x256) hz, View.readCov_unit_zero (S := S1024x256) _ hz]
  simp only [View.readAt_eq_ld, (hs0_1 t).read_unread, (hs0_3 t).read_unread, View.ld_unit_zero (S := S1024x512) hz, View.ld_unit_zero (S := S256x512) hz]

/-- A middle point, white side: the block's products added to what the point before left. -/
theorem soutB_0_eq (c : Dev nD) (t : Fin cfg0.N) (h0 : ¬cond0_0 (grid0.coords t)) (h1 : ¬cond0_1 (grid0.coords t)) (xs0 xs1 : Vec F S1024x256 .f32) :
    soutB_0 V c t h0 h1 xs0 xs1 = k0_pay3 (blk0 V c t) (blk2 V c t) xs0 := by
  unfold soutB_0
  rw [View.read_writes_eq_canon _ _ _ (scoverB_0 V c t h0 h1 xs0 xs1)]
  unfold runB kernelRun0_B
  dsimp only
  sl_unfold_words
  rw [View.canon_unit_zero (S := S1024x256) hz]
  simp only [View.readAt_eq_ld, (hs0_0 t).read_unread, (hs0_2 t).read_unread, (Memref.isWhole_whole cc0_scratch0).read_unread, View.ld_unit_zero (S := S1024x512) hz, View.ld_unit_zero (S := S256x512) hz, View.ld_unit_zero (S := S1024x256) hz]

/-- A middle point, black side. -/
theorem soutB_1_eq (c : Dev nD) (t : Fin cfg0.N) (h0 : ¬cond0_0 (grid0.coords t)) (h1 : ¬cond0_1 (grid0.coords t)) (xs0 xs1 : Vec F S1024x256 .f32) :
    soutB_1 V c t h0 h1 xs0 xs1 = k0_pay4 (blk1 V c t) (blk3 V c t) xs1 := by
  unfold soutB_1
  rw [View.read_writes_eq_canon _ _ _ (scoverB_1 V c t h0 h1 xs0 xs1)]
  unfold runB kernelRun0_B
  dsimp only
  sl_unfold_words
  rw [View.canon_unit_zero (S := S1024x256) hz]
  simp only [View.readAt_eq_ld, (hs0_1 t).read_unread, (hs0_3 t).read_unread, (Memref.isWhole_whole cc0_scratch1).read_unread, View.ld_unit_zero (S := S1024x512) hz, View.ld_unit_zero (S := S256x512) hz, View.ld_unit_zero (S := S1024x256) hz]

/-- The last point of a tile, white side: the same step as at a middle point. -/
theorem soutC_0_eq (c : Dev nD) (t : Fin cfg0.N) (h0 : ¬cond0_0 (grid0.coords t)) (h1 : cond0_1 (grid0.coords t)) (xs0 xs1 : Vec F S1024x256 .f32) :
    soutC_0 V c t h0 h1 xs0 xs1 = k0_pay3 (blk0 V c t) (blk2 V c t) xs0 := by
  unfold soutC_0
  rw [View.read_writes_eq_canon _ _ _ (scoverC_0 V c t h0 h1 xs0 xs1)]
  unfold runC kernelRun0_C
  dsimp only
  sl_unfold_words
  rw [View.canon_unit_zero (S := S1024x256) hz]
  simp only [View.readAt_eq_ld, (hs0_0 t).read_unread, (hs0_2 t).read_unread, (Memref.isWhole_whole cc0_scratch0).read_unread, View.ld_unit_zero (S := S1024x512) hz, View.ld_unit_zero (S := S256x512) hz, View.ld_unit_zero (S := S1024x256) hz]

/-- The last point of a tile, black side. -/
theorem soutC_1_eq (c : Dev nD) (t : Fin cfg0.N) (h0 : ¬cond0_0 (grid0.coords t)) (h1 : cond0_1 (grid0.coords t)) (xs0 xs1 : Vec F S1024x256 .f32) :
    soutC_1 V c t h0 h1 xs0 xs1 = k0_pay4 (blk1 V c t) (blk3 V c t) xs1 := by
  unfold soutC_1
  rw [View.read_writes_eq_canon _ _ _ (scoverC_1 V c t h0 h1 xs0 xs1)]
  unfold runC kernelRun0_C
  dsimp only
  sl_unfold_words
  rw [View.canon_unit_zero (S := S1024x256) hz]
  simp only [View.readAt_eq_ld, (hs0_1 t).read_unread, (hs0_3 t).read_unread, (Memref.isWhole_whole cc0_scratch1).read_unread, View.ld_unit_zero (S := S1024x512) hz, View.ld_unit_zero (S := S256x512) hz, View.ld_unit_zero (S := S1024x256) hz]

/-! ### The output block's two column rectangles -/

/-- An index in the left half of the output block is not in the right-hand rectangle … -/
theorem not_mem_right (r : Fin 1024) (f : Fin 512) (hf : f.val < 256) :
    ix2 r f ∉ (Rect.unit (s := S1024x512) ![0, 256] ![1024, 256] inb_S1024x512_S1024x256_0_256).set := by
  intro hm
  have h := (Rect.mem_set_unit (s := S1024x512) (off := ![0, 256]) (size := ![1024, 256]) (i := ix2 r f)).mp hm 1
  exact absurd (show 256 ≤ f.val from h.1) (Nat.not_le.mpr hf)

/-- … it is the left-hand rectangle's own index with the same coordinates … -/
theorem eq_emb_left (r : Fin 1024) (f : Fin 512) (hf : f.val < 256) :
    ix2 r f = (Rect.unit (s := S1024x512) ![0, 0] ![1024, 256] inb_S1024x512_S1024x256_0_0).emb (ix2 r ⟨f.val, hf⟩) := by
  funext a; apply Fin.ext
  match a with
  | ⟨0, _⟩ => show r.val = 0 + 1 * r.val; omega
  | ⟨1, _⟩ => show f.val = 0 + 1 * f.val; omega

/-- … and an index in the right half is the right-hand rectangle's own index 256 columns to the left. -/
theorem eq_emb_right (r : Fin 1024) (f : Fin 512) (hf : ¬f.val < 256) :
    ix2 r f = (Rect.unit (s := S1024x512) ![0, 256] ![1024, 256] inb_S1024x512_S1024x256_0_256).emb (ix2 r ⟨f.val - 256, by have := f.isLt; omega⟩) := by
  funext a; apply Fin.ext
  match a with
  | ⟨0, _⟩ => show r.val = 0 + 1 * r.val; omega
  | ⟨1, _⟩ => show f.val = 256 + 1 * (f.val - 256); omega

/-- Two stores, the later one first: an index off the later store's rectangle and inside the earlier one's reads the
    earlier store's payload. -/
theorem canon_pair_second {S : Shape} {e : EltTy} (r₁ r₂ : Rect S) (w₁ : r₁.shape.Idx → Elt F e) (w₂ : r₂.shape.Idx → Elt F e)
    (y : S.Idx) (x : r₂.shape.Idx) (hnot : y ∉ r₁.set) (hy : y = r₂.emb x) :
    View.canon (Val := Elt F) [⟨r₁, w₁⟩, ⟨r₂, w₂⟩] y = w₂ x := by
  rw [View.canon_cons_of_not_mem (⟨r₁, w₁⟩ : View.Piece (Elt F) S e) _ hnot, hy, View.canon_cons_emb]

/-- The output block at a tile's last point, left half: the bias added to the white accumulator (as this point's
    step leaves it), clipped below at zero. -/
theorem outC_6_lo (c : Dev nD) (t : Fin cfg0.N) (h0 : ¬cond0_0 (grid0.coords t)) (h1 : cond0_1 (grid0.coords t)) (xs0 xs1 : Vec F S1024x256 .f32)
    (r : Fin 1024) (f : Fin 512) (hf : f.val < 256) :
    outC_6 V c t h0 h1 xs0 xs1 (ix2 r f) = k0_pay5 (k0_pay3 (blk0 V c t) (blk2 V c t) xs0) (blk4 V c t) (ix2 r ⟨f.val, hf⟩) := by
  unfold outC_6
  rw [View.read_writes_eq_canon _ _ _ (coverC_6 V c t h0 h1 xs0 xs1)]
  unfold runC kernelRun0_C
  dsimp only
  sl_unfold_words
  refine (canon_pair_second _ _ _ _ (ix2 r f) (ix2 r ⟨f.val, hf⟩) (not_mem_right r f hf) (eq_emb_left r f hf)).trans ?_
  rw [View.readCov_unit_zero (S := S1024x256) _ hz]
  simp only [View.readAt_eq_ld, (hs0_0 t).read_unread, (hs0_2 t).read_unread, (hs0_4 t).read_unread, (Memref.isWhole_whole cc0_scratch0).read_unread, View.ld_unit_zero (S := S1024x512) hz, View.ld_unit_zero (S := S256x512) hz, View.ld_unit_zero (S := S1024x256) hz, View.ld_unit_zero (S := S1x256) hz]

/-- The output block at a tile's last point, right half: the same of the black accumulator. -/
theorem outC_6_hi (c : Dev nD) (t : Fin cfg0.N) (h0 : ¬cond0_0 (grid0.coords t)) (h1 : cond0_1 (grid0.coords t)) (xs0 xs1 : Vec F S1024x256 .f32)
    (r : Fin 1024) (f : Fin 512) (hf : ¬f.val < 256) :
    outC_6 V c t h0 h1 xs0 xs1 (ix2 r f) = k0_pay6 (k0_pay4 (blk1 V c t) (blk3 V c t) xs1) (blk5 V c t) (ix2 r ⟨f.val - 256, by have := f.isLt; omega⟩) := by
  unfold outC_6
  rw [View.read_writes_eq_canon _ _ _ (coverC_6 V c t h0 h1 xs0 xs1)]
  unfold runC kernelRun0_C
  dsimp only
  sl_unfold_words
  rw [eq_emb_right r f hf, View.canon_cons_emb, View.readCov_unit_zero (S := S1024x256) _ hz]
  simp only [View.readAt_eq_ld, (hs0_1 t).read_unread, (hs0_3 t).read_unread, (hs0_5 t).read_unread, (Memref.isWhole_whole cc0_scratch1).read_unread, View.ld_unit_zero (S := S1024x512) hz, View.ld_unit_zero (S := S256x512) hz, View.ld_unit_zero (S := S1024x256) hz, View.ld_unit_zero (S := S1x256) hz]

/-! ### The state after a point, component by component -/

/-- After the first point of a tile the white accumulator is the zero fill plus the point's block product … -/
theorem stepA_W (c : Dev nD) (t : Fin cfg0.N) (h0 : t.val % 80 = 0) :
    (outsAt0 V c t.val t.isLt).2.1 = k0_pay3 (blk0 V c t) (blk2 V c t) (k0_pay1 (F := F)) := by
  have hc0 : cond0_0 (grid0.coords t) := (hcond0_0 t).mpr h0
  have hc1 : ¬cond0_1 (grid0.coords t) := fun h => by have := (hcond0_1 t).mp h; omega
  rw [outsAt0_A V c t h0]
  dsimp only
  exact soutA_0_eq V c t hc0 hc1

/-- … and the black accumulator likewise. -/
theorem stepA_B (c : Dev nD) (t : Fin cfg0.N) (h0 : t.val % 80 = 0) :
    (outsAt0 V c t.val t.isLt).2.2 = k0_pay4 (blk1 V c t) (blk3 V c t) (k0_pay2 (F := F)) := by
  have hc0 : cond0_0 (grid0.coords t) := (hcond0_0 t).mpr h0
  have hc1 : ¬cond0_1 (grid0.coords t) := fun h => by have := (hcond0_1 t).mp h; omega
  rw [outsAt0_A V c t h0]
  dsimp only
  exact soutA_1_eq V c t hc0 hc1

/-- After any later point of a tile the white accumulator is the point's block product added to what the point
    before left … -/
theorem stepN_W (c : Dev nD) (t : Fin cfg0.N) (h0 : ¬t.val % 80 = 0) :
    (outsAt0 V c t.val t.isLt).2.1 = k0_pay3 (blk0 V c t) (blk2 V c t) (prevAt V c t).2.1 := by
  have hc0 : ¬cond0_0 (grid0.coords t) := fun h => h0 ((hcond0_0 t).mp h)
  by_cases h1 : t.val % 80 = 79
  · have hc1 : cond0_1 (grid0.coords t) := (hcond0_1 t).mpr h1
    rw [outsAt0_C V c t h0 h1]
    dsimp only
    exact soutC_0_eq V c t hc0 hc1 _ _
  · have hc1 : ¬cond0_1 (grid0.coords t) := fun h => h1 ((hcond0_1 t).mp h)
    rw [outsAt0_B V c t h0 h1]
    dsimp only
    exact soutB_0_eq V c t hc0 hc1 _ _

/-- … and the black accumulator likewise. -/
theorem stepN_B (c : Dev nD) (t : Fin cfg0.N) (h0 : ¬t.val % 80 = 0) :
    (outsAt0 V c t.val t.isLt).2.2 = k0_pay4 (blk1 V c t) (blk3 V c t) (prevAt V c t).2.2 := by
  have hc0 : ¬cond0_0 (grid0.coords t) := fun h => h0 ((hcond0_0 t).mp h)
  by_cases h1 : t.val % 80 = 79
  · have hc1 : cond0_1 (grid0.coords t) := (hcond0_1 t).mpr h1
    rw [outsAt0_C V c t h0 h1]
    dsimp only
    exact soutC_1_eq V c t hc0 hc1 _ _
  · have hc1 : ¬cond0_1 (grid0.coords t) := fun h => h1 ((hcond0_1 t).mp h)
    rw [outsAt0_B V c t h0 h1]
    dsimp only
    exact soutB_1_eq V c t hc0 hc1 _ _

/-- At a tile's last point the output block's left half is the biased, clipped white accumulator of that point … -/
theorem stepC_lo (c : Dev nD) (t : Fin cfg0.N) (h1 : t.val % 80 = 79) (r : Fin 1024) (f : Fin 512) (hf : f.val < 256) :
    (outsAt0 V c t.val t.isLt).1 (ix2 r f) = k0_pay5 (outsAt0 V c t.val t.isLt).2.1 (blk4 V c t) (ix2 r ⟨f.val, hf⟩) := by
  have h0 : ¬t.val % 80 = 0 := by omega
  have hc0 : ¬cond0_0 (grid0.coords t) := fun h => h0 ((hcond0_0 t).mp h)
  have hc1 : cond0_1 (grid0.coords t) := (hcond0_1 t).mpr h1
  rw [stepN_W V c t h0, outsAt0_C V c t h0 h1]
  dsimp only
  exact outC_6_lo V c t hc0 hc1 _ _ r f hf

/-- … and its right half the biased, clipped black accumulator. -/
theorem stepC_hi (c : Dev nD) (t : Fin cfg0.N) (h1 : t.val % 80 = 79) (r : Fin 1024) (f : Fin 512) (hf : ¬f.val < 256) :
    (outsAt0 V c t.val t.isLt).1 (ix2 r f)
      = k0_pay6 (outsAt0 V c t.val t.isLt).2.2 (blk5 V c t) (ix2 r ⟨f.val - 256, by have := f.isLt; omega⟩) := by
  have h0 : ¬t.val % 80 = 0 := by omega
  have hc0 : ¬cond0_0 (grid0.coords t) := fun h => h0 ((hcond0_0 t).mp h)
  have hc1 : cond0_1 (grid0.coords t) := (hcond0_1 t).mpr h1
  rw [stepN_B V c t h0, outsAt0_C V c t h0 h1]
  dsimp only
  exact outC_6_hi V c t hc0 hc1 _ _ r f hf

end AnyInstance

/-! ## On the extended reals: the accumulators are sums over the tile's blocks -/

/-- Block `j` of the batch tile that point `t` belongs to. -/
def tileIdx (t : Fin cfg0.N) (j : ℕ) : Fin cfg0.N := ⟨80 * (t.val / 80) + j % 80, by have := N0; have := t.isLt; omega⟩

/-- A point is the block of its own tile that its position in the tile names. -/
theorem tileIdx_self (t : Fin cfg0.N) : tileIdx t (t.val % 80) = t :=
  Fin.ext (by show 80 * (t.val / 80) + t.val % 80 % 80 = t.val; omega)

/-- Away from a tile's first point, the point before lies in the same tile. -/
theorem tileIdx_prev (t : Fin cfg0.N) (h0 : ¬t.val % 80 = 0) (j : ℕ) :
    tileIdx ⟨t.val - 1, Nat.lt_of_le_of_lt (Nat.sub_le _ _) t.isLt⟩ j = tileIdx t j :=
  Fin.ext (by show 80 * ((t.val - 1) / 80) + j % 80 = 80 * (t.val / 80) + j % 80; omega)

section Fold
variable (X : Fin cfg0.N → Vec Ideal S1024x512 .f32) (W : Fin cfg0.N → Vec Ideal S256x512 .f32)

/-- At a tile's first point the running accumulator is the zero fill plus the point's own block product. -/
theorem acc_tile_first (t : Fin cfg0.N) (h0 : t.val % 80 = 0) :
    Pay.acc (fun j => X (tileIdx t j)) (fun j => W (tileIdx t j)) (t.val % 80) = k0_pay3 (F := Ideal) (X t) (W t) (k0_pay1 (F := Ideal)) := by
  have e := tileIdx_self t
  rw [h0] at e ⊢
  show k0_pay3 (F := Ideal) (X (tileIdx t 0)) (W (tileIdx t 0)) (k0_pay1 (F := Ideal)) = _
  rw [e]

/-- At any later point of the tile it is the point's own block product added to the accumulator of the point before. -/
theorem acc_tile_next (t : Fin cfg0.N) (h0 : ¬t.val % 80 = 0) :
    Pay.acc (fun j => X (tileIdx t j)) (fun j => W (tileIdx t j)) (t.val % 80)
      = k0_pay3 (F := Ideal) (X t) (W t)
          (Pay.acc (fun j => X (tileIdx ⟨t.val - 1, Nat.lt_of_le_of_lt (Nat.sub_le _ _) t.isLt⟩ j))
            (fun j => W (tileIdx ⟨t.val - 1, Nat.lt_of_le_of_lt (Nat.sub_le _ _) t.isLt⟩ j)) ((t.val - 1) % 80)) := by
  obtain ⟨m, hm⟩ := Nat.exists_eq_succ_of_ne_zero h0
  have hm' : (t.val - 1) % 80 = m := by omega
  have e := tileIdx_self t
  simp only [tileIdx_prev t h0]
  rw [hm']
  rw [hm] at e ⊢
  show k0_pay3 (F := Ideal) (X (tileIdx t (m + 1))) (W (tileIdx t (m + 1))) _ = _
  rw [e]

/-- A family of arrays that starts each tile at the zero fill plus the first block product and then adds one block
    product per point is the running accumulator. -/
theorem acc_rec (A : (n : ℕ) → n < cfg0.N → Vec Ideal S1024x256 .f32)
    (hA : ∀ t : Fin cfg0.N, t.val % 80 = 0 → A t.val t.isLt = k0_pay3 (F := Ideal) (X t) (W t) (k0_pay1 (F := Ideal)))
    (hB : ∀ t : Fin cfg0.N, ¬t.val % 80 = 0 →
      A t.val t.isLt = k0_pay3 (F := Ideal) (X t) (W t) (A (t.val - 1) (Nat.lt_of_le_of_lt (Nat.sub_le _ _) t.isLt)))
    (t : Fin cfg0.N) :
    A t.val t.isLt = Pay.acc (fun j => X (tileIdx t j)) (fun j => W (tileIdx t j)) (t.val % 80) := by
  obtain ⟨n, hn⟩ := t
  induction n with
  | zero => exact (hA ⟨0, hn⟩ (Nat.zero_mod _)).trans (acc_tile_first X W ⟨0, hn⟩ (Nat.zero_mod _)).symm
  | succ n ih =>
    by_cases h0 : (n + 1) % 80 = 0
    · exact (hA ⟨n + 1, hn⟩ h0).trans (acc_tile_first X W ⟨n + 1, hn⟩ h0).symm
    · refine (hB ⟨n + 1, hn⟩ h0).trans ?_
      rw [acc_tile_next X W ⟨n + 1, hn⟩ h0]
      exact congrArg (k0_pay3 (F := Ideal) (X ⟨n + 1, hn⟩) (W ⟨n + 1, hn⟩)) (ih (Nat.lt_of_succ_lt hn))

end Fold

section AtIdeal
variable (V : (c : Dev nD) → (b : Ref sig .tc) → Buf (Elt Ideal) ((c : Thread nD τ).loc b))

/-- After point `t` the white accumulator is the running sum of the block products of `t`'s tile up to `t`. -/
theorem accW_eq (c : Dev nD) (t : Fin cfg0.N) :
    (outsAt0 V c t.val t.isLt).2.1 = Pay.acc (fun j => blk0 V c (tileIdx t j)) (fun j => blk2 V c (tileIdx t j)) (t.val % 80) :=
  acc_rec (blk0 V c) (blk2 V c) (fun n hn => (outsAt0 V c n hn).2.1) (fun t h0 => stepA_W (F := Ideal) V c t h0)
    (fun t h0 => stepN_W (F := Ideal) V c t h0) t

/-- After point `t` the black accumulator likewise, of its own blocks. -/
theorem accB_eq (c : Dev nD) (t : Fin cfg0.N) :
    (outsAt0 V c t.val t.isLt).2.2 = Pay.acc (fun j => blk1 V c (tileIdx t j)) (fun j => blk3 V c (tileIdx t j)) (t.val % 80) :=
  acc_rec (blk1 V c) (blk3 V c) (fun n hn => (outsAt0 V c n hn).2.2)
    (fun t h0 => (stepA_B (F := Ideal) V c t h0).trans (by rw [Pay.pay4_eq_pay3, Pay.pay2_eq_pay1]))
    (fun t h0 => (stepN_B (F := Ideal) V c t h0).trans (by rw [Pay.pay4_eq_pay3])) t

/-- The output block written back at the last point of a tile, element by element: in the left half the white
    side's sum over all 80 blocks plus its bias, in the right half the black side's, both clipped below at zero. -/
theorem outC_val (c : Dev nD) (t : Fin cfg0.N) (h1 : t.val % 80 = 79) (r : Fin 1024) (f : Fin 512) :
    (outsAt0 V c t.val t.isLt).1 (ix2 r f)
      = if hf : f.val < 256 then
          max ((∑ k ∈ Finset.range 80, ∑ l : Fin 512, blk0 V c (tileIdx t k) (ix2 r l) * blk2 V c (tileIdx t k) (ix2 ⟨f.val, hf⟩ l)) + blk4 V c t (ix2 0 ⟨f.val, hf⟩)) 0
        else
          max ((∑ k ∈ Finset.range 80, ∑ l : Fin 512, blk1 V c (tileIdx t k) (ix2 r l) * blk3 V c (tileIdx t k) (ix2 ⟨f.val - 256, by have := f.isLt; omega⟩ l)) + blk5 V c t (ix2 0 ⟨f.val - 256, by have := f.isLt; omega⟩)) 0 := by
  have hW := accW_eq V c t
  have hB := accB_eq V c t
  rw [h1] at hW hB
  by_cases hf : f.val < 256
  · rw [dif_pos hf, stepC_lo (F := Ideal) V c t h1 r f hf, hW, Pay.pay5_apply, Pay.acc_apply]
  · rw [dif_neg hf, stepC_hi (F := Ideal) V c t h1 r f hf, hB, Pay.pay6_apply, Pay.acc_apply]

end AtIdeal

end Cert.KernelIdeal.Fr

end
-- ==== Proof.KI.Blocks.lean ====
import proofs.«103038_j39840116637857_1_alg».proof.Proof.KI.Region0
import proofs.«103038_j39840116637857_1_alg».proof.Proof.KI.Region1
import Idealize.ShloMosaic.Lib.Pipeline.Value
import Idealize.ShloMosaic.Lib.ValueIdx

/-! # Where each window's block sits in its array, and the two output arrays after their write-backs

The feature-transform region's grid is 2 × 80: point `t` is batch tile `t / 80`, feature block `t % 80`.
A block's element sits in its array, on each axis, at block index × block size + its coordinate in the
block. The region's output array is written back only at the last point of each tile, the two blocks
written being rows 0 … 1023 and rows 1024 … 2047, which cover it. The dense layers' region has one
point; every one of its blocks is its whole array. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The feature-transform region's block indices, decided over the grid -/

/-- The printed index maps at point `t`: the feature arrays' windows at (tile, feature block), the weight
    matrices' at (0, feature block), the bias rows' at (0, 0), the output's at (tile, 0). -/
theorem idx_facts0 : ∀ t : Fin cfg0.N,
      win0_0.index t (0 : Fin 2) = t.val / 80 ∧ win0_0.index t (1 : Fin 2) = t.val % 80
    ∧ win0_1.index t (0 : Fin 2) = t.val / 80 ∧ win0_1.index t (1 : Fin 2) = t.val % 80
    ∧ win0_2.index t (0 : Fin 2) = 0 ∧ win0_2.index t (1 : Fin 2) = t.val % 80
    ∧ win0_3.index t (0 : Fin 2) = 0 ∧ win0_3.index t (1 : Fin 2) = t.val % 80
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 80 ∧ win0_6.index t (1 : Fin 2) = 0 :=
  (by decide +kernel : ∀ t : Fin grid0.N, _)

/-! ## The input blocks as elements of their arrays

A block's element sits in its array, on each axis, at block index × block size + its coordinate. -/

theorem iblk0_0_apply (c : Dev nD) (t : Fin cfg0.N) (r : Fin 1024) (l : Fin 512) :
    iblk0 V c 0 t (ix2 r l) = V c main_arg0 (ix2 ⟨1024 * (t.val / 80) + r.val, by have := lt_of_lt_of_eq t.isLt N0; have := r.isLt; omega⟩
      ⟨512 * (t.val % 80) + l.val, by have := l.isLt; omega⟩) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 1024 + 1 * r.val = 1024 * (t.val / 80) + r.val; rw [e0]; omega
  | ⟨1, _⟩ => show win0_0.index t (1 : Fin 2) * 512 + 1 * l.val = 512 * (t.val % 80) + l.val; rw [e1]; omega

theorem iblk0_1_apply (c : Dev nD) (t : Fin cfg0.N) (r : Fin 1024) (l : Fin 512) :
    iblk0 V c 1 t (ix2 r l) = V c main_arg1 (ix2 ⟨1024 * (t.val / 80) + r.val, by have := lt_of_lt_of_eq t.isLt N0; have := r.isLt; omega⟩
      ⟨512 * (t.val % 80) + l.val, by have := l.isLt; omega⟩) := by
  obtain ⟨-, -, e0, e1, -⟩ := idx_facts0 t
  unfold iblk0
  rw [View.read_apply]
  show V c main_arg1 _ = V c main_arg1 _
  congr 1
  funext a; apply Fin.ext
  match a with
  | ⟨0, _⟩ => show win0_1.index t (0 : Fin 2) * 1024 + 1 * r.val = 1024 * (t.val / 80) + r.val; rw [e0]; omega
  | ⟨1, _⟩ => show win0_1.index t (1 : Fin 2) * 512 + 1 * l.val = 512 * (t.val % 80) + l.val; rw [e1]; omega

theorem iblk0_2_apply (c : Dev nD) (t : Fin cfg0.N) (h : Fin 256) (l : Fin 512) :
    iblk0 V c 2 t (ix2 h l) = V c main_arg2 (ix2 h ⟨512 * (t.val % 80) + l.val, by have := l.isLt; omega⟩) := by
  obtain ⟨-, -, -, -, e0, e1, -⟩ := idx_facts0 t
  unfold iblk0
  rw [View.read_apply]
  show V c main_arg2 _ = V c main_arg2 _
  congr 1
  funext a; apply Fin.ext
  match a with
  | ⟨0, _⟩ => show win0_2.index t (0 : Fin 2) * 256 + 1 * h.val = h.val; rw [e0]; omega
  | ⟨1, _⟩ => show win0_2.index t (1 : Fin 2) * 512 + 1 * l.val = 512 * (t.val % 80) + l.val; rw [e1]; omega

theorem iblk0_3_apply (c : Dev nD) (t : Fin cfg0.N) (h : Fin 256) (l : Fin 512) :
    iblk0 V c 3 t (ix2 h l) = V c main_arg4 (ix2 h ⟨512 * (t.val % 80) + l.val, by have := l.isLt; omega⟩) := by
  obtain ⟨-, -, -, -, -, -, e0, e1, -⟩ := idx_facts0 t
  unfold iblk0
  rw [View.read_apply]
  show V c main_arg4 _ = V c main_arg4 _
  congr 1
  funext a; apply Fin.ext
  match a with
  | ⟨0, _⟩ => show win0_3.index t (0 : Fin 2) * 256 + 1 * h.val = h.val; rw [e0]; omega
  | ⟨1, _⟩ => show win0_3.index t (1 : Fin 2) * 512 + 1 * l.val = 512 * (t.val % 80) + l.val; rw [e1]; omega

theorem iblk0_4_apply (c : Dev nD) (t : Fin cfg0.N) (h : Fin 256) :
    iblk0 V c 4 t (ix2 0 h) = V c main_v0 (ix2 0 h) := by
  obtain ⟨-, -, -, -, -, -, -, -, e0, e1, -⟩ := idx_facts0 t
  unfold iblk0
  rw [View.read_apply]
  show V c main_v0 _ = V c main_v0 _
  congr 1
  funext a; apply Fin.ext
  match a with
  | ⟨0, _⟩ => show win0_4.index t (0 : Fin 2) * 1 + 1 * 0 = 0; rw [e0]
  | ⟨1, _⟩ => show win0_4.index t (1 : Fin 2) * 256 + 1 * h.val = h.val; rw [e1]; omega

theorem iblk0_5_apply (c : Dev nD) (t : Fin cfg0.N) (h : Fin 256) :
    iblk0 V c 5 t (ix2 0 h) = V c main_v1 (ix2 0 h) := by
  obtain ⟨-, -, -, -, -, -, -, -, -, -, e0, e1, -⟩ := idx_facts0 t
  unfold iblk0
  rw [View.read_apply]
  show V c main_v1 _ = V c main_v1 _
  congr 1
  funext a; apply Fin.ext
  match a with
  | ⟨0, _⟩ => show win0_5.index t (0 : Fin 2) * 1 + 1 * 0 = 0; rw [e0]
  | ⟨1, _⟩ => show win0_5.index t (1 : Fin 2) * 256 + 1 * h.val = h.val; rw [e1]; omega

/-! ## The dense layers' region: one point, every block its whole array -/

/-- The printed index maps at the region's one point: every block index is zero. -/
theorem idx_facts1 : ∀ t : Fin cfg1.N,
      win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Window 0's block offsets are zero. -/
theorem off1_0 (t : Fin cfg1.N) : (fun a => win1_0.index t a * main_v2.ty.shape.size a) = fun _ => 0 := by
  obtain ⟨e0, e1, -⟩ := idx_facts1 t
  funext a
  match a with
  | ⟨0, _⟩ => show win1_0.index t (0 : Fin 2) * 2048 = 0; rw [e0]
  | ⟨1, _⟩ => show win1_0.index t (1 : Fin 2) * 512 = 0; rw [e1]

/-- Window 1's block offsets are zero. -/
theorem off1_1 (t : Fin cfg1.N) : (fun a => win1_1.index t a * main_arg6.ty.shape.size a) = fun _ => 0 := by
  obtain ⟨-, -, e0, e1, -⟩ := idx_facts1 t
  funext a
  match a with
  | ⟨0, _⟩ => show win1_1.index t (0 : Fin 2) * 32 = 0; rw [e0]
  | ⟨1, _⟩ => show win1_1.index t (1 : Fin 2) * 512 = 0; rw [e1]

/-- Window 2's block offsets are zero. -/
theorem off1_2 (t : Fin cfg1.N) : (fun a => win1_2.index t a * main_v3.ty.shape.size a) = fun _ => 0 := by
  obtain ⟨-, -, -, -, e0, e1, -⟩ := idx_facts1 t
  funext a
  match a with
  | ⟨0, _⟩ => show win1_2.index t (0 : Fin 2) * 1 = 0; rw [e0]
  | ⟨1, _⟩ => show win1_2.index t (1 : Fin 2) * 32 = 0; rw [e1]

/-- Window 3's block offsets are zero. -/
theorem off1_3 (t : Fin cfg1.N) : (fun a => win1_3.index t a * main_arg8.ty.shape.size a) = fun _ => 0 := by
  obtain ⟨-, -, -, -, -, -, e0, e1, -⟩ := idx_facts1 t
  funext a
  match a with
  | ⟨0, _⟩ => show win1_3.index t (0 : Fin 2) * 32 = 0; rw [e0]
  | ⟨1, _⟩ => show win1_3.index t (1 : Fin 2) * 32 = 0; rw [e1]

/-- Window 4's block offsets are zero. -/
theorem off1_4 (t : Fin cfg1.N) : (fun a => win1_4.index t a * main_v4.ty.shape.size a) = fun _ => 0 := by
  obtain ⟨-, -, -, -, -, -, -, -, e0, e1, -⟩ := idx_facts1 t
  funext a
  match a with
  | ⟨0, _⟩ => show win1_4.index t (0 : Fin 2) * 1 = 0; rw [e0]
  | ⟨1, _⟩ => show win1_4.index t (1 : Fin 2) * 32 = 0; rw [e1]

/-- Window 5's block offsets are zero. -/
theorem off1_5 (t : Fin cfg1.N) : (fun a => win1_5.index t a * main_arg10.ty.shape.size a) = fun _ => 0 := by
  obtain ⟨-, -, -, -, -, -, -, -, -, -, e0, e1, -⟩ := idx_facts1 t
  funext a
  match a with
  | ⟨0, _⟩ => show win1_5.index t (0 : Fin 2) * 1 = 0; rw [e0]
  | ⟨1, _⟩ => show win1_5.index t (1 : Fin 2) * 32 = 0; rw [e1]

/-- Window 6's block offsets are zero. -/
theorem off1_6 (t : Fin cfg1.N) : (fun a => win1_6.index t a * main_v5.ty.shape.size a) = fun _ => 0 := by
  obtain ⟨-, -, -, -, -, -, -, -, -, -, -, -, e0, e1, -⟩ := idx_facts1 t
  funext a
  match a with
  | ⟨0, _⟩ => show win1_6.index t (0 : Fin 2) * 1 = 0; rw [e0]
  | ⟨1, _⟩ => show win1_6.index t (1 : Fin 2) * 1 = 0; rw [e1]

/-- Window 7's block offsets are zero. -/
theorem off1_7 (t : Fin cfg1.N) : (fun a => win1_7.index t a * main_v6.ty.shape.size a) = fun _ => 0 := by
  obtain ⟨-, -, -, -, -, -, -, -, -, -, -, -, -, -, e0, e1⟩ := idx_facts1 t
  funext a
  match a with
  | ⟨0, _⟩ => show win1_7.index t (0 : Fin 2) * 2048 = 0; rw [e0]
  | ⟨1, _⟩ => show win1_7.index t (1 : Fin 2) * 1 = 0; rw [e1]

/-- Input window 0's block is its whole array. -/
theorem iblk1_0_eq (c : Dev nD) (t : Fin cfg1.N) : (iblk1 V c 0 t : Vec F S2048x512 .f32) = V c main_v2 := by
  unfold iblk1
  exact Memref.read_access_unit_zero (Elt F) main_v2 (off1_0 t) (fun a => by rw [congrFun (off1_0 t) a]; simp) (V c main_v2)

/-- Input window 1's block is its whole array. -/
theorem iblk1_1_eq (c : Dev nD) (t : Fin cfg1.N) : (iblk1 V c 1 t : Vec F S32x512 .f32) = V c main_arg6 := by
  unfold iblk1
  exact Memref.read_access_unit_zero (Elt F) main_arg6 (off1_1 t) (fun a => by rw [congrFun (off1_1 t) a]; simp) (V c main_arg6)

/-- Input window 2's block is its whole array. -/
theorem iblk1_2_eq (c : Dev nD) (t : Fin cfg1.N) : (iblk1 V c 2 t : Vec F S1x32 .f32) = V c main_v3 := by
  unfold iblk1
  exact Memref.read_access_unit_zero (Elt F) main_v3 (off1_2 t) (fun a => by rw [congrFun (off1_2 t) a]; simp) (V c main_v3)

/-- Input window 3's block is its whole array. -/
theorem iblk1_3_eq (c : Dev nD) (t : Fin cfg1.N) : (iblk1 V c 3 t : Vec F S32x32 .f32) = V c main_arg8 := by
  unfold iblk1
  exact Memref.read_access_unit_zero (Elt F) main_arg8 (off1_3 t) (fun a => by rw [congrFun (off1_3 t) a]; simp) (V c main_arg8)

/-- Input window 4's block is its whole array. -/
theorem iblk1_4_eq (c : Dev nD) (t : Fin cfg1.N) : (iblk1 V c 4 t : Vec F S1x32 .f32) = V c main_v4 := by
  unfold iblk1
  exact Memref.read_access_unit_zero (Elt F) main_v4 (off1_4 t) (fun a => by rw [congrFun (off1_4 t) a]; simp) (V c main_v4)

/-- Input window 5's block is its whole array. -/
theorem iblk1_5_eq (c : Dev nD) (t : Fin cfg1.N) : (iblk1 V c 5 t : Vec F S1x32 .f32) = V c main_arg10 := by
  unfold iblk1
  exact Memref.read_access_unit_zero (Elt F) main_arg10 (off1_5 t) (fun a => by rw [congrFun (off1_5 t) a]; simp) (V c main_arg10)

/-- Input window 6's block is its whole array. -/
theorem iblk1_6_eq (c : Dev nD) (t : Fin cfg1.N) : (iblk1 V c 6 t : Vec F S1x1 .f32) = V c main_v5 := by
  unfold iblk1
  exact Memref.read_access_unit_zero (Elt F) main_v5 (off1_6 t) (fun a => by rw [congrFun (off1_6 t) a]; simp) (V c main_v5)

/-- The dense layers' region's output array after the region: the payload of its seven whole input arrays. -/
theorem arr7_eq (c : Dev nD) :
    (dat1 V c).arrAt 7 cfg1.N = k1_pay1 (V c main_v2) (V c main_arg6) (V c main_v3) (V c main_arg8) (V c main_v4) (V c main_arg10) (V c main_v5) := by
  refine (dat1 V c).arrAt_eq_of_cover 7 _ (fun t hf => ?_) (fun i => ⟨t1_0, flush1_7 t1_0, ?_⟩)
  · show (cfg1.win 7).cut (grid1.coords t) ((dat1 V c).after 7 t) = _
    rw [after1_7, out1_7_eq, iblk1_0_eq, iblk1_1_eq, iblk1_2_eq, iblk1_3_eq, iblk1_4_eq, iblk1_5_eq, iblk1_6_eq]
    exact (Memref.read_access_unit_zero (Elt F) main_v6 (off1_7 t) (fun a => by rw [congrFun (off1_7 t) a]; simp) _).symm
  · show i ∈ ((View.whole main_v6).slice (win1_7.rect t1_0)).set
    rw [View.set_slice_whole, Rect.mem_set_unit]
    obtain ⟨-, -, -, -, -, -, -, -, -, -, -, -, -, -, e0, e1⟩ := idx_facts1 t1_0
    intro a
    have h0 : (i 0 : Nat) < 2048 := (i 0).isLt
    have h1 : (i 1 : Nat) < 1 := (i 1).isLt
    match a with
    | ⟨0, _⟩ => show win1_7.index t1_0 (0 : Fin 2) * 2048 ≤ (i 0 : Nat) ∧ (i 0 : Nat) < win1_7.index t1_0 (0 : Fin 2) * 2048 + 2048; rw [e0]; omega
    | ⟨1, _⟩ => show win1_7.index t1_0 (1 : Fin 2) * 1 ≤ (i 1 : Nat) ∧ (i 1 : Nat) < win1_7.index t1_0 (1 : Fin 2) * 1 + 1; rw [e1]; omega

/-! ## The feature-transform region's output array -/

/-- What a point left depends on the point's number only, whatever the proof that it is on the grid. -/
theorem outsAt0_fst_congr (c : Dev nD) {n n' : ℕ} (hn : n < cfg0.N) (hn' : n' < cfg0.N) (e : n = n')
    {j j' : S1024x512.Idx} (ej : j = j') : (outsAt0 V c n hn).1 j = (outsAt0 V c n' hn').1 j' := by
  subst e; subst ej; rfl

/-- The output array after the region, as one function of the index: row `R` holds row `R % 1024` of what the
    last point of `R`'s tile, point `80 · (R / 1024) + 79`, left in the output block. -/
def G6 (c : Dev nD) : S2048x512.Idx → Elt F .f32 := fun i =>
  (outsAt0 V c (80 * ((i 0).val / 1024) + 79) (by have := N0; have := idx2_lt0 i; omega)).1
    (ix2 ⟨(i 0).val % 1024, Nat.mod_lt _ (by norm_num)⟩ ⟨(i 1).val, idx2_lt1 i⟩)

/-- At an index of the block of a tile's last point `t`, that function is what `t` left. -/
theorem G6_apply_of (c : Dev nD) (t : Fin cfg0.N) (h79 : t.val % 80 = 79) (i : S2048x512.Idx) (y : S1024x512.Idx)
    (h0 : (i 0).val = 1024 * (t.val / 80) + (y 0).val) (h1 : (i 1).val = (y 1).val) :
    G6 V c i = (outsAt0 V c t.val t.isLt).1 y := by
  have hy0 : (y 0).val < 1024 := idx2_lt0 y
  unfold G6
  refine outsAt0_fst_congr V c _ _ (by omega) ?_
  funext a; apply Fin.ext
  match a with
  | ⟨0, _⟩ => show (i 0).val % 1024 = (y 0).val; omega
  | ⟨1, _⟩ => show (i 1).val = (y 1).val; exact h1

/-- An index of the array is in point `t`'s output block iff each coordinate is in the block's range on its axis. -/
theorem mem_blk6 (t : Fin cfg0.N) (i : S2048x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v2).slice (win0_6.rect t)).set ↔ _
  rw [View.set_slice_whole, Rect.mem_set_unit]
  exact Iff.rfl

/-- What a tile's last point writes back is its block of that function. -/
theorem flushed6_eq (c : Dev nD) (t : Fin cfg0.N) (hf : (cfg0.win 6).flush t = true) :
    (dat0 V c).flushed 6 t = ((cfg0.win 6).blk t).view.read (Elt F) (G6 V c) := by
  have h79 : t.val % 80 = 79 := (flush0_6 t).mp hf
  obtain ⟨-, -, -, -, -, -, -, -, -, -, -, -, e0, e1⟩ := idx_facts0 t
  show (cfg0.win 6).cut (grid0.coords t) ((dat0 V c).after 6 t) = _
  rw [after0_6]
  funext y
  rw [View.read_apply]
  refine (G6_apply_of V c t h79 _ _ ?_ ?_).symm
  · show win0_6.index t (0 : Fin 2) * 1024 + 1 * (y 0).val = 1024 * (t.val / 80) + (y 0).val; rw [e0]; omega
  · show win0_6.index t (1 : Fin 2) * 512 + 1 * (y 1).val = (y 1).val; rw [e1]; omega

/-- The blocks of the two tiles' last points cover the array: row `R` is in the block of tile `R / 1024`. -/
theorem cover6 (i : S2048x512.Idx) : ∃ t : Fin cfg0.N, (cfg0.win 6).flush t = true ∧ i ∈ ((cfg0.win 6).blk t).view.set := by
  have hi0 : (i 0).val < 2048 := idx2_lt0 i
  have hi1 : (i 1).val < 512 := idx2_lt1 i
  obtain ⟨t, htv⟩ : ∃ t : Fin cfg0.N, t.val = 80 * ((i 0).val / 1024) + 79 := ⟨⟨_, by have := N0; omega⟩, rfl⟩
  obtain ⟨-, -, -, -, -, -, -, -, -, -, -, -, e0, e1⟩ := idx_facts0 t
  refine ⟨t, (flush0_6 t).mpr (by omega), ?_⟩
  rw [mem_blk6]
  intro a
  match a with
  | ⟨0, _⟩ => show win0_6.index t (0 : Fin 2) * 1024 ≤ (i 0).val ∧ (i 0).val < win0_6.index t (0 : Fin 2) * 1024 + 1024; rw [e0]; omega
  | ⟨1, _⟩ => show win0_6.index t (1 : Fin 2) * 512 ≤ (i 1).val ∧ (i 1).val < win0_6.index t (1 : Fin 2) * 512 + 512; rw [e1]; omega

/-- The region's output array after the region is that function. -/
theorem arr6_eq (c : Dev nD) : (dat0 V c).arrAt 6 cfg0.N = G6 V c :=
  (dat0 V c).arrAt_eq_of_cover 6 (G6 V c) (flushed6_eq V c) cover6

/-- The feature-transform region's output array after the region: row `R` of it was written by the last point of
    `R`'s tile. -/
theorem arr6_apply (c : Dev nD) (R : Fin 2048) (f : Fin 512) :
    (dat0 V c).arrAt 6 cfg0.N (ix2 R f) = (outsAt0 V c (80 * (R.val / 1024) + 79) (by have := N0; have := R.isLt; omega)).1 (ix2 ⟨R.val % 1024, Nat.mod_lt _ (by norm_num)⟩ f) := by
  rw [arr6_eq]; rfl

end Cert.KernelIdeal.Fr

end
-- ==== Proof.KI.Final.lean ====
/-
  The idealized kernel's result is the network of the launch arrays.

  Read backwards from the result buffer: it is the head region's [2048, 1] output reshaped; that output is the head's
  payload of its seven input arrays (the three dense layers); six of those are argument arrays or reshaped argument
  rows untouched since launch, and the seventh is the feature region's output array. Row r, column f of that array was
  written at the last point of r's batch tile: the clipped, biased accumulator of the white side for f < 256 and of the
  black side otherwise; the accumulator is the sum over the tile's 80 feature blocks of the blocks' partial products,
  each block's entries being entries of the argument arrays at row r and features 512·k + l. Summing over the 80 blocks
  of 512 features is summing over all 40960 features.
-/
import proofs.«103038_j39840116637857_1_alg».proof.Proof.KI.Ends
import proofs.«103038_j39840116637857_1_alg».proof.Proof.KI.Value0
import proofs.«103038_j39840116637857_1_alg».proof.Proof.KI.Blocks
import proofs.«103038_j39840116637857_1_alg».proof.Proof.Payloads
import proofs.«103038_j39840116637857_1_alg».proof.Proof.Spec
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-! ## Buffers no segment before has written hold their launch contents -/

theorem Wa_arg (c : Dev nD) (r : Ref sig .tc) (h : r ∉ hostOps0_W) : Wa m c (Proc.devRef .tc r) = m ((c : Thread nD τ).loc r) :=
  StableHlo.after_of_writes_sub hostOps0 _ hostOps0_writes h
theorem Wb_arg (c : Dev nD) (r : Ref sig .tc) (h : r ∉ hostOps0_W) (hb : ∀ w, Pipeline.arrRef spec0 w ≠ r) :
    Wb m c (Proc.devRef .tc r) = m ((c : Thread nD τ).loc r) :=
  (Wb_of_ne m c r hb).trans (Wa_arg m c r h)
theorem Wc_arg (c : Dev nD) (r : Ref sig .tc) (h1 : r ∉ hostOps1_W) (h : r ∉ hostOps0_W) (hb : ∀ w, Pipeline.arrRef spec0 w ≠ r) :
    Wc m c (Proc.devRef .tc r) = m ((c : Thread nD τ).loc r) :=
  (StableHlo.after_of_writes_sub hostOps1 _ hostOps1_writes h1).trans (Wb_arg m c r h hb)

/-! ## A bias row reshaped to one row of a matrix, read at an index -/

theorem row256 (x : Vec Ideal S256 .f32) (h : Fin 256) : shapeCast S1x256 x shapeCasts_S256_S1x256 (ix2 0 h) = x (ix1 h) :=
  shapeCast_apply x shapeCasts_S256_S1x256 (ix2 0 h) (ix1 h) (by rewrite [Shape.rowMajor_val_two, Shape.rowMajor_val_one]; show h.val = 0 * 256 + h.val; omega)
theorem row32 (x : Vec Ideal S32 .f32) (h : Fin 32) : shapeCast S1x32 x shapeCasts_S32_S1x32 (ix2 0 h) = x (ix1 h) :=
  shapeCast_apply x shapeCasts_S32_S1x32 (ix2 0 h) (ix1 h) (by rewrite [Shape.rowMajor_val_two, Shape.rowMajor_val_one]; show h.val = 0 * 32 + h.val; omega)
theorem row1 (x : Vec Ideal S1 .f32) : shapeCast S1x1 x shapeCasts_S1_S1x1 (ix2 0 0) = x (ix1 0) :=
  shapeCast_apply x shapeCasts_S1_S1x1 (ix2 0 0) (ix1 0) (by rewrite [Shape.rowMajor_val_two, Shape.rowMajor_val_one]; rfl)
theorem col2048 (x : Vec Ideal S2048x1 .f32) (r : Fin 2048) : shapeCast S2048 x shapeCasts_S2048x1_S2048 (ix1 r) = x (ix2 r 0) :=
  shapeCast_apply x shapeCasts_S2048x1_S2048 (ix1 r) (ix2 r 0) (by rewrite [Shape.rowMajor_val_two, Shape.rowMajor_val_one]; show r.val * 1 + 0 = r.val; omega)

/-! ## Equal indices from equal coordinates -/

theorem ix2_congr {a b : Nat} {i i' : Fin a} {j j' : Fin b} (hi : i.val = i'.val) (hj : j.val = j'.val) : ix2 i j = ix2 i' j' := by
  rw [Fin.ext hi, Fin.ext hj]

/-! ## The feature region's output array -/

/-- The point that writes row `r` back: the last point of `r`'s batch tile. -/
def lastOf (r : Fin 2048) : Fin cfg0.N := ⟨80 * (r.val / 1024) + 79, by have := N0; have := r.isLt; omega⟩

theorem lastOf_val (r : Fin 2048) : (lastOf r).val = 80 * (r.val / 1024) + 79 := rfl
theorem tileIdx_val (t : Fin cfg0.N) (j : ℕ) : (tileIdx t j).val = 80 * (t.val / 80) + j % 80 := rfl

/-- One side's contraction, block by block, is the contraction over all 40960 features. -/
theorem side_sum (bx : Fin cfg0.N → S1024x512.Idx → EReal) (bw : Fin cfg0.N → S256x512.Idx → EReal)
    (X : Vec Ideal S2048x40960 .f32) (W : Vec Ideal S256x40960 .f32)
    (hx : ∀ (t : Fin cfg0.N) (r : Fin 1024) (l : Fin 512), bx t (ix2 r l) = X (ix2 ⟨1024 * (t.val / 80) + r.val, by have := N0; have := t.isLt; have := r.isLt; omega⟩ ⟨512 * (t.val % 80) + l.val, by have := l.isLt; omega⟩))
    (hw : ∀ (t : Fin cfg0.N) (h : Fin 256) (l : Fin 512), bw t (ix2 h l) = W (ix2 h ⟨512 * (t.val % 80) + l.val, by have := l.isLt; omega⟩))
    (r : Fin 2048) (h : Fin 256) :
    (∑ k ∈ Finset.range 80, ∑ l : Fin 512, bx (tileIdx (lastOf r) k) (ix2 ⟨r.val % 1024, Nat.mod_lt _ (by norm_num)⟩ l) * bw (tileIdx (lastOf r) k) (ix2 h l))
      = ∑ g : Fin 40960, X (ix2 r g) * W (ix2 h g) := by
  rw [Pay.sum_blocks]
  refine Finset.sum_congr rfl fun k hk => Finset.sum_congr rfl fun l _ => ?_
  have hk' : k < 80 := Finset.mem_range.mp hk
  have hl := l.isLt
  have hr := r.isLt
  rw [hx, hw]
  refine congrArg₂ (· * ·) (congrArg X (ix2_congr ?_ ?_)) (congrArg W (ix2_congr rfl ?_))
  · show 1024 * ((tileIdx (lastOf r) k).val / 80) + r.val % 1024 = r.val
    rw [tileIdx_val, lastOf_val]; omega
  · show 512 * ((tileIdx (lastOf r) k).val % 80) + l.val = (512 * k + l.val) % 40960
    rw [tileIdx_val, lastOf_val]; omega
  · show 512 * ((tileIdx (lastOf r) k).val % 80) + l.val = (512 * k + l.val) % 40960
    rw [tileIdx_val, lastOf_val]; omega

/-- Row `r`, column `f` of the feature region's output array: the two transformers' activations side by side. -/
theorem xcat_eq (c : Dev nD) (r : Fin 2048) (f : Fin 512) :
    Wc m c (Proc.devRef .tc main_v2) (ix2 r f)
      = Cert.Spec.cat (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) r f := by
  have e1 : Wc m c (Proc.devRef .tc main_v2) = (dat0 (Va m) c).arrAt 6 cfg0.N :=
    (StableHlo.after_of_writes_sub hostOps1 _ hostOps1_writes (by decide)).trans (Wb_arr m c 6)
  rw [e1, arr6_apply (Va m) c r f]
  have hlast : (lastOf r).val % 80 = 79 := by rw [lastOf_val]; omega
  have hv := outC_val (Va m) c (lastOf r) hlast ⟨r.val % 1024, Nat.mod_lt _ (by norm_num)⟩ f
  refine hv.trans ?_
  unfold Cert.Spec.cat
  by_cases hf : f.val < 256
  · rw [dif_pos hf, dif_pos hf]
    unfold Cert.Spec.feat
    refine congrArg (fun z => max z 0) (congrArg₂ (· + ·) ?_ ?_)
    · exact side_sum (fun t => blk0 (Va m) c t) (fun t => blk2 (Va m) c t) _ _ (fun t r l => (iblk0_0_apply (Va m) c t r l).trans (congrFun (Wa_arg m c main_arg0 (by decide)) _))
        (fun t h l => (iblk0_2_apply (Va m) c t h l).trans (congrFun (Wa_arg m c main_arg2 (by decide)) _)) r ⟨f.val, hf⟩
    · refine (iblk0_4_apply (Va m) c (lastOf r) ⟨f.val, hf⟩).trans ?_
      show Wa m c (Proc.devRef .tc main_v0) (ix2 0 ⟨f.val, hf⟩) = _
      rw [Wa_main_v0, row256]
  · rw [dif_neg hf, dif_neg hf]
    unfold Cert.Spec.feat
    refine congrArg (fun z => max z 0) (congrArg₂ (· + ·) ?_ ?_)
    · exact side_sum (fun t => blk1 (Va m) c t) (fun t => blk3 (Va m) c t) _ _ (fun t r l => (iblk0_1_apply (Va m) c t r l).trans (congrFun (Wa_arg m c main_arg1 (by decide)) _))
        (fun t h l => (iblk0_3_apply (Va m) c t h l).trans (congrFun (Wa_arg m c main_arg4 (by decide)) _)) r ⟨f.val - 256, by have := f.isLt; omega⟩
    · refine (iblk0_5_apply (Va m) c (lastOf r) ⟨f.val - 256, by have := f.isLt; omega⟩).trans ?_
      show Wa m c (Proc.devRef .tc main_v1) (ix2 0 ⟨f.val - 256, _⟩) = _
      rw [Wa_main_v1, row256]

/-! ## The result -/

/-- The result buffer's final contents are the network of the launch arrays. -/
theorem result_eq (c : Dev nD) :
    shapeCast S2048 (Wd m c (Proc.devRef .tc main_v6)) shapeCasts_S2048x1_S2048
      = Cert.Spec.net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  funext y
  obtain ⟨r, rfl⟩ : ∃ r : Fin 2048, y = ix1 r := ⟨y 0, eq_ix1 y⟩
  rw [col2048]
  have e7 : Wd m c (Proc.devRef .tc main_v6) = (dat1 (Vc m) c).arrAt 7 cfg1.N := Wd_arr m c 7
  rw [e7, arr7_eq (Vc m) c, Pay.mlp_apply]
  unfold Cert.Spec.net
  show _ = Cert.Spec.dense3 _ _ _ r
  have hx : (fun r f => Wc m c (Proc.devRef .tc main_v2) (ix2 r f)) = Cert.Spec.cat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    funext fun r => funext fun f => xcat_eq m c r f
  have hW1 : Wc m c (Proc.devRef .tc main_arg6) = m ((c : Thread nD τ).loc main_arg6) := Wc_arg m c main_arg6 (by decide) (by decide) (by decide)
  have hW2 : Wc m c (Proc.devRef .tc main_arg8) = m ((c : Thread nD τ).loc main_arg8) := Wc_arg m c main_arg8 (by decide) (by decide) (by decide)
  have hW3 : Wc m c (Proc.devRef .tc main_arg10) = m ((c : Thread nD τ).loc main_arg10) := Wc_arg m c main_arg10 (by decide) (by decide) (by decide)
  have hb1 : (fun j : (⟨1, ![32]⟩ : Shape).Idx => Wc m c (Proc.devRef .tc main_v3) (ix2 0 (j 0))) = m ((c : Thread nD τ).loc main_arg7) := by
    funext j
    obtain ⟨i, rfl⟩ : ∃ i : Fin 32, j = ix1 i := ⟨j 0, eq_ix1 j⟩
    show Wc m c (Proc.devRef .tc main_v3) (ix2 0 i) = _
    rw [Wc_main_v3, row32, Wb_arg m c main_arg7 (by decide) (by decide)]
  have hb2 : (fun j : (⟨1, ![32]⟩ : Shape).Idx => Wc m c (Proc.devRef .tc main_v4) (ix2 0 (j 0))) = m ((c : Thread nD τ).loc main_arg9) := by
    funext j
    obtain ⟨i, rfl⟩ : ∃ i : Fin 32, j = ix1 i := ⟨j 0, eq_ix1 j⟩
    show Wc m c (Proc.devRef .tc main_v4) (ix2 0 i) = _
    rw [Wc_main_v4, row32, Wb_arg m c main_arg9 (by decide) (by decide)]
  have hb3 : (fun _ : (⟨1, ![1]⟩ : Shape).Idx => Wc m c (Proc.devRef .tc main_v5) (ix2 0 0)) = m ((c : Thread nD τ).loc main_arg11) := by
    funext j
    obtain ⟨i, rfl⟩ : ∃ i : Fin 1, j = ix1 i := ⟨j 0, eq_ix1 j⟩
    obtain rfl : i = 0 := Subsingleton.elim _ _
    rw [Wc_main_v5, row1, Wb_arg m c main_arg11 (by decide) (by decide)]
  show Cert.Spec.dense3 (Cert.Spec.dense2 (Cert.Spec.dense1 (fun r f => Wc m c (Proc.devRef .tc main_v2) (ix2 r f)) (Wc m c (Proc.devRef .tc main_arg6)) (fun j => Wc m c (Proc.devRef .tc main_v3) (ix2 0 (j 0)))) (Wc m c (Proc.devRef .tc main_arg8)) (fun j => Wc m c (Proc.devRef .tc main_v4) (ix2 0 (j 0)))) (Wc m c (Proc.devRef .tc main_arg10)) (fun _ => Wc m c (Proc.devRef .tc main_v5) (ix2 0 0)) r = _
  rw [hx, hW1, hW2, hW3, hb1, hb2, hb3]

end Cert.KernelIdeal.Fr

end
-- ==== Proof.RefNet.lean ====
/-
  The reference program computes the network of the specification.

  The reference, read one operation at a time, is: for each side of the board the contraction of a feature row
  with a weight row over all 40960 features, the bias added, the result clipped below at zero; the two 256-wide
  activations laid side by side; then three dense layers, each a contraction with a transposed weight matrix plus a
  bias, the first two clipped below at zero and the last passed through the hyperbolic tangent; finally the one
  column of the result read as a vector. Each lemma below identifies one of these stages, at an index given by its
  coordinates, with the corresponding definition of the specification; the sums agree term by term.
-/
import proofs.«103038_j39840116637857_1_alg».proof.Proof.Gen.ReferenceIdeal.Read
import proofs.«103038_j39840116637857_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefNet

open Cert.ReferenceIdeal Cert.ReferenceIdeal.Gen Cert.ReferenceIdeal.Read Cert.Spec Idealize.ShloMosaic Idealize.ShloMosaic.ValueIdx

/-! ## The clipping constant is zero -/

theorem zero0 (i : S2048x256.Idx) : val_main_call0_v0 (F := Ideal) i = 0 := by
  rw [val_main_call0_v0_apply, val_main_call0_cst_apply]; exact Ideal.ofBits_zero_f32
theorem zero1 (i : S2048x256.Idx) : val_main_call1_v0 (F := Ideal) i = 0 := by
  rw [val_main_call1_v0_apply, val_main_call1_cst_apply]; exact Ideal.ofBits_zero_f32
theorem zero2 (i : S2048x32.Idx) : val_main_call2_v0 (F := Ideal) i = 0 := by
  rw [val_main_call2_v0_apply, val_main_call2_cst_apply]; exact Ideal.ofBits_zero_f32
theorem zero3 (i : S2048x32.Idx) : val_main_call3_v0 (F := Ideal) i = 0 := by
  rw [val_main_call3_v0_apply, val_main_call3_cst_apply]; exact Ideal.ofBits_zero_f32

/-! ## The two feature transformers -/

/-- The white side: the clipped contraction at row `r`, unit `h`. -/
theorem feat_white (x0 : (⟨S2048x40960, .f32⟩ : BufTy).Contents (Elt Ideal)) (x2 : (⟨S256x40960, .f32⟩ : BufTy).Contents (Elt Ideal))
    (x3 : (⟨S256, .f32⟩ : BufTy).Contents (Elt Ideal)) (r : Fin 2048) (h : Fin 256) :
    val_main_v4 (F := Ideal) x0 x2 x3 (ix2 r h) = feat x0 x2 x3 r h := by
  rw [val_main_v4_apply, val_main_v3_apply, val_main_v0_apply, val_main_v2_apply, val_main_v1_apply, zero0]
  have el : ∀ k : Fin 40960, lidx_main_v0 (ix2 r h) k = ix2 r k := fun k => funext fun a => by
    match a with
    | ⟨0, _⟩ => rfl
    | ⟨1, _⟩ => rfl
  have er : ∀ k : Fin 40960, ridx_main_v0 (ix2 r h) k = ix2 h k := fun k => funext fun a => by
    match a with
    | ⟨0, _⟩ => rfl
    | ⟨1, _⟩ => rfl
  have eb : idx_main_v1 (idx_main_v2 (ix2 r h)) = ix1 h := funext fun a => by
    match a with
    | ⟨0, _⟩ => rfl
  simp only [el, er, eb]
  rfl

/-- The black side: the clipped contraction at row `r`, unit `h`. -/
theorem feat_black (x1 : (⟨S2048x40960, .f32⟩ : BufTy).Contents (Elt Ideal)) (x4 : (⟨S256x40960, .f32⟩ : BufTy).Contents (Elt Ideal))
    (x5 : (⟨S256, .f32⟩ : BufTy).Contents (Elt Ideal)) (r : Fin 2048) (h : Fin 256) :
    val_main_v9 (F := Ideal) x1 x4 x5 (ix2 r h) = feat x1 x4 x5 r h := by
  rw [val_main_v9_apply, val_main_v8_apply, val_main_v5_apply, val_main_v7_apply, val_main_v6_apply, zero1]
  have el : ∀ k : Fin 40960, lidx_main_v5 (ix2 r h) k = ix2 r k := fun k => funext fun a => by
    match a with
    | ⟨0, _⟩ => rfl
    | ⟨1, _⟩ => rfl
  have er : ∀ k : Fin 40960, ridx_main_v5 (ix2 r h) k = ix2 h k := fun k => funext fun a => by
    match a with
    | ⟨0, _⟩ => rfl
    | ⟨1, _⟩ => rfl
  have eb : idx_main_v6 (idx_main_v7 (ix2 r h)) = ix1 h := funext fun a => by
    match a with
    | ⟨0, _⟩ => rfl
  simp only [el, er, eb]
  rfl

/-! ## The two activations side by side -/

/-- Column `f` of the joined array is the white side's unit `f` below 256 and the black side's unit `f - 256` from
    256 on: a two-piece concatenation read at an index of either piece. -/
theorem cat_eq (x0 x1 : (⟨S2048x40960, .f32⟩ : BufTy).Contents (Elt Ideal)) (x2 : (⟨S256x40960, .f32⟩ : BufTy).Contents (Elt Ideal))
    (x3 : (⟨S256, .f32⟩ : BufTy).Contents (Elt Ideal)) (x4 : (⟨S256x40960, .f32⟩ : BufTy).Contents (Elt Ideal))
    (x5 : (⟨S256, .f32⟩ : BufTy).Contents (Elt Ideal)) (r : Fin 2048) (f : Fin 512) :
    val_main_v10 (F := Ideal) x0 x1 x2 x3 x4 x5 (ix2 r f) = cat x0 x1 x2 x3 x4 x5 r f := by
  unfold val_main_v10 cat
  by_cases h : f.val < 256
  · rw [dif_pos h, ← feat_white x0 x2 x3 r ⟨f.val, h⟩]
    exact concatenate_pair_apply_left 1 _ _ concatenates_S2048x256_S2048x256_S2048x512_d1 _ rfl _ (fun b => by
      match b with
      | ⟨0, _⟩ => rfl
      | ⟨1, _⟩ => rfl)
  · rw [dif_neg h, ← feat_black x1 x4 x5 r ⟨f.val - 256, by have := f.isLt; omega⟩]
    exact concatenate_pair_apply_right 1 _ _ concatenates_S2048x256_S2048x256_S2048x512_d1 _ rfl rfl _
      (fun b hb => by
        match b with
        | ⟨0, _⟩ => rfl
        | ⟨1, _⟩ => exact absurd rfl hb)
      (by show f.val - 256 + 256 = f.val; omega)

/-! ## The dense layers -/

/-- The first dense layer: the contraction of the joined row with row `i` of the weights (the program contracts
    with the transposed matrix), the bias added, clipped below at zero. -/
theorem dense1_eq (x0 x1 : (⟨S2048x40960, .f32⟩ : BufTy).Contents (Elt Ideal)) (x2 : (⟨S256x40960, .f32⟩ : BufTy).Contents (Elt Ideal))
    (x3 : (⟨S256, .f32⟩ : BufTy).Contents (Elt Ideal)) (x4 : (⟨S256x40960, .f32⟩ : BufTy).Contents (Elt Ideal))
    (x5 : (⟨S256, .f32⟩ : BufTy).Contents (Elt Ideal)) (x6 : (⟨S32x512, .f32⟩ : BufTy).Contents (Elt Ideal))
    (x7 : (⟨S32, .f32⟩ : BufTy).Contents (Elt Ideal)) (r : Fin 2048) (i : Fin 32) :
    val_main_v16 (F := Ideal) x0 x1 x2 x3 x4 x5 x6 x7 (ix2 r i) = dense1 (cat x0 x1 x2 x3 x4 x5) x6 x7 r i := by
  rw [val_main_v16_apply, val_main_v15_apply, val_main_v12_apply, val_main_v14_apply, val_main_v13_apply, zero2]
  have el : ∀ k : Fin 512, lidx_main_v12 (ix2 r i) k = ix2 r k := fun k => funext fun a => by
    match a with
    | ⟨0, _⟩ => rfl
    | ⟨1, _⟩ => rfl
  have er : ∀ k : Fin 512, idx_main_v11 (ridx_main_v12 (ix2 r i) k) = ix2 i k := fun k => funext fun a => by
    match a with
    | ⟨0, _⟩ => rfl
    | ⟨1, _⟩ => rfl
  have eb : idx_main_v13 (idx_main_v14 (ix2 r i)) = ix1 i := funext fun a => by
    match a with
    | ⟨0, _⟩ => rfl
  simp only [val_main_v11_apply, el, er, eb, cat_eq]
  rfl

/-- The second dense layer. -/
theorem dense2_eq (x0 x1 : (⟨S2048x40960, .f32⟩ : BufTy).Contents (Elt Ideal)) (x2 : (⟨S256x40960, .f32⟩ : BufTy).Contents (Elt Ideal))
    (x3 : (⟨S256, .f32⟩ : BufTy).Contents (Elt Ideal)) (x4 : (⟨S256x40960, .f32⟩ : BufTy).Contents (Elt Ideal))
    (x5 : (⟨S256, .f32⟩ : BufTy).Contents (Elt Ideal)) (x6 : (⟨S32x512, .f32⟩ : BufTy).Contents (Elt Ideal))
    (x7 : (⟨S32, .f32⟩ : BufTy).Contents (Elt Ideal)) (x8 : (⟨S32x32, .f32⟩ : BufTy).Contents (Elt Ideal))
    (x9 : (⟨S32, .f32⟩ : BufTy).Contents (Elt Ideal)) (r : Fin 2048) (j : Fin 32) :
    val_main_v22 (F := Ideal) x0 x1 x2 x3 x4 x5 x6 x7 x8 x9 (ix2 r j)
      = dense2 (dense1 (cat x0 x1 x2 x3 x4 x5) x6 x7) x8 x9 r j := by
  rw [val_main_v22_apply, val_main_v21_apply, val_main_v18_apply, val_main_v20_apply, val_main_v19_apply, zero3]
  have el : ∀ k : Fin 32, lidx_main_v18 (ix2 r j) k = ix2 r k := fun k => funext fun a => by
    match a with
    | ⟨0, _⟩ => rfl
    | ⟨1, _⟩ => rfl
  have er : ∀ k : Fin 32, idx_main_v17 (ridx_main_v18 (ix2 r j) k) = ix2 j k := fun k => funext fun a => by
    match a with
    | ⟨0, _⟩ => rfl
    | ⟨1, _⟩ => rfl
  have eb : idx_main_v19 (idx_main_v20 (ix2 r j)) = ix1 j := funext fun a => by
    match a with
    | ⟨0, _⟩ => rfl
  simp only [val_main_v17_apply, el, er, eb, dense1_eq]
  rfl

/-- The output layer: one unit, through the hyperbolic tangent. -/
theorem dense3_eq (x0 x1 : (⟨S2048x40960, .f32⟩ : BufTy).Contents (Elt Ideal)) (x2 : (⟨S256x40960, .f32⟩ : BufTy).Contents (Elt Ideal))
    (x3 : (⟨S256, .f32⟩ : BufTy).Contents (Elt Ideal)) (x4 : (⟨S256x40960, .f32⟩ : BufTy).Contents (Elt Ideal))
    (x5 : (⟨S256, .f32⟩ : BufTy).Contents (Elt Ideal)) (x6 : (⟨S32x512, .f32⟩ : BufTy).Contents (Elt Ideal))
    (x7 : (⟨S32, .f32⟩ : BufTy).Contents (Elt Ideal)) (x8 : (⟨S32x32, .f32⟩ : BufTy).Contents (Elt Ideal))
    (x9 : (⟨S32, .f32⟩ : BufTy).Contents (Elt Ideal)) (x10 : (⟨S1x32, .f32⟩ : BufTy).Contents (Elt Ideal))
    (x11 : (⟨S1, .f32⟩ : BufTy).Contents (Elt Ideal)) (r : Fin 2048) :
    val_main_v28 (F := Ideal) x0 x1 x2 x3 x4 x5 x6 x7 x8 x9 x10 x11 (ix2 r 0)
      = dense3 (dense2 (dense1 (cat x0 x1 x2 x3 x4 x5) x6 x7) x8 x9) x10 x11 r := by
  rw [val_main_v28_apply, val_main_v27_apply, val_main_v24_apply, val_main_v26_apply, val_main_v25_apply]
  have el : ∀ k : Fin 32, lidx_main_v24 (ix2 r 0) k = ix2 r k := fun k => funext fun a => by
    match a with
    | ⟨0, _⟩ => rfl
    | ⟨1, _⟩ => rfl
  have er : ∀ k : Fin 32, idx_main_v23 (ridx_main_v24 (ix2 r 0) k) = ix2 0 k := fun k => funext fun a => by
    match a with
    | ⟨0, _⟩ => rfl
    | ⟨1, _⟩ => rfl
  have eb : idx_main_v25 (idx_main_v26 (ix2 r 0)) = ix1 0 := funext fun a => by
    match a with
    | ⟨0, _⟩ => rfl
  simp only [val_main_v23_apply, el, er, eb, dense2_eq]
  unfold dense3
  simp only [Ideal.hostUnary_tanh_def, Ideal.addf_def]

/-! ## The whole program -/

/-- The reference's result, stage by stage, is the network of the specification. -/
theorem ref_eq_net
    (x0 x1 : (⟨S2048x40960, .f32⟩ : BufTy).Contents (Elt Ideal)) (x2 : (⟨S256x40960, .f32⟩ : BufTy).Contents (Elt Ideal))
    (x3 : (⟨S256, .f32⟩ : BufTy).Contents (Elt Ideal)) (x4 : (⟨S256x40960, .f32⟩ : BufTy).Contents (Elt Ideal))
    (x5 : (⟨S256, .f32⟩ : BufTy).Contents (Elt Ideal)) (x6 : (⟨S32x512, .f32⟩ : BufTy).Contents (Elt Ideal))
    (x7 : (⟨S32, .f32⟩ : BufTy).Contents (Elt Ideal)) (x8 : (⟨S32x32, .f32⟩ : BufTy).Contents (Elt Ideal))
    (x9 : (⟨S32, .f32⟩ : BufTy).Contents (Elt Ideal)) (x10 : (⟨S1x32, .f32⟩ : BufTy).Contents (Elt Ideal))
    (x11 : (⟨S1, .f32⟩ : BufTy).Contents (Elt Ideal)) :
    Cert.ReferenceIdeal.Read.val_main_v29 (F := Ideal) x0 x1 x2 x3 x4 x5 x6 x7 x8 x9 x10 x11
      = Cert.Spec.net x0 x1 x2 x3 x4 x5 x6 x7 x8 x9 x10 x11 := by
  funext y
  obtain ⟨r, rfl⟩ : ∃ r : Fin 2048, y = ix1 r := ⟨y 0, eq_ix1 y⟩
  have e : idx_main_v29 (ix1 r) = ix2 r 0 := funext fun a => by
    match a with
    | ⟨0, _⟩ => exact Fin.ext (Nat.div_one _)
    | ⟨1, _⟩ => rfl
  rw [val_main_v29_apply, e, dense3_eq]
  rfl

end Cert.ReferenceIdeal.RefNet

end
-- ==== Proof.lean ====
/-
  The certificate's five claims.

  Both printed kernel programs, the word-level one and its idealization, are the same five segments (two host
  reshapes, the feature-transform region over a 2 × 80 grid with its two accumulators carried in scratch across each
  batch tile's 80 feature blocks, three host reshapes, the one-point head region, one host reshape): every weakly fair
  execution runs them to the end without a fault and leaves the twelve argument arrays as launched — proved once at an
  arbitrary float instance and read at each. The reference's frame is its run with the result dropped. The
  idealization rewrote nothing, so it preserves the kernel trivially.

  On the extended reals the idealized kernel's result and the reference's are one function of the arguments, the
  network `Cert.Spec.net`: two clipped affine feature transformers laid side by side, two clipped dense layers and a
  hyperbolic-tangent output unit. The kernel reaches each transformer's contraction over 40960 features as 80 partial
  sums of 512 products accumulated block by block from zero, the reference as one sum; addition of extended reals is
  commutative and associative, so the two agree with no appeal to finiteness of the inputs.
-/
import proofs.«103038_j39840116637857_1_alg».proof.Defs
import proofs.«103038_j39840116637857_1_alg».proof.Proof.Gen.Kernel
import proofs.«103038_j39840116637857_1_alg».proof.Proof.Gen.KernelIdeal
import proofs.«103038_j39840116637857_1_alg».proof.Proof.Gen.ReferenceIdeal
import proofs.«103038_j39840116637857_1_alg».proof.Proof.Gen.ReferenceIdeal.Run
import proofs.«103038_j39840116637857_1_alg».proof.Proof.Gen.ReferenceIdeal.Read
import proofs.«103038_j39840116637857_1_alg».proof.Proof.Gen.Pre_finite_inputs
import proofs.«103038_j39840116637857_1_alg».proof.Proof.K.Ends
import proofs.«103038_j39840116637857_1_alg».proof.Proof.KI.Ends
import proofs.«103038_j39840116637857_1_alg».proof.Proof.KI.Final
import proofs.«103038_j39840116637857_1_alg».proof.Proof.RefNet
import proofs.«103038_j39840116637857_1_alg».proof.Proof.Spec

noncomputable section

namespace Cert.Proof

open Idealize.ShloMosaic Idealize.SL.Sem

theorem frame_kernel : Cert.frame_Kernel := fun m ρ _ => Cert.Kernel.Fr.frame m ρ

theorem frame_kernelIdeal : Cert.frame_KernelIdeal := fun m ρ _ => Cert.KernelIdeal.Fr.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network of the arguments in their result buffer: the kernel by its run with
    the result named and the reading of that result, the reference by its run and the reading of its stages. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun _ h c => ⟨(h c).1.trans (Cert.KernelIdeal.Fr.result_eq m c), (h c).2⟩)
      (Cert.KernelIdeal.Fr.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, Cert.ReferenceIdeal.RefNet.ref_eq_net]
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
